-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4 : Shape := ⟨2, ![32768, 4]⟩
abbrev S4x512 : Shape := ⟨2, ![4, 512]⟩
abbrev S512 : Shape := ⟨1, ![512]⟩
abbrev S7x512x512 : Shape := ⟨3, ![7, 512, 512]⟩
abbrev S7x512 : Shape := ⟨2, ![7, 512]⟩
abbrev S512x4 : Shape := ⟨2, ![512, 4]⟩
abbrev S4 : Shape := ⟨1, ![4]⟩
abbrev S_ : Shape := ⟨0, ![]⟩

class Facts : Prop where
  bcast_S_S32768x4 : S_.BroadcastsInDim S32768x4 (![] : Fin 0 → Fin S32768x4.rank)
  reducesTo_S32768x4_S_d0_1 : S32768x4.ReducesTo [0, 1] S_
  h_S_ : 0 < S_.numel
  bcast_S_S4x512 : S_.BroadcastsInDim S4x512 (![] : Fin 0 → Fin S4x512.rank)
  reducesTo_S4x512_S_d0_1 : S4x512.ReducesTo [0, 1] S_
  bcast_S_S512 : S_.BroadcastsInDim S512 (![] : Fin 0 → Fin S512.rank)
  reducesTo_S512_S_d0 : S512.ReducesTo [0] S_
  bcast_S_S7x512x512 : S_.BroadcastsInDim S7x512x512 (![] : Fin 0 → Fin S7x512x512.rank)
  reducesTo_S7x512x512_S_d0_1_2 : S7x512x512.ReducesTo [0, 1, 2] S_
  bcast_S_S7x512 : S_.BroadcastsInDim S7x512 (![] : Fin 0 → Fin S7x512.rank)
  reducesTo_S7x512_S_d0_1 : S7x512.ReducesTo [0, 1] S_
  bcast_S_S512x4 : S_.BroadcastsInDim S512x4 (![] : Fin 0 → Fin S512x4.rank)
  reducesTo_S512x4_S_d0_1 : S512x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S7x512 .f32) (main_arg5 : FVec F S512x4 .f32) (main_arg6 : FVec F S4 .f32) (main_v13 : IVec S_ 1) (main_v16 : IVec S7x512x512 1) : IVec S_ 1 :=
  let main_c_5 : IVec S_ 1 := constantI S_ 1 1#1
  let main_v17 : IVec S_ 1 := (fun x v => Host.reduce IntOp.andi x v reducesTo_S7x512x512_S_d0_1_2 h_S_) main_v16 main_c_5
  let main_v18 : IVec S_ 1 := andi main_v13 main_v17
  let main_v19 : FVec F S7x512 .f32 := Host.absf main_arg4
  let main_cst_6 : FVec F S_ .f32 := constant S_ .f32 0x7F800000#32
  let main_v20 : FVec F S7x512 .f32 := broadcastInDim S7x512 ![] bcast_S_S7x512 main_cst_6
  let main_v21 : IVec S7x512 1 := cmpf .olt main_v19 main_v20
  let main_c_7 : IVec S_ 1 := constantI S_ 1 1#1
  let main_v22 : IVec S_ 1 := (fun x v => Host.reduce IntOp.andi x v reducesTo_S7x512_S_d0_1 h_S_) main_v21 main_c_7
  let main_v23 : IVec S_ 1 := andi main_v18 main_v22
  let main_v24 : FVec F S512x4 .f32 := Host.absf main_arg5
  let main_cst_8 : FVec F S_ .f32 := constant S_ .f32 0x7F800000#32
  let main_v25 : FVec F S512x4 .f32 := broadcastInDim S512x4 ![] bcast_S_S512x4 main_cst_8
  let main_v26 : IVec S512x4 1 := cmpf .olt main_v24 main_v25
  let main_c_9 : IVec S_ 1 := constantI S_ 1 1#1
  let main_v27 : IVec S_ 1 := (fun x v => Host.reduce IntOp.andi x v reducesTo_S512x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S32768x4 .f32) (main_arg1 : FVec F S4x512 .f32) (main_arg2 : FVec F S512 .f32) (main_arg3 : FVec F S7x512x512 .f32) (main_arg4 : FVec F S7x512 .f32) (main_arg5 : FVec F S512x4 .f32) (main_arg6 : FVec F S4 .f32) : IVec S_ 1 :=
  let main_v0 : FVec F S32768x4 .f32 := Host.absf main_arg0
  let main_cst : FVec F S_ .f32 := constant S_ .f32 0x7F800000#32
  let main_v1 : FVec F S32768x4 .f32 := broadcastInDim S32768x4 ![] bcast_S_S32768x4 main_cst
  let main_v2 : IVec S32768x4 1 := cmpf .olt main_v0 main_v1
  let main_c : IVec S_ 1 := constantI S_ 1 1#1
  let main_v3 : IVec S_ 1 := (fun x v => Host.reduce IntOp.andi x v reducesTo_S32768x4_S_d0_1 h_S_) main_v2 main_c
  let main_v4 : FVec F S4x512 .f32 := Host.absf main_arg1
  let main_cst_0 : FVec F S_ .f32 := constant S_ .f32 0x7F800000#32
  let main_v5 : FVec F S4x512 .f32 := broadcastInDim S4x512 ![] bcast_S_S4x512 main_cst_0
  let main_v6 : IVec S4x512 1 := cmpf .olt main_v4 main_v5
  let main_c_1 : IVec S_ 1 := constantI S_ 1 1#1
  let main_v7 : IVec S_ 1 := (fun x v => Host.reduce IntOp.andi x v reducesTo_S4x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S7x512x512 .f32 := Host.absf main_arg3
  let main_cst_4 : FVec F S_ .f32 := constant S_ .f32 0x7F800000#32
  let main_v15 : FVec F S7x512x512 .f32 := broadcastInDim S7x512x512 ![] bcast_S_S7x512x512 main_cst_4
  let main_v16 : IVec S7x512x512 1 := cmpf .olt main_v14 main_v15
  fn_part1 (F := F) main_arg4 main_arg5 main_arg6 main_v13 main_v16
-- ==== Kernel.lean ====
abbrev S32768x4 : Shape := ⟨2, ![32768, 4]⟩
abbrev S4x512 : Shape := ⟨2, ![4, 512]⟩
abbrev S512 : Shape := ⟨1, ![512]⟩
abbrev S7x512x512 : Shape := ⟨3, ![7, 512, 512]⟩
abbrev S7x512 : Shape := ⟨2, ![7, 512]⟩
abbrev S512x4 : Shape := ⟨2, ![512, 4]⟩
abbrev S4 : Shape := ⟨1, ![4]⟩
abbrev S1x512 : Shape := ⟨2, ![1, 512]⟩
abbrev S32768x6 : Shape := ⟨2, ![32768, 6]⟩
abbrev S1024x4 : Shape := ⟨2, ![1024, 4]⟩
abbrev S1024x6 : Shape := ⟨2, ![1024, 6]⟩
abbrev S1024x512 : Shape := ⟨2, ![1024, 512]⟩
abbrev S1x512x512 : Shape := ⟨3, ![1, 512, 512]⟩
abbrev S512x512 : Shape := ⟨2, ![512, 512]⟩
abbrev S4096x512 : Shape := ⟨2, ![4096, 512]⟩
abbrev S3072x512 : Shape := ⟨2, ![3072, 512]⟩
abbrev S3072x4 : Shape := ⟨2, ![3072, 4]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S32768x4, .f32⟩
  | .hbm, ⟨1, _⟩ => ⟨S4x512, .f32⟩
  | .hbm, ⟨2, _⟩ => ⟨S512, .f32⟩
  | .hbm, ⟨3, _⟩ => ⟨S7x512x512, .f32⟩
  | .hbm, ⟨4, _⟩ => ⟨S7x512, .f32⟩
  | .hbm, ⟨5, _⟩ => ⟨S512x4, .f32⟩
  | .hbm, ⟨6, _⟩ => ⟨S4, .f32⟩
  | .hbm, ⟨7, _⟩ => ⟨S4x512, .bf16⟩
  | .hbm, ⟨8, _⟩ => ⟨S7x512x512, .bf16⟩
  | .hbm, ⟨9, _⟩ => ⟨S512x4, .bf16⟩
  | .hbm, ⟨10, _⟩ => ⟨S1x512, .f32⟩
  | .hbm, ⟨11, _⟩ => ⟨S32768x6, .f32⟩
  | .local _ .vmem, ⟨0, _⟩ => ⟨S1024x4, .f32⟩
  | .local _ .vmem, ⟨1, _⟩ => ⟨S1024x4, .f32⟩
  | .local _ .vmem, ⟨2, _⟩ => ⟨S4x512, .bf16⟩
  | .local _ .vmem, ⟨3, _⟩ => ⟨S1x512, .f32⟩
  | .local _ .vmem, ⟨4, _⟩ => ⟨S7x512x512, .bf16⟩
  | .local _ .vmem, ⟨5, _⟩ => ⟨S7x512, .f32⟩
  | .local _ .vmem, ⟨6, _⟩ => ⟨S512x4, .bf16⟩
  | .local _ .vmem, ⟨7, _⟩ => ⟨S1024x6, .f32⟩
  | .local _ .vmem, ⟨8, _⟩ => ⟨S1024x6, .f32⟩
  | _, _ => ⟨S32768x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x6 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S512_S1x512 : S512.ShapeCasts S1x512
  inb_S1024x4_S1024x4_0_0 : ∀ a, (![0, 0] : Fin 2 → Nat) a + S1024x4.size a ≤ S1024x4.size a
  h_S1024x4 : 0 < S1024x4.numel
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S4x512_o0_0_S1x512 : S4x512.Slices ![0, 0] S1x512
  slices_S4x512_o1_0_S1x512 : S4x512.Slices ![1, 0] S1x512
  slices_S4x512_o2_0_S1x512 : S4x512.Slices ![2, 0] S1x512
  inb_S7x512x512_S1x512x512_0_0_0 : ∀ a, (![0, 0, 0] : Fin 3 → Nat) a + S1x512x512.size a ≤ S7x512x512.size a
  h_S1x512x512 : 0 < S1x512x512.numel
  shapeCasts_S1x512x512_S512x512 : S1x512x512.ShapeCasts S512x512
  inb_S7x512_S1x512_0_0 : ∀ a, (![0, 0] : Fin 2 → Nat) a + S1x512.size a ≤ S7x512.size a
  concatenates_S1024x512_S1024x512_S1024x512_S1024x512_S4096x512_d0 : Shape.Concatenates [S1024x512, S1024x512, S1024x512, S1024x512] S4096x512 0
  slices_S4096x512_o0_0_S1024x512 : S4096x512.Slices ![0, 0] S1024x512
  slices_S4096x512_o1024_0_S1024x512 : S4096x512.Slices ![1024, 0] S1024x512
  slices_S4096x512_o2048_0_S1024x512 : S4096x512.Slices ![2048, 0] S1024x512
  slices_S4096x512_o3072_0_S1024x512 : S4096x512.Slices ![3072, 0] S1024x512
  inb_S7x512x512_S1x512x512_1_0_0 : ∀ a, (![1, 0, 0] : Fin 3 → Nat) a + S1x512x512.size a ≤ S7x512x512.size a
  inb_S7x512_S1x512_1_0 : ∀ a, (![1, 0] : Fin 2 → Nat) a + S1x512.size a ≤ S7x512.size a
  inb_S7x512x512_S1x512x512_2_0_0 : ∀ a, (![2, 0, 0] : Fin 3 → Nat) a + S1x512x512.size a ≤ S7x512x512.size a
  inb_S7x512_S1x512_2_0 : ∀ a, (![2, 0] : Fin 2 → Nat) a + S1x512.size a ≤ S7x512.size a
  inb_S7x512x512_S1x512x512_3_0_0 : ∀ a, (![3, 0, 0] : Fin 3 → Nat) a + S1x512x512.size a ≤ S7x512x512.size a
  inb_S7x512_S1x512_3_0 : ∀ a, (![3, 0] : Fin 2 → Nat) a + S1x512.size a ≤ S7x512.size a
  inb_S7x512x512_S1x512x512_4_0_0 : ∀ a, (![4, 0, 0] : Fin 3 → Nat) a + S1x512x512.size a ≤ S7x512x512.size a
  inb_S7x512_S1x512_4_0 : ∀ a, (![4, 0] : Fin 2 → Nat) a + S1x512.size a ≤ S7x512.size a
  inb_S7x512x512_S1x512x512_5_0_0 : ∀ a, (![5, 0, 0] : Fin 3 → Nat) a + S1x512x512.size a ≤ S7x512x512.size a
  inb_S7x512_S1x512_5_0 : ∀ a, (![5, 0] : Fin 2 → Nat) a + S1x512.size a ≤ S7x512.size a
  inb_S7x512x512_S1x512x512_6_0_0 : ∀ a, (![6, 0, 0] : Fin 3 → Nat) a + S1x512x512.size a ≤ S7x512x512.size a
  inb_S7x512_S1x512_6_0 : ∀ a, (![6, 0] : Fin 2 → Nat) a + S1x512.size a ≤ S7x512.size a
  inb_S512x4_S512x4_0_0 : ∀ a, (![0, 0] : Fin 2 → Nat) a + S512x4.size a ≤ S512x4.size a
  h_S512x4 : 0 < S512x4.numel
  shapeCasts_S512x4_S512x4 : S512x4.ShapeCasts S512x4
  concatenates_S1024x512_S1024x512_S1024x512_S3072x512_d0 : Shape.Concatenates [S1024x512, S1024x512, S1024x512] S3072x512 0
  slices_S3072x4_o0_0_S1024x4 : S3072x4.Slices ![0, 0] S1024x4
  slices_S3072x4_o1024_0_S1024x4 : S3072x4.Slices ![1024, 0] S1024x4
  slices_S3072x4_o2048_0_S1024x4 : S3072x4.Slices ![2048, 0] S1024x4
  slices_S1024x4_o0_2_S1024x1 : S1024x4.Slices ![0, 2] S1024x1
  slices_S1024x4_o0_1_S1024x1 : S1024x4.Slices ![0, 1] S1024x1
  slices_S1024x4_o0_0_S1024x1 : S1024x4.Slices ![0, 0] S1024x1
  slices_S1024x4_o0_3_S1024x1 : S1024x4.Slices ![0, 3] S1024x1
  concatenates_S1024x1_S1024x1_S1024x1_S1024x1_S1024x1_S1024x1_S1024x6_d1 : Shape.Concatenates [S1024x1, S1024x1, S1024x1, S1024x1, S1024x1, S1024x1] S1024x6 1
  inb_S1024x6_S1024x6_0_0 : ∀ a, (![0, 0] : Fin 2 → Nat) a + S1024x6.size a ≤ S1024x6.size a
  h_S1024x6 : 0 < S1024x6.numel
  dot_S1024x4_S4x512_S1024x512_1_0_0_1_n_n_wf : DotDims.WF S1024x4 S4x512 S1024x512 [1] [0] [0] [1] [] []
  dot_S4096x512_S512x512_S4096x512_1_0_0_1_n_n_wf : DotDims.WF S4096x512 S512x512 S4096x512 [1] [0] [0] [1] [] []
  dot_S3072x512_S512x4_S3072x4_1_0_0_1_n_n_wf : DotDims.WF S3072x512 S512x4 S3072x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S32768x4.size a
  hwx0_0 : ∀ i : grid0.Coords, EltTy.bits .f32 = 32 ∨ (Rect.block (s := S32768x4) S1024x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x512.size a
  hwx0_1 : ∀ i : grid0.Coords, EltTy.bits .bf16 = 32 ∨ (Rect.block (s := S4x512) S4x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x512x512.size a ≤ S7x512x512.size a
  hwx0_3 : ∀ i : grid0.Coords, EltTy.bits .bf16 = 32 ∨ (Rect.block (s := S7x512x512) S7x512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x512.size a ≤ S7x512.size a
  hwx0_4 : ∀ i : grid0.Coords, EltTy.bits .f32 = 32 ∨ (Rect.block (s := S7x512) S7x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x4.size a ≤ S512x4.size a
  hwx0_5 : ∀ i : grid0.Coords, EltTy.bits .bf16 = 32 ∨ (Rect.block (s := S512x4) S512x4.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x6.size a ≤ S32768x6.size a
  hwx0_6 : ∀ i : grid0.Coords, EltTy.bits .f32 = 32 ∨ (Rect.block (s := S32768x6) S1024x6.size (cc0_transform_6 i) (hinb0_6 i)).WholeWords (EltTy.packing .f32)

variable [Facts₀]

def dot_S1024x4_S4x512_S1024x512_1_0_0_1_n_n : DotDims S1024x4 S4x512 S1024x512 where
  lhsContracting := [1]
  rhsContracting := [0]
  lhsNonContracting := [0]
  rhsNonContracting := [1]
  lhsBatch := []
  rhsBatch := []
  wf := dot_S1024x4_S4x512_S1024x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S3072x512_S512x4_S3072x4_1_0_0_1_n_n : DotDims S3072x512 S512x4 S3072x4 where
  lhsContracting := [1]
  rhsContracting := [0]
  lhsNonContracting := [0]
  rhsNonContracting := [1]
  lhsBatch := []
  rhsBatch := []
  wf := dot_S3072x512_S512x4_S3072x4_1_0_0_1_n_n_wf

abbrev win0_0 : Pipeline.Window sig grid0 :=
  Pipeline.Window.ofSpec (Memref.whole main_arg0) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S7x512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S7x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x6.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x4 : Shape := ⟨2, ![32768, 4]⟩
abbrev S4x512 : Shape := ⟨2, ![4, 512]⟩
abbrev S512 : Shape := ⟨1, ![512]⟩
abbrev S7x512x512 : Shape := ⟨3, ![7, 512, 512]⟩
abbrev S7x512 : Shape := ⟨2, ![7, 512]⟩
abbrev S512x4 : Shape := ⟨2, ![512, 4]⟩
abbrev S4 : Shape := ⟨1, ![4]⟩
abbrev S32768x512 : Shape := ⟨2, ![32768, 512]⟩
abbrev S1x512 : Shape := ⟨2, ![1, 512]⟩
abbrev S1x512x512 : Shape := ⟨3, ![1, 512, 512]⟩
abbrev S512x512 : Shape := ⟨2, ![512, 512]⟩
abbrev S_ : Shape := ⟨0, ![]⟩
abbrev S1x4 : Shape := ⟨2, ![1, 4]⟩
abbrev S4x4 : Shape := ⟨2, ![4, 4]⟩
abbrev S32768x1 : Shape := ⟨2, ![32768, 1]⟩
abbrev S32768 : Shape := ⟨1, ![32768]⟩
abbrev S32768x6 : Shape := ⟨2, ![32768, 6]⟩

abbrev nBuf : Space → Nat
  | .hbm => 266
  | .vmem => 0
  | .smem => 0
  | _ => 0

abbrev hbmTy0_0 (i : Nat) : BufTy := match i % 128 with
  | 0 => ⟨S32768x4, .f32⟩
  | 1 => ⟨S4x512, .f32⟩
  | 2 => ⟨S512, .f32⟩
  | 3 => ⟨S7x512x512, .f32⟩
  | 4 => ⟨S7x512, .f32⟩
  | 5 => ⟨S512x4, .f32⟩
  | 6 => ⟨S4, .f32⟩
  | 7 => ⟨S32768x512, .f32⟩
  | 8 => ⟨S1x512, .f32⟩
  | 9 => ⟨S32768x512, .f32⟩
  | 10 => ⟨S32768x512, .f32⟩
  | 11 => ⟨S1x512x512, .f32⟩
  | 12 => ⟨S512x512, .f32⟩
  | 13 => ⟨S32768x512, .f32⟩
  | 14 => ⟨S1x512, .f32⟩
  | 15 => ⟨S512, .f32⟩
  | 16 => ⟨S1x512, .f32⟩
  | 17 => ⟨S32768x512, .f32⟩
  | 18 => ⟨S32768x512, .f32⟩
  | 19 => ⟨S32768x512, .f32⟩
  | 20 => ⟨S_, .f32⟩
  | 21 => ⟨S32768x512, .f32⟩
  | 22 => ⟨S32768x512, .f32⟩
  | 23 => ⟨S1x512x512, .f32⟩
  | 24 => ⟨S512x512, .f32⟩
  | 25 => ⟨S32768x512, .f32⟩
  | 26 => ⟨S1x512, .f32⟩
  | 27 => ⟨S512, .f32⟩
  | 28 => ⟨S1x512, .f32⟩
  | 29 => ⟨S32768x512, .f32⟩
  | 30 => ⟨S32768x512, .f32⟩
  | 31 => ⟨S32768x512, .f32⟩
  | 32 => ⟨S_, .f32⟩
  | 33 => ⟨S32768x512, .f32⟩
  | 34 => ⟨S32768x512, .f32⟩
  | 35 => ⟨S1x512x512, .f32⟩
  | 36 => ⟨S512x512, .f32⟩
  | 37 => ⟨S32768x512, .f32⟩
  | 38 => ⟨S1x512, .f32⟩
  | 39 => ⟨S512, .f32⟩
  | 40 => ⟨S1x512, .f32⟩
  | 41 => ⟨S32768x512, .f32⟩
  | 42 => ⟨S32768x512, .f32⟩
  | 43 => ⟨S32768x512, .f32⟩
  | 44 => ⟨S_, .f32⟩
  | 45 => ⟨S32768x512, .f32⟩
  | 46 => ⟨S32768x512, .f32⟩
  | 47 => ⟨S1x512x512, .f32⟩
  | 48 => ⟨S512x512, .f32⟩
  | 49 => ⟨S32768x512, .f32⟩
  | 50 => ⟨S1x512, .f32⟩
  | 51 => ⟨S512, .f32⟩
  | 52 => ⟨S1x512, .f32⟩
  | 53 => ⟨S32768x512, .f32⟩
  | 54 => ⟨S32768x512, .f32⟩
  | 55 => ⟨S32768x512, .f32⟩
  | 56 => ⟨S_, .f32⟩
  | 57 => ⟨S32768x512, .f32⟩
  | 58 => ⟨S32768x512, .f32⟩
  | 59 => ⟨S1x512x512, .f32⟩
  | 60 => ⟨S512x512, .f32⟩
  | 61 => ⟨S32768x512, .f32⟩
  | 62 => ⟨S1x512, .f32⟩
  | 63 => ⟨S512, .f32⟩
  | 64 => ⟨S1x512, .f32⟩
  | 65 => ⟨S32768x512, .f32⟩
  | 66 => ⟨S32768x512, .f32⟩
  | 67 => ⟨S32768x512, .f32⟩
  | 68 => ⟨S_, .f32⟩
  | 69 => ⟨S32768x512, .f32⟩
  | 70 => ⟨S32768x512, .f32⟩
  | 71 => ⟨S1x512x512, .f32⟩
  | 72 => ⟨S512x512, .f32⟩
  | 73 => ⟨S32768x512, .f32⟩
  | 74 => ⟨S1x512, .f32⟩
  | 75 => ⟨S512, .f32⟩
  | 76 => ⟨S1x512, .f32⟩
  | 77 => ⟨S32768x512, .f32⟩
  | 78 => ⟨S32768x512, .f32⟩
  | 79 => ⟨S32768x512, .f32⟩
  | 80 => ⟨S_, .f32⟩
  | 81 => ⟨S32768x512, .f32⟩
  | 82 => ⟨S32768x512, .f32⟩
  | 83 => ⟨S1x512x512, .f32⟩
  | 84 => ⟨S512x512, .f32⟩
  | 85 => ⟨S32768x512, .f32⟩
  | 86 => ⟨S1x512, .f32⟩
  | 87 => ⟨S512, .f32⟩
  | 88 => ⟨S1x512, .f32⟩
  | 89 => ⟨S32768x512, .f32⟩
  | 90 => ⟨S32768x512, .f32⟩
  | 91 => ⟨S32768x512, .f32⟩
  | 92 => ⟨S_, .f32⟩
  | 93 => ⟨S32768x512, .f32⟩
  | 94 => ⟨S32768x512, .f32⟩
  | 95 => ⟨S32768x4, .f32⟩
  | 96 => ⟨S1x4, .f32⟩
  | 97 => ⟨S32768x4, .f32⟩
  | 98 => ⟨S32768x4, .f32⟩
  | 99 => ⟨S4x4, .i32⟩
  | 100 => ⟨S4x4, .i32⟩
  | 101 => ⟨S_, .i32⟩
  | 102 => ⟨S4x4, .i32⟩
  | 103 => ⟨S4x4, .i32⟩
  | 104 => ⟨S4x4, .i1⟩
  | 105 => ⟨S4x4, .f32⟩
  | 106 => ⟨S1x4, .f32⟩
  | 107 => ⟨S4, .f32⟩
  | 108 => ⟨S32768x4, .f32⟩
  | 109 => ⟨S32768x512, .f32⟩
  | 110 => ⟨S32768x512, .f32⟩
  | 111 => ⟨S32768x512, .f32⟩
  | 112 => ⟨S32768x512, .f32⟩
  | 113 => ⟨S32768x512, .f32⟩
  | 114 => ⟨S32768x512, .f32⟩
  | 115 => ⟨S32768x512, .f32⟩
  | 116 => ⟨S32768x512, .f32⟩
  | 117 => ⟨S32768x512, .f32⟩
  | 118 => ⟨S32768x512, .f32⟩
  | 119 => ⟨S32768x512, .f32⟩
  | 120 => ⟨S32768x512, .f32⟩
  | 121 => ⟨S32768x512, .f32⟩
  | 122 => ⟨S32768x512, .f32⟩
  | 123 => ⟨S32768x512, .f32⟩
  | 124 => ⟨S32768x512, .f32⟩
  | 125 => ⟨S32768x512, .f32⟩
  | 126 => ⟨S32768x512, .f32⟩
  | 127 => ⟨S32768x512, .f32⟩
  | _ => ⟨S32768x4, .f32⟩

abbrev hbmTy0_1 (i : Nat) : BufTy := match i % 128 with
  | 0 => ⟨S32768x512, .f32⟩
  | 1 => ⟨S32768x512, .f32⟩
  | 2 => ⟨S32768x512, .f32⟩
  | 3 => ⟨S32768x512, .f32⟩
  | 4 => ⟨S32768x512, .f32⟩
  | 5 => ⟨S32768x512, .f32⟩
  | 6 => ⟨S32768x512, .f32⟩
  | 7 => ⟨S32768x512, .f32⟩
  | 8 => ⟨S32768x512, .f32⟩
  | 9 => ⟨S32768x512, .f32⟩
  | 10 => ⟨S32768x4, .f32⟩
  | 11 => ⟨S1x4, .f32⟩
  | 12 => ⟨S4, .f32⟩
  | 13 => ⟨S32768x4, .f32⟩
  | 14 => ⟨S32768x512, .f32⟩
  | 15 => ⟨S32768x512, .f32⟩
  | 16 => ⟨S32768x512, .f32⟩
  | 17 => ⟨S32768x512, .f32⟩
  | 18 => ⟨S32768x512, .f32⟩
  | 19 => ⟨S32768x512, .f32⟩
  | 20 => ⟨S32768x512, .f32⟩
  | 21 => ⟨S32768x512, .f32⟩
  | 22 => ⟨S32768x512, .f32⟩
  | 23 => ⟨S32768x512, .f32⟩
  | 24 => ⟨S32768x512, .f32⟩
  | 25 => ⟨S32768x512, .f32⟩
  | 26 => ⟨S32768x512, .f32⟩
  | 27 => ⟨S32768x512, .f32⟩
  | 28 => ⟨S32768x512, .f32⟩
  | 29 => ⟨S32768x512, .f32⟩
  | 30 => ⟨S32768x512, .f32⟩
  | 31 => ⟨S32768x512, .f32⟩
  | 32 => ⟨S32768x512, .f32⟩
  | 33 => ⟨S32768x512, .f32⟩
  | 34 => ⟨S32768x512, .f32⟩
  | 35 => ⟨S32768x512, .f32⟩
  | 36 => ⟨S32768x512, .f32⟩
  | 37 => ⟨S32768x512, .f32⟩
  | 38 => ⟨S32768x512, .f32⟩
  | 39 => ⟨S32768x512, .f32⟩
  | 40 => ⟨S32768x512, .f32⟩
  | 41 => ⟨S32768x512, .f32⟩
  | 42 => ⟨S32768x512, .f32⟩
  | 43 => ⟨S32768x4, .f32⟩
  | 44 => ⟨S1x4, .f32⟩
  | 45 => ⟨S4, .f32⟩
  | 46 => ⟨S32768x4, .f32⟩
  | 47 => ⟨S32768x512, .f32⟩
  | 48 => ⟨S32768x512, .f32⟩
  | 49 => ⟨S32768x512, .f32⟩
  | 50 => ⟨S32768x512, .f32⟩
  | 51 => ⟨S32768x512, .f32⟩
  | 52 => ⟨S32768x512, .f32⟩
  | 53 => ⟨S32768x512, .f32⟩
  | 54 => ⟨S32768x512, .f32⟩
  | 55 => ⟨S32768x512, .f32⟩
  | 56 => ⟨S32768x512, .f32⟩
  | 57 => ⟨S32768x512, .f32⟩
  | 58 => ⟨S32768x512, .f32⟩
  | 59 => ⟨S32768x512, .f32⟩
  | 60 => ⟨S32768x512, .f32⟩
  | 61 => ⟨S32768x512, .f32⟩
  | 62 => ⟨S32768x512, .f32⟩
  | 63 => ⟨S32768x512, .f32⟩
  | 64 => ⟨S32768x512, .f32⟩
  | 65 => ⟨S32768x512, .f32⟩
  | 66 => ⟨S32768x512, .f32⟩
  | 67 => ⟨S32768x512, .f32⟩
  | 68 => ⟨S32768x512, .f32⟩
  | 69 => ⟨S32768x512, .f32⟩
  | 70 => ⟨S32768x512, .f32⟩
  | 71 => ⟨S32768x512, .f32⟩
  | 72 => ⟨S32768x512, .f32⟩
  | 73 => ⟨S32768x512, .f32⟩
  | 74 => ⟨S32768x512, .f32⟩
  | 75 => ⟨S32768x512, .f32⟩
  | 76 => ⟨S32768x4, .f32⟩
  | 77 => ⟨S1x4, .f32⟩
  | 78 => ⟨S4, .f32⟩
  | 79 => ⟨S32768x4, .f32⟩
  | 80 => ⟨S32768x512, .f32⟩
  | 81 => ⟨S32768x512, .f32⟩
  | 82 => ⟨S32768x512, .f32⟩
  | 83 => ⟨S32768x512, .f32⟩
  | 84 => ⟨S32768x512, .f32⟩
  | 85 => ⟨S32768x512, .f32⟩
  | 86 => ⟨S32768x512, .f32⟩
  | 87 => ⟨S32768x512, .f32⟩
  | 88 => ⟨S32768x512, .f32⟩
  | 89 => ⟨S32768x512, .f32⟩
  | 90 => ⟨S32768x512, .f32⟩
  | 91 => ⟨S32768x512, .f32⟩
  | 92 => ⟨S32768x512, .f32⟩
  | 93 => ⟨S32768x512, .f32⟩
  | 94 => ⟨S32768x512, .f32⟩
  | 95 => ⟨S32768x512, .f32⟩
  | 96 => ⟨S32768x512, .f32⟩
  | 97 => ⟨S32768x512, .f32⟩
  | 98 => ⟨S32768x512, .f32⟩
  | 99 => ⟨S32768x512, .f32⟩
  | 100 => ⟨S32768x512, .f32⟩
  | 101 => ⟨S32768x512, .f32⟩
  | 102 => ⟨S32768x512, .f32⟩
  | 103 => ⟨S32768x512, .f32⟩
  | 104 => ⟨S32768x512, .f32⟩
  | 105 => ⟨S32768x512, .f32⟩
  | 106 => ⟨S32768x512, .f32⟩
  | 107 => ⟨S32768x512, .f32⟩
  | 108 => ⟨S32768x512, .f32⟩
  | 109 => ⟨S32768x4, .f32⟩
  | 110 => ⟨S32768x1, .f32⟩
  | 111 => ⟨S32768, .f32⟩
  | 112 => ⟨S32768x1, .f32⟩
  | 113 => ⟨S32768, .f32⟩
  | 114 => ⟨S32768, .f32⟩
  | 115 => ⟨S32768x1, .f32⟩
  | 116 => ⟨S32768, .f32⟩
  | 117 => ⟨S32768x1, .f32⟩
  | 118 => ⟨S32768, .f32⟩
  | 119 => ⟨S32768, .f32⟩
  | 120 => ⟨S32768x1, .f32⟩
  | 121 => ⟨S32768, .f32⟩
  | 122 => ⟨S32768x1, .f32⟩
  | 123 => ⟨S32768, .f32⟩
  | 124 => ⟨S32768, .f32⟩
  | 125 => ⟨S32768x1, .f32⟩
  | 126 => ⟨S32768, .f32⟩
  | 127 => ⟨S32768x1, .f32⟩
  | _ => ⟨S32768x4, .f32⟩

abbrev hbmTy0_2 (i : Nat) : BufTy := match i % 128 with
  | 0 => ⟨S32768, .f32⟩
  | 1 => ⟨S32768x1, .f32⟩
  | 2 => ⟨S32768, .f32⟩
  | 3 => ⟨S32768x1, .f32⟩
  | 4 => ⟨S32768x1, .f32⟩
  | 5 => ⟨S32768x1, .f32⟩
  | 6 => ⟨S32768x1, .f32⟩
  | 7 => ⟨S32768x1, .f32⟩
  | 8 => ⟨S32768x1, .f32⟩
  | 9 => ⟨S32768x6, .f32⟩
  | _ => ⟨S32768x4, .f32⟩

abbrev hbmTy (i : Nat) : BufTy := match i / 128 with
  | 0 => hbmTy0_0 i
  | 1 => hbmTy0_1 i
  | 2 => hbmTy0_2 i
  | _ => ⟨S32768x4, .f32⟩

abbrev bufTy : (tb : Table) → Fin (tcTables nBuf tb) → BufTy
  | .hbm, ⟨i, _⟩ => hbmTy i
  | _, _ => ⟨S32768x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_3 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_4 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_5 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_c : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_v201 : Ref sig .tc := ⟨.hbm, 216, rfl⟩
abbrev main_v202 : Ref sig .tc := ⟨.hbm, 217, rfl⟩
abbrev main_v203 : Ref sig .tc := ⟨.hbm, 218, rfl⟩
abbrev main_v204 : Ref sig .tc := ⟨.hbm, 219, rfl⟩
abbrev main_v205 : Ref sig .tc := ⟨.hbm, 220, rfl⟩
abbrev main_v206 : Ref sig .tc := ⟨.hbm, 221, rfl⟩
abbrev main_v207 : Ref sig .tc := ⟨.hbm, 222, rfl⟩
abbrev main_v208 : Ref sig .tc := ⟨.hbm, 223, rfl⟩
abbrev main_v209 : Ref sig .tc := ⟨.hbm, 224, rfl⟩
abbrev main_v210 : Ref sig .tc := ⟨.hbm, 225, rfl⟩
abbrev main_v211 : Ref sig .tc := ⟨.hbm, 226, rfl⟩
abbrev main_v212 : Ref sig .tc := ⟨.hbm, 227, rfl⟩
abbrev main_v213 : Ref sig .tc := ⟨.hbm, 228, rfl⟩
abbrev main_v214 : Ref sig .tc := ⟨.hbm, 229, rfl⟩
abbrev main_v215 : Ref sig .tc := ⟨.hbm, 230, rfl⟩
abbrev main_v216 : Ref sig .tc := ⟨.hbm, 231, rfl⟩
abbrev main_v217 : Ref sig .tc := ⟨.hbm, 232, rfl⟩
abbrev main_v218 : Ref sig .tc := ⟨.hbm, 233, rfl⟩
abbrev main_v219 : Ref sig .tc := ⟨.hbm, 234, rfl⟩
abbrev main_v220 : Ref sig .tc := ⟨.hbm, 235, rfl⟩
abbrev main_v221 : Ref sig .tc := ⟨.hbm, 236, rfl⟩
abbrev main_v222 : Ref sig .tc := ⟨.hbm, 237, rfl⟩
abbrev main_v223 : Ref sig .tc := ⟨.hbm, 238, rfl⟩
abbrev main_v224 : Ref sig .tc := ⟨.hbm, 239, rfl⟩
abbrev main_v225 : Ref sig .tc := ⟨.hbm, 240, rfl⟩
abbrev main_v226 : Ref sig .tc := ⟨.hbm, 241, rfl⟩
abbrev main_v227 : Ref sig .tc := ⟨.hbm, 242, rfl⟩
abbrev main_v228 : Ref sig .tc := ⟨.hbm, 243, rfl⟩
abbrev main_v229 : Ref sig .tc := ⟨.hbm, 244, rfl⟩
abbrev main_v230 : Ref sig .tc := ⟨.hbm, 245, rfl⟩
abbrev main_v231 : Ref sig .tc := ⟨.hbm, 246, rfl⟩
abbrev main_v232 : Ref sig .tc := ⟨.hbm, 247, rfl⟩
abbrev main_v233 : Ref sig .tc := ⟨.hbm, 248, rfl⟩
abbrev main_v234 : Ref sig .tc := ⟨.hbm, 249, rfl⟩
abbrev main_v235 : Ref sig .tc := ⟨.hbm, 250, rfl⟩
abbrev main_v236 : Ref sig .tc := ⟨.hbm, 251, rfl⟩
abbrev main_v237 : Ref sig .tc := ⟨.hbm, 252, rfl⟩
abbrev main_v238 : Ref sig .tc := ⟨.hbm, 253, rfl⟩
abbrev main_v239 : Ref sig .tc := ⟨.hbm, 254, rfl⟩
abbrev main_v240 : Ref sig .tc := ⟨.hbm, 255, rfl⟩
abbrev main_v241 : Ref sig .tc := ⟨.hbm, 256, rfl⟩
abbrev main_v242 : Ref sig .tc := ⟨.hbm, 257, rfl⟩
abbrev main_v243 : Ref sig .tc := ⟨.hbm, 258, rfl⟩
abbrev main_v244 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  slices_S7x512x512_S1x512x512_0_0_0 : S7x512x512.Slices ![0, 0, 0] S1x512x512
  shapeCasts_S1x512x512_S512x512 : S1x512x512.ShapeCasts S512x512
  slices_S7x512_S1x512_0_0 : S7x512.Slices ![0, 0] S1x512
  shapeCasts_S1x512_S512 : S1x512.ShapeCasts S512
  bcast_S_S32768x512 : S_.BroadcastsInDim S32768x512 (![] : Fin 0 → Fin S32768x512.rank)
  slices_S7x512x512_S1x512x512_1_0_0 : S7x512x512.Slices ![1, 0, 0] S1x512x512
  slices_S7x512_S1x512_1_0 : S7x512.Slices ![1, 0] S1x512
  slices_S7x512x512_S1x512x512_2_0_0 : S7x512x512.Slices ![2, 0, 0] S1x512x512
  slices_S7x512_S1x512_2_0 : S7x512.Slices ![2, 0] S1x512
  slices_S7x512x512_S1x512x512_3_0_0 : S7x512x512.Slices ![3, 0, 0] S1x512x512
  slices_S7x512_S1x512_3_0 : S7x512.Slices ![3, 0] S1x512
  slices_S7x512x512_S1x512x512_4_0_0 : S7x512x512.Slices ![4, 0, 0] S1x512x512
  slices_S7x512_S1x512_4_0 : S7x512.Slices ![4, 0] S1x512
  slices_S7x512x512_S1x512x512_5_0_0 : S7x512x512.Slices ![5, 0, 0] S1x512x512
  slices_S7x512_S1x512_5_0 : S7x512.Slices ![5, 0] S1x512
  slices_S7x512x512_S1x512x512_6_0_0 : S7x512x512.Slices ![6, 0, 0] S1x512x512
  slices_S7x512_S1x512_6_0 : S7x512.Slices ![6, 0] S1x512
  bcast_S4_S1x4_1 : S4.BroadcastsInDim S1x4 (![1] : Fin 1 → Fin S1x4.rank)
  bcast_S1x4_S32768x4_0_1 : S1x4.BroadcastsInDim S32768x4 (![0, 1] : Fin 2 → Fin S32768x4.rank)
  bcast_S_S4x4 : S_.BroadcastsInDim S4x4 (![] : Fin 0 → Fin S4x4.rank)
  slices_S4x4_S1x4_0_0 : S4x4.Slices ![0, 0] S1x4
  shapeCasts_S1x4_S4 : S1x4.ShapeCasts S4
  bcast_S4_S32768x4_1 : S4.BroadcastsInDim S32768x4 (![1] : Fin 1 → Fin S32768x4.rank)
  slices_S4x4_S1x4_1_0 : S4x4.Slices ![1, 0] S1x4
  slices_S4x4_S1x4_2_0 : S4x4.Slices ![2, 0] S1x4
  slices_S4x4_S1x4_3_0 : S4x4.Slices ![3, 0] S1x4
  slices_S32768x4_S32768x1_0_1 : S32768x4.Slices ![0, 1] S32768x1
  shapeCasts_S32768x1_S32768 : S32768x1.ShapeCasts S32768
  slices_S32768x4_S32768x1_0_2 : S32768x4.Slices ![0, 2] S32768x1
  slices_S32768x4_S32768x1_0_0 : S32768x4.Slices ![0, 0] S32768x1
  bcast_S32768_S32768x1_0 : S32768.BroadcastsInDim S32768x1 (![0] : Fin 1 → Fin S32768x1.rank)
  concatenates_S32768x1_S32768x1_S32768x1_S32768x1_S32768x1_S32768x1_S32768x6_d1 : Shape.Concatenates [S32768x1, S32768x1, S32768x1, S32768x1, S32768x1, S32768x1] S32768x6 1
  dot_S32768x4_S4x512_S32768x512_1_0_0_1_n_n_wf : DotDims.WF S32768x4 S4x512 S32768x512 [1] [0] [0] [1] [] []
  dot_S32768x512_S512x512_S32768x512_1_0_0_1_n_n_wf : DotDims.WF S32768x512 S512x512 S32768x512 [1] [0] [0] [1] [] []
  dot_S32768x512_S512x4_S32768x4_1_0_0_1_n_n_wf : DotDims.WF S32768x512 S512x4 S32768x4 [1] [0] [0] [1] [] []
  dot_S32768x4_S512x4_S32768x512_1_1_0_0_n_n_wf : DotDims.WF S32768x4 S512x4 S32768x512 [1] [1] [0] [0] [] []
  dot_S32768x512_S512x512_S32768x512_1_1_0_0_n_n_wf : DotDims.WF S32768x512 S512x512 S32768x512 [1] [1] [0] [0] [] []
  dot_S32768x512_S4x512_S32768x4_1_1_0_0_n_n_wf : DotDims.WF S32768x512 S4x512 S32768x4 [1] [1] [0] [0] [] []

variable [Facts₀]

def dot_S32768x4_S4x512_S32768x512_1_0_0_1_n_n : DotDims S32768x4 S4x512 S32768x512 where
  lhsContracting := [1]
  rhsContracting := [0]
  lhsNonContracting := [0]
  rhsNonContracting := [1]
  lhsBatch := []
  rhsBatch := []
  wf := dot_S32768x4_S4x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x4_S32768x4_1_0_0_1_n_n : DotDims S32768x512 S512x4 S32768x4 where
  lhsContracting := [1]
  rhsContracting := [0]
  lhsNonContracting := [0]
  rhsNonContracting := [1]
  lhsBatch := []
  rhsBatch := []
  wf := dot_S32768x512_S512x4_S32768x4_1_0_0_1_n_n_wf
def dot_S32768x4_S512x4_S32768x512_1_1_0_0_n_n : DotDims S32768x4 S512x4 S32768x512 where
  lhsContracting := [1]
  rhsContracting := [1]
  lhsNonContracting := [0]
  rhsNonContracting := [0]
  lhsBatch := []
  rhsBatch := []
  wf := dot_S32768x4_S512x4_S32768x512_1_1_0_0_n_n_wf
def dot_S32768x512_S512x512_S32768x512_1_1_0_0_n_n : DotDims S32768x512 S512x512 S32768x512 where
  lhsContracting := [1]
  rhsContracting := [1]
  lhsNonContracting := [0]
  rhsNonContracting := [0]
  lhsBatch := []
  rhsBatch := []
  wf := dot_S32768x512_S512x512_S32768x512_1_1_0_0_n_n_wf
def dot_S32768x512_S4x512_S32768x4_1_1_0_0_n_n : DotDims S32768x512 S4x512 S32768x4 where
  lhsContracting := [1]
  rhsContracting := [1]
  lhsNonContracting := [0]
  rhsNonContracting := [0]
  lhsBatch := []
  rhsBatch := []
  wf := dot_S32768x512_S4x512_S32768x4_1_1_0_0_n_n_wf

class Facts : Prop extends Facts₀ where

variable [Facts]
-- ==== Proof.LibTangentChain.lean ====
/-
  Forward tangents against backward cotangents through a chain of layers.

  A layer is a square matrix `W` together with the layer's activations `t`.  Forward mode pushes a tangent
  `J` through it as `J ↦ (J · W) ⊙ (1 - t ⊙ t)`; reverse mode pulls a cotangent `G` back as
  `G ↦ (G ⊙ (1 - t) + G ⊙ (1 - t) ⊙ t) · Wᵀ` (the arrangement in which the derivative of `tanh` is usually
  differentiated backwards: `(1 - t)(1 + t) = 1 - t²`).  For one layer the two are adjoint for the pairing
  `⟨u, v⟩ = ∑ k, u k * v k`: `⟨stepJ J, G⟩ = ⟨J, stepG G⟩`, by exchanging the two finite sums.  Hence, through a
  whole chain of layers, pushing the tangent forward through all of them and pairing with `G` equals pairing
  `J` with the cotangent pulled back through all of them (`pair_chain`), by induction on the chain.

  The identity is proved over the reals; the same two recursions on extended reals are the coercions of the real
  ones when every entry is a real number (`fwdE_coe`, `bwdE_coe`), which gives the identity on the extended reals
  for real-valued data (`pair_chainE`).
-/
import Idealize.ShloMosaic.PureOps.Ideal

open scoped BigOperators

noncomputable section

namespace Cert.TangentChain

variable {K : Type} [Fintype K]

/-! ## Over the reals -/

/-- One layer, forwards: the tangent times the weights, scaled by `1 - t²`. -/
def stepJ (W : K → K → ℝ) (t : K → ℝ) (J : K → ℝ) : K → ℝ :=
  fun k => (∑ j, J j * W j k) * (1 - t k * t k)

/-- One layer, backwards: the cotangent scaled by `(1 - t) + (1 - t) t`, times the transposed weights. -/
def stepG (W : K → K → ℝ) (t : K → ℝ) (G : K → ℝ) : K → ℝ :=
  fun j => ∑ k, (G k * (1 - t k) + G k * (1 - t k) * t k) * W j k

/-- The two steps are adjoint. -/
theorem pair_step (W : K → K → ℝ) (t J G : K → ℝ) :
    ∑ k, stepJ W t J k * G k = ∑ j, J j * stepG W t G j := by
  simp only [stepJ, stepG, Finset.sum_mul, Finset.mul_sum]
  rw [Finset.sum_comm]
  exact Finset.sum_congr rfl fun j _ => Finset.sum_congr rfl fun k _ => by ring

/-- The tangent pushed through a chain of layers, first layer first. -/
def fwd : List ((K → K → ℝ) × (K → ℝ)) → (K → ℝ) → (K → ℝ)
  | [], J => J
  | p :: L, J => fwd L (stepJ p.1 p.2 J)

/-- The cotangent pulled back through a chain of layers, last layer first. -/
def bwd : List ((K → K → ℝ) × (K → ℝ)) → (K → ℝ) → (K → ℝ)
  | [], G => G
  | p :: L, G => stepG p.1 p.2 (bwd L G)

/-- Forward mode paired with a cotangent is the tangent paired with reverse mode. -/
theorem pair_chain (L : List ((K → K → ℝ) × (K → ℝ))) (J G : K → ℝ) :
    ∑ k, fwd L J k * G k = ∑ k, J k * bwd L G k := by
  induction L generalizing J with
  | nil => rfl
  | cons p L ih =>
    show ∑ k, fwd L (stepJ p.1 p.2 J) k * G k = ∑ k, J k * stepG p.1 p.2 (bwd L G) k
    rw [ih, pair_step]

/-! ## Over the extended reals -/

/-- An extended real that is a real number. -/
def IsR (x : EReal) : Prop := ∃ r : ℝ, x = (r : EReal)

theorem isR_coe (r : ℝ) : IsR (r : EReal) := ⟨r, rfl⟩

theorem IsR.coe_toReal {x : EReal} (h : IsR x) : ((x.toReal : ℝ) : EReal) = x := by
  obtain ⟨r, rfl⟩ := h; rfl

/-- The image of a finite real sum is the sum of the images. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `tanh` on the extended reals takes real values everywhere (`-1` and `1` at the infinities). -/
theorem isR_tanh (x : EReal) : IsR (Idealize.ShloMosaic.Ideal.tanh x) := by
  induction x using EReal.rec with
  | bot => exact ⟨-1, by simp⟩
  | top => exact ⟨1, by simp⟩
  | coe r => exact ⟨Real.tanh r, rfl⟩

def stepJE (W : K → K → EReal) (t : K → EReal) (J : K → EReal) : K → EReal :=
  fun k => (∑ j, J j * W j k) * (1 - t k * t k)

def stepGE (W : K → K → EReal) (t : K → EReal) (G : K → EReal) : K → EReal :=
  fun j => ∑ k, (G k * (1 - t k) + G k * (1 - t k) * t k) * W j k

def fwdE : List ((K → K → EReal) × (K → EReal)) → (K → EReal) → (K → EReal)
  | [], J => J
  | p :: L, J => fwdE L (stepJE p.1 p.2 J)

def bwdE : List ((K → K → EReal) × (K → EReal)) → (K → EReal) → (K → EReal)
  | [], G => G
  | p :: L, G => stepGE p.1 p.2 (bwdE L G)

/-- A real matrix, a real vector and a real layer read as extended reals. -/
def cW (W : K → K → ℝ) : K → K → EReal := fun j k => (W j k : EReal)
def cV (v : K → ℝ) : K → EReal := fun k => (v k : EReal)
def cP (p : (K → K → ℝ) × (K → ℝ)) : (K → K → EReal) × (K → EReal) := (cW p.1, cV p.2)

theorem stepJE_coe (W : K → K → ℝ) (t J : K → ℝ) : stepJE (cW W) (cV t) (cV J) = cV (stepJ W t J) := by
  funext k
  simp only [stepJE, stepJ, cW, cV, EReal.coe_mul, EReal.coe_sub, EReal.coe_one, coe_sum]

theorem stepGE_coe (W : K → K → ℝ) (t G : K → ℝ) : stepGE (cW W) (cV t) (cV G) = cV (stepG W t G) := by
  funext j
  simp only [stepGE, stepG, cW, cV, EReal.coe_mul, EReal.coe_sub, EReal.coe_add, EReal.coe_one, coe_sum]

theorem fwdE_coe (L : List ((K → K → ℝ) × (K → ℝ))) (J : K → ℝ) :
    fwdE (L.map cP) (cV J) = cV (fwd L J) := by
  induction L generalizing J with
  | nil => rfl
  | cons p L ih =>
    show fwdE (L.map cP) (stepJE (cW p.1) (cV p.2) (cV J)) = cV (fwd L (stepJ p.1 p.2 J))
    rw [stepJE_coe, ih]

theorem bwdE_coe (L : List ((K → K → ℝ) × (K → ℝ))) (G : K → ℝ) :
    bwdE (L.map cP) (cV G) = cV (bwd L G) := by
  induction L with
  | nil => rfl
  | cons p L ih =>
    show stepGE (cW p.1) (cV p.2) (bwdE (L.map cP) (cV G)) = cV (stepG p.1 p.2 (bwd L G))
    rw [ih, stepGE_coe]

/-- A real-valued vector of extended reals is the image of a real vector. -/
theorem eq_cV {v : K → EReal} (h : ∀ k, IsR (v k)) : v = cV fun k => (v k).toReal :=
  funext fun k => ((h k).coe_toReal).symm

theorem eq_cW {W : K → K → EReal} (h : ∀ j k, IsR (W j k)) : W = cW fun j k => (W j k).toReal :=
  funext fun j => funext fun k => ((h j k).coe_toReal).symm

/-- The chain identity on the extended reals, for layers, tangent and cotangent whose entries are all real numbers. -/
theorem pair_chainE (L : List ((K → K → EReal) × (K → EReal))) (J G : K → EReal)
    (hL : ∀ p ∈ L, (∀ j k, IsR (p.1 j k)) ∧ ∀ k, IsR (p.2 k))
    (hJ : ∀ k, IsR (J k)) (hG : ∀ k, IsR (G k)) :
    ∑ k, fwdE L J k * G k = ∑ k, J k * bwdE L G k := by
  have eL : L = (L.map fun p => ((fun j k => (p.1 j k).toReal, fun k => (p.2 k).toReal) :
      (K → K → ℝ) × (K → ℝ))).map cP := by
    rw [List.map_map]
    conv_lhs => rw [← List.map_id L]
    refine List.map_congr_left fun p hp => ?_
    show p = (cW _, cV _)
    rw [← eq_cW (hL p hp).1, ← eq_cV (hL p hp).2]
  rw [eL, eq_cV hJ, eq_cV hG, fwdE_coe, bwdE_coe]
  simp only [cV, ← EReal.coe_mul, ← coe_sum]
  rw [pair_chain]

end Cert.TangentChain

end
-- ==== Proof.RealWeights.lean ====
/-
  From "every float input is finite" to "the weight arrays hold real numbers".

  The precondition is the printed predicate `Cert.Pre_finite_inputs.fn`: for each of the seven arguments `a`, the test
  `all (|a| < +∞)`, and the seven tests joined by `and`.  An extended real `x` with `max x (-x) < ⊤` is neither `⊤`
  (then `max x (-x) = ⊤`) nor `⊥` (then `-x = ⊤`), so it is a real number.  A reduction by `and` that came out `1` met a `1`
  at every index, so every entry of an argument whose test came out `1` is real; and a conjunction that is `1` has both
  sides `1`, which isolates the tests of the three weight arrays (arguments 1, 3 and 5).
-/
import proofs.«179046_j18021682774229_2_alg».proof.Pre_finite_inputs
import proofs.«179046_j18021682774229_2_alg».proof.Proof.LibTangentChain
import Idealize.ShloMosaic.PureOps.Ideal
import Idealize.ShloMosaic.Lib.ReduceAll

noncomputable section

namespace Cert.RealWeights

open Idealize.ShloMosaic Cert.TangentChain

/-- The pattern `0x7F800000` of the 32-bit format (exponent all ones, significand zero, sign clear) denotes `+∞`. -/
theorem inf_bits : Ideal.ofBits .f32 0x7F800000#32 = (⊤ : EReal) := by
  simp [Ideal.ofBits, Ideal.ieee]

/-- An extended real whose absolute value `max x (-x)` is below `+∞` is a real number. -/
theorem isR_of_abs_lt_top (x : EReal) (h : max x (-x) < ⊤) : IsR x := by
  induction x using EReal.rec with
  | bot => simp at h
  | top => simp at h
  | coe r => exact ⟨r, rfl⟩

/-- The same, for the comparison as the printed predicate makes it: `|x| < +∞` answered `1`. -/
theorem isR_of_cmp (x : Ideal .f32)
    (h : FloatOps.cmpf .olt (FloatOps.hostAbsf x) (FloatOps.ofBits (F := Ideal) .f32 0x7F800000#32) = 1#1) : IsR x := by
  apply isR_of_abs_lt_top
  -- at the extended reals the comparison is the order's and the absolute value is `max x (-x)`, by definition
  change Ideal.cmp .olt (max x (-x)) (Ideal.ofBits .f32 0x7F800000#32) = 1#1 at h
  rw [inf_bits] at h
  by_contra hn
  simp [Ideal.cmp, hn] at h

/-- The one index of the rank-0 shape. -/
instance : Subsingleton Cert.Pre_finite_inputs.S_.Idx := ⟨fun a b => funext fun d => d.elim0⟩

/-- One test of the predicate: when `all (|x| < +∞)` over an array `x` of any shape came out `1`, every entry of `x`
    is a real number. -/
theorem all_real {s : Shape} {axes : List (Fin s.rank)}
    (bc : Cert.Pre_finite_inputs.S_.BroadcastsInDim s (![] : Fin 0 → Fin s.rank))
    (red : s.ReducesTo axes Cert.Pre_finite_inputs.S_) (hu : 0 < Cert.Pre_finite_inputs.S_.numel)
    (x : FVec Ideal s .f32) (j : Cert.Pre_finite_inputs.S_.Idx)
    (h : Host.reduce IntOp.andi
        (cmpf .olt (Host.absf x) (broadcastInDim s ![] bc (constant Cert.Pre_finite_inputs.S_ .f32 0x7F800000#32)))
        (constantI Cert.Pre_finite_inputs.S_ 1 1#1) red hu j = 1#1) :
    ∀ i, IsR (x i) := fun i =>
  isR_of_cmp (x i) (Host.reduce_andi_all _ _ red hu j h i)

theorem weights_real [Cert.Pre_finite_inputs.Facts]
    (a0 : FVec Ideal Cert.Pre_finite_inputs.S32768x4 .f32) (a1 : FVec Ideal Cert.Pre_finite_inputs.S4x512 .f32)
    (a2 : FVec Ideal Cert.Pre_finite_inputs.S512 .f32) (a3 : FVec Ideal Cert.Pre_finite_inputs.S7x512x512 .f32)
    (a4 : FVec Ideal Cert.Pre_finite_inputs.S7x512 .f32) (a5 : FVec Ideal Cert.Pre_finite_inputs.S512x4 .f32)
    (a6 : FVec Ideal Cert.Pre_finite_inputs.S4 .f32)
    (h : Cert.Pre_finite_inputs.fn (F := Ideal) a0 a1 a2 a3 a4 a5 a6 = fun _ => 1#1) :
    (∀ i, IsR (a1 i)) ∧ (∀ i, IsR (a3 i)) ∧ (∀ i, IsR (a5 i)) := by
  have e := congrFun h (fun a => a.elim0)
  dsimp only [Cert.Pre_finite_inputs.fn, Cert.Pre_finite_inputs.fn_part1, andi] at e
  simp only [IntOp.andi_eq_one] at e
  obtain ⟨⟨⟨⟨⟨⟨-, h1⟩, -⟩, h3⟩, -⟩, h5⟩, -⟩ := e
  exact ⟨all_real _ _ _ a1 _ h1, all_real _ _ _ a3 _ h3, all_real _ _ _ a5 _ h5⟩

end Cert.RealWeights

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«179046_j18021682774229_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibStackedRows.lean ====
/-
  Four (or three) matrices of 1024 rows stacked on top of each other, multiplied by one weight matrix, and cut apart again.

  Stacking `p₀, p₁, p₂, p₃` (each `[1024, 512]`) along the rows gives a `[4096, 512]` matrix whose row `a · 1024 + r` is
  row `r` of `p_a`.  A plain matrix product acts row by row, so the product of the stack with `w`, cut back to the rows
  `a · 1024 …`, is at `(r, k)` the sum over `j` of `p_a (r, j) · w (j, k)`: one product serves four matrices.
-/
import proofs.«179046_j18021682774229_2_alg».proof.Proof.LibRowsTimes
import Idealize.ShloMosaic.Lib.Pipeline.Value
import Idealize.ShloMosaic.Lib.ValueLayout

open scoped BigOperators

noncomputable section

namespace Cert.StackedRows

open Idealize.ShloMosaic Idealize.ShloMosaic.ValueIdx

section Stack
variable {α : Type} {C : Nat}

/-- Row `a · 1024 + r` of four stacked `[1024, C]` matrices is row `r` of piece `a` (the piece named by its position `n`
    in the list and the rows before it, `pre`). -/
theorem stack4_apply (p0 p1 p2 p3 : (⟨2, ![1024, C]⟩ : Shape).Idx → α)
    (h : Shape.Concatenates (([⟨_, p0⟩, ⟨_, p1⟩, ⟨_, p2⟩, ⟨_, p3⟩] : List ((s : Shape) × (s.Idx → α))).map (·.1)) ⟨2, ![4096, C]⟩ 0)
    (n : Nat) (hn : n < 4) (pa : (⟨2, ![1024, C]⟩ : Shape).Idx → α)
    (hpa : ([⟨_, p0⟩, ⟨_, p1⟩, ⟨_, p2⟩, ⟨_, p3⟩] : List ((s : Shape) × (s.Idx → α)))[n]'(by simpa using hn) = ⟨_, pa⟩)
    (R : Fin 4096) (r : Fin 1024) (k : Fin C) (hR : n * 1024 + r.val = R.val) :
    concatenate ⟨2, ![4096, C]⟩ 0 [⟨_, p0⟩, ⟨_, p1⟩, ⟨_, p2⟩, ⟨_, p3⟩] h (ix2 R k) = pa (ix2 r k) := by
  refine concatenate_apply_piece (0 : Fin 2) _ h (ix2 R k) n (by simpa using hn) _ pa hpa rfl (n * 1024) ?_ (ix2 r k) ?_ hR
  · have : n = 0 ∨ n = 1 ∨ n = 2 ∨ n = 3 := by omega
    rcases this with rfl | rfl | rfl | rfl <;> rfl
  · intro b hb
    match b with
    | ⟨0, _⟩ => exact absurd rfl hb
    | ⟨1, _⟩ => rfl

/-- The same for three stacked matrices. -/
theorem stack3_apply (p0 p1 p2 : (⟨2, ![1024, C]⟩ : Shape).Idx → α)
    (h : Shape.Concatenates (([⟨_, p0⟩, ⟨_, p1⟩, ⟨_, p2⟩] : List ((s : Shape) × (s.Idx → α))).map (·.1)) ⟨2, ![3072, C]⟩ 0)
    (n : Nat) (hn : n < 3) (pa : (⟨2, ![1024, C]⟩ : Shape).Idx → α)
    (hpa : ([⟨_, p0⟩, ⟨_, p1⟩, ⟨_, p2⟩] : List ((s : Shape) × (s.Idx → α)))[n]'(by simpa using hn) = ⟨_, pa⟩)
    (R : Fin 3072) (r : Fin 1024) (k : Fin C) (hR : n * 1024 + r.val = R.val) :
    concatenate ⟨2, ![3072, C]⟩ 0 [⟨_, p0⟩, ⟨_, p1⟩, ⟨_, p2⟩] h (ix2 R k) = pa (ix2 r k) := by
  refine concatenate_apply_piece (0 : Fin 2) _ h (ix2 R k) n (by simpa using hn) _ pa hpa rfl (n * 1024) ?_ (ix2 r k) ?_ hR
  · have : n = 0 ∨ n = 1 ∨ n = 2 := by omega
    rcases this with rfl | rfl | rfl <;> rfl
  · intro b hb
    match b with
    | ⟨0, _⟩ => exact absurd rfl hb
    | ⟨1, _⟩ => rfl

end Stack

/-- The product of four stacked matrices with `w`, cut back to piece `n`'s rows, at `(r, k)`. -/
theorem stack4_matmul_slice {φ₁ φ₂ : FTy} {N : Nat}
    (d : DotDims ⟨2, ![4096, 512]⟩ ⟨2, ![512, N]⟩ ⟨2, ![4096, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = 512)
    (p0 p1 p2 p3 : FVec Ideal ⟨2, ![1024, 512]⟩ φ₁) (w : FVec Ideal ⟨2, ![512, N]⟩ φ₂)
    (hc : Shape.Concatenates (([⟨_, p0⟩, ⟨_, p1⟩, ⟨_, p2⟩, ⟨_, p3⟩] : List ((s : Shape) × (s.Idx → Ideal φ₁))).map (·.1)) ⟨2, ![4096, 512]⟩ 0)
    (n : Nat) (hn : n < 4) (pa : FVec Ideal ⟨2, ![1024, 512]⟩ φ₁)
    (hpa : ([⟨_, p0⟩, ⟨_, p1⟩, ⟨_, p2⟩, ⟨_, p3⟩] : List ((s : Shape) × (s.Idx → Ideal φ₁)))[n]'(by simpa using hn) = ⟨_, pa⟩)
    (o : Nat) (ho : o = n * 1024) (hsl : (⟨2, ![4096, N]⟩ : Shape).Slices ![o, 0] ⟨2, ![1024, N]⟩)
    (r : Fin 1024) (k : Fin N) :
    extractStridedSlice ⟨2, ![1024, N]⟩ ![o, 0]
        (matmul d none (concatenate ⟨2, ![4096, 512]⟩ 0 [⟨_, p0⟩, ⟨_, p1⟩, ⟨_, p2⟩, ⟨_, p3⟩] hc) w
          (constant ⟨2, ![4096, N]⟩ .f32 0x00000000#32)) hsl (ix2 r k)
      = ∑ j : Fin 512, pa (ix2 r j) * w (ix2 j k) := by
  subst ho
  rw [slice2_axis0_eq]
  rw [show (matmul d none (concatenate ⟨2, ![4096, 512]⟩ 0 [⟨_, p0⟩, ⟨_, p1⟩, ⟨_, p2⟩, ⟨_, p3⟩] hc) w
        (constant ⟨2, ![4096, N]⟩ .f32 0x00000000#32)) = FloatOps.matmul d none
        (concatenate ⟨2, ![4096, 512]⟩ 0 [⟨_, p0⟩, ⟨_, p1⟩, ⟨_, p2⟩, ⟨_, p3⟩] hc) w
        (constant ⟨2, ![4096, N]⟩ .f32 0x00000000#32) from rfl]
  rw [Idealize.ShloMosaic.RowsTimes.matmul_zero_apply d h1 h2 h3 h4 h5 h6 hr hs]
  refine Finset.sum_congr rfl fun j _ => ?_
  rw [stack4_apply p0 p1 p2 p3 hc n hn pa hpa _ r j rfl]

/-- The product of three stacked matrices with `w` at row `n · 1024 + r`. -/
theorem stack3_matmul {φ₁ φ₂ : FTy} {N : Nat}
    (d : DotDims ⟨2, ![3072, 512]⟩ ⟨2, ![512, N]⟩ ⟨2, ![3072, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = 512)
    (p0 p1 p2 : FVec Ideal ⟨2, ![1024, 512]⟩ φ₁) (w : FVec Ideal ⟨2, ![512, N]⟩ φ₂)
    (hc : Shape.Concatenates (([⟨_, p0⟩, ⟨_, p1⟩, ⟨_, p2⟩] : List ((s : Shape) × (s.Idx → Ideal φ₁))).map (·.1)) ⟨2, ![3072, 512]⟩ 0)
    (n : Nat) (hn : n < 3) (pa : FVec Ideal ⟨2, ![1024, 512]⟩ φ₁)
    (hpa : ([⟨_, p0⟩, ⟨_, p1⟩, ⟨_, p2⟩] : List ((s : Shape) × (s.Idx → Ideal φ₁)))[n]'(by simpa using hn) = ⟨_, pa⟩)
    (R : Fin 3072) (r : Fin 1024) (hR : n * 1024 + r.val = R.val) (k : Fin N) :
    (matmul d none (concatenate ⟨2, ![3072, 512]⟩ 0 [⟨_, p0⟩, ⟨_, p1⟩, ⟨_, p2⟩] hc) w
          (constant ⟨2, ![3072, N]⟩ .f32 0x00000000#32)) (ix2 R k)
      = ∑ j : Fin 512, pa (ix2 r j) * w (ix2 j k) := by
  rw [show (matmul d none (concatenate ⟨2, ![3072, 512]⟩ 0 [⟨_, p0⟩, ⟨_, p1⟩, ⟨_, p2⟩] hc) w
        (constant ⟨2, ![3072, N]⟩ .f32 0x00000000#32)) = FloatOps.matmul d none
        (concatenate ⟨2, ![3072, 512]⟩ 0 [⟨_, p0⟩, ⟨_, p1⟩, ⟨_, p2⟩] hc) w
        (constant ⟨2, ![3072, N]⟩ .f32 0x00000000#32) from rfl]
  rw [Idealize.ShloMosaic.RowsTimes.matmul_zero_apply d h1 h2 h3 h4 h5 h6 hr hs]
  refine Finset.sum_congr rfl fun j _ => ?_
  rw [stack3_apply p0 p1 p2 hc n hn pa hpa R r j hR]

end Cert.StackedRows

end
-- ==== Proof.JacobianSpec.lean ====
/-
  The Jacobian of a small tanh network, row by row, in its two arrangements.

  For one input row `x : Fin 4 → EReal` the network is `h₀ = x · W0 + b0`, then seven layers
  `t_l = tanh (t_{l-1} · W_l + b_l)` (with `t_{-1} = h₀`), then a last linear map `Wf`.  Its Jacobian entry
  `∂(output o)/∂(input a)` is computed

  * forwards (`vecK`): the tangent of input direction `a` starts as row `a` of `W0`, is pushed through the seven
    layers (`TangentChain.fwdE`), and is finally contracted with column `o` of `Wf`;
  * backwards (`vecR`): the cotangent of output `o` starts as `∑ j, eye o j · Wf k j` (the unit vector `e_o`
    pulled through `Wf`), is pulled back through the seven layers (`TangentChain.bwdE`), and is finally contracted
    with row `a` of `W0`.

  They agree when the weights are real numbers (`vecR_eq_vecK`): the chain identity of `LibTangentChain`, whose
  activations are values of `tanh` and therefore always real.  The six output columns are the curl of the first
  three outputs with respect to the first three inputs and the gradient of the fourth output (`wire`).
-/
import proofs.«179046_j18021682774229_2_alg».proof.Proof.LibTangentChain
import Idealize.ShloMosaic.Lib.ValueIdx

open scoped BigOperators

noncomputable section

namespace Cert.JacobianSpec

open Idealize.ShloMosaic Idealize.ShloMosaic.ValueIdx Cert.TangentChain

/-- The hidden width. -/
abbrev K := Fin 512

/-- The first linear map of a row: `x · W0 + b0`. -/
def h0 (x : Fin 4 → EReal) (W0 : Fin 4 → K → EReal) (b0 : K → EReal) : K → EReal :=
  fun k => (∑ a, x a * W0 a k) + b0 k

/-- One layer's activation: `tanh (h · W + b)`. -/
def act (W : K → K → EReal) (b : K → EReal) (h : K → EReal) : K → EReal :=
  fun k => Ideal.tanh ((∑ j, h j * W j k) + b k)

/-- From the layers' weights and biases and the first hidden row, each layer's weights with its activations. -/
def layers : List ((K → K → EReal) × (K → EReal)) → (K → EReal) → List ((K → K → EReal) × (K → EReal))
  | [], _ => []
  | p :: L, h => (p.1, act p.1 p.2 h) :: layers L (act p.1 p.2 h)

/-- The 4 × 4 identity matrix. -/
def eye (o j : Fin 4) : EReal := if o = j then 1 else 0

/-- Forward mode: `∂(output o)/∂(input a)`. -/
def vecK (Ls : List ((K → K → EReal) × (K → EReal))) (W0 : Fin 4 → K → EReal) (Wf : K → Fin 4 → EReal)
    (a o : Fin 4) : EReal :=
  ∑ k, fwdE Ls (W0 a) k * Wf k o

/-- Reverse mode: `∂(output o)/∂(input a)`. -/
def vecR (Ls : List ((K → K → EReal) × (K → EReal))) (W0 : Fin 4 → K → EReal) (Wf : K → Fin 4 → EReal)
    (a o : Fin 4) : EReal :=
  ∑ k, bwdE Ls (fun k' => ∑ j, eye o j * Wf k' j) k * W0 a k

/-- The six output columns from the Jacobian rows `v_a o = ∂(output o)/∂(input a)` of the first three inputs: the curl of
    outputs 0, 1, 2 in inputs 0, 1, 2, then the gradient of output 3. -/
def wire (v0 v1 v2 : Fin 4 → EReal) (c : Fin 6) : EReal :=
  match c with
  | ⟨0, _⟩ => v1 2 - v2 1
  | ⟨1, _⟩ => v2 0 - v0 2
  | ⟨2, _⟩ => v0 1 - v1 0
  | ⟨3, _⟩ => v0 3
  | ⟨4, _⟩ => v1 3
  | ⟨5, _⟩ => v2 3

/-- One output row, forwards. -/
def rowK (x : Fin 4 → EReal) (W0 : Fin 4 → K → EReal) (b0 : K → EReal) (pre : List ((K → K → EReal) × (K → EReal)))
    (Wf : K → Fin 4 → EReal) (c : Fin 6) : EReal :=
  wire (vecK (layers pre (h0 x W0 b0)) W0 Wf 0) (vecK (layers pre (h0 x W0 b0)) W0 Wf 1)
    (vecK (layers pre (h0 x W0 b0)) W0 Wf 2) c

/-- One output row, backwards. -/
def rowR (x : Fin 4 → EReal) (W0 : Fin 4 → K → EReal) (b0 : K → EReal) (pre : List ((K → K → EReal) × (K → EReal)))
    (Wf : K → Fin 4 → EReal) (c : Fin 6) : EReal :=
  wire (vecR (layers pre (h0 x W0 b0)) W0 Wf 0) (vecR (layers pre (h0 x W0 b0)) W0 Wf 1)
    (vecR (layers pre (h0 x W0 b0)) W0 Wf 2) c

/-- The activations are real, and the weights of `layers pre h` are those of `pre`. -/
theorem layers_real (pre : List ((K → K → EReal) × (K → EReal))) (h : K → EReal)
    (hpre : ∀ p ∈ pre, ∀ j k, IsR (p.1 j k)) :
    ∀ p ∈ layers pre h, (∀ j k, IsR (p.1 j k)) ∧ ∀ k, IsR (p.2 k) := by
  induction pre generalizing h with
  | nil => intro p hp; cases hp
  | cons q L ih =>
    intro p hp
    rcases List.mem_cons.mp hp with rfl | hp
    · exact ⟨hpre q (List.mem_cons_self ..), fun k => isR_tanh _⟩
    · exact ih _ (fun p' hp' => hpre p' (List.mem_cons_of_mem _ hp')) p hp

/-- Pulling the unit vector `e_o` through `Wf` reads column `o` of `Wf`. -/
theorem eye_sum (Wf : K → Fin 4 → EReal) (o : Fin 4) (k : K) : (∑ j, eye o j * Wf k j) = Wf k o := by
  simp only [eye, ite_mul, one_mul, zero_mul, Finset.sum_ite_eq, Finset.mem_univ, if_true]

/-- Reverse mode is forward mode, for real weights. -/
theorem vecR_eq_vecK (Ls : List ((K → K → EReal) × (K → EReal))) (W0 : Fin 4 → K → EReal) (Wf : K → Fin 4 → EReal)
    (hLs : ∀ p ∈ Ls, (∀ j k, IsR (p.1 j k)) ∧ ∀ k, IsR (p.2 k))
    (hW0 : ∀ a k, IsR (W0 a k)) (hWf : ∀ k o, IsR (Wf k o)) (a o : Fin 4) :
    vecR Ls W0 Wf a o = vecK Ls W0 Wf a o := by
  unfold vecR vecK
  have e : (fun k' => ∑ j, eye o j * Wf k' j) = fun k' => Wf k' o := funext fun k' => eye_sum Wf o k'
  rw [e, pair_chainE Ls (W0 a) (fun k' => Wf k' o) hLs (hW0 a) (fun k => hWf k o)]
  exact Finset.sum_congr rfl fun k _ => mul_comm _ _

theorem rowR_eq_rowK (x : Fin 4 → EReal) (W0 : Fin 4 → K → EReal) (b0 : K → EReal)
    (pre : List ((K → K → EReal) × (K → EReal))) (Wf : K → Fin 4 → EReal)
    (hpre : ∀ p ∈ pre, ∀ j k, IsR (p.1 j k)) (hW0 : ∀ a k, IsR (W0 a k)) (hWf : ∀ k o, IsR (Wf k o)) (c : Fin 6) :
    rowR x W0 b0 pre Wf c = rowK x W0 b0 pre Wf c := by
  unfold rowR rowK
  have e : vecR (layers pre (h0 x W0 b0)) W0 Wf = vecK (layers pre (h0 x W0 b0)) W0 Wf :=
    funext fun a => funext fun o => vecR_eq_vecK _ W0 Wf (layers_real pre _ hpre) hW0 hWf a o
  rw [e]

/-! ## The whole arrays -/

/-- The seven layers' weights and biases out of the stacked arrays. -/
def preOf (Wh : (⟨3, ![7, 512, 512]⟩ : Shape).Idx → EReal) (bh : (⟨2, ![7, 512]⟩ : Shape).Idx → EReal) :
    List ((K → K → EReal) × (K → EReal)) :=
  [ (fun j k => Wh (ix3 (0 : Fin 7) j k), fun k => bh (ix2 (0 : Fin 7) k)),
    (fun j k => Wh (ix3 (1 : Fin 7) j k), fun k => bh (ix2 (1 : Fin 7) k)),
    (fun j k => Wh (ix3 (2 : Fin 7) j k), fun k => bh (ix2 (2 : Fin 7) k)),
    (fun j k => Wh (ix3 (3 : Fin 7) j k), fun k => bh (ix2 (3 : Fin 7) k)),
    (fun j k => Wh (ix3 (4 : Fin 7) j k), fun k => bh (ix2 (4 : Fin 7) k)),
    (fun j k => Wh (ix3 (5 : Fin 7) j k), fun k => bh (ix2 (5 : Fin 7) k)),
    (fun j k => Wh (ix3 (6 : Fin 7) j k), fun k => bh (ix2 (6 : Fin 7) k)) ]

theorem preOf_real (Wh : (⟨3, ![7, 512, 512]⟩ : Shape).Idx → EReal) (bh : (⟨2, ![7, 512]⟩ : Shape).Idx → EReal)
    (hWh : ∀ i, IsR (Wh i)) : ∀ p ∈ preOf Wh bh, ∀ j k, IsR (p.1 j k) := by
  intro p hp j k
  simp only [preOf, List.mem_cons, List.not_mem_nil, or_false] at hp
  rcases hp with rfl | rfl | rfl | rfl | rfl | rfl | rfl <;> exact hWh _

/-- The output array, forwards: entry `(n, c)` from row `n` of `x`. -/
def specK (x : (⟨2, ![32768, 4]⟩ : Shape).Idx → EReal) (W0 : (⟨2, ![4, 512]⟩ : Shape).Idx → EReal)
    (b0 : (⟨1, ![512]⟩ : Shape).Idx → EReal) (Wh : (⟨3, ![7, 512, 512]⟩ : Shape).Idx → EReal)
    (bh : (⟨2, ![7, 512]⟩ : Shape).Idx → EReal) (Wf : (⟨2, ![512, 4]⟩ : Shape).Idx → EReal) :
    (⟨2, ![32768, 6]⟩ : Shape).Idx → EReal :=
  fun i => rowK (fun a => x (ix2 (i 0) a)) (fun a k => W0 (ix2 a k)) (fun k => b0 (ix1 k)) (preOf Wh bh)
    (fun k o => Wf (ix2 k o)) (i 1)

/-- The output array, backwards. -/
def specR (x : (⟨2, ![32768, 4]⟩ : Shape).Idx → EReal) (W0 : (⟨2, ![4, 512]⟩ : Shape).Idx → EReal)
    (b0 : (⟨1, ![512]⟩ : Shape).Idx → EReal) (Wh : (⟨3, ![7, 512, 512]⟩ : Shape).Idx → EReal)
    (bh : (⟨2, ![7, 512]⟩ : Shape).Idx → EReal) (Wf : (⟨2, ![512, 4]⟩ : Shape).Idx → EReal) :
    (⟨2, ![32768, 6]⟩ : Shape).Idx → EReal :=
  fun i => rowR (fun a => x (ix2 (i 0) a)) (fun a k => W0 (ix2 a k)) (fun k => b0 (ix1 k)) (preOf Wh bh)
    (fun k o => Wf (ix2 k o)) (i 1)

/-- The two arrays are equal when the three weight arrays hold real numbers. -/
theorem specR_eq_specK (x : (⟨2, ![32768, 4]⟩ : Shape).Idx → EReal) (W0 : (⟨2, ![4, 512]⟩ : Shape).Idx → EReal)
    (b0 : (⟨1, ![512]⟩ : Shape).Idx → EReal) (Wh : (⟨3, ![7, 512, 512]⟩ : Shape).Idx → EReal)
    (bh : (⟨2, ![7, 512]⟩ : Shape).Idx → EReal) (Wf : (⟨2, ![512, 4]⟩ : Shape).Idx → EReal)
    (hW0 : ∀ i, IsR (W0 i)) (hWh : ∀ i, IsR (Wh i)) (hWf : ∀ i, IsR (Wf i)) :
    specR x W0 b0 Wh bh Wf = specK x W0 b0 Wh bh Wf :=
  funext fun i => rowR_eq_rowK _ _ _ _ _ (preOf_real Wh bh hWh) (fun a k => hW0 _) (fun k o => hWf _) (i 1)

end Cert.JacobianSpec

end
-- ==== Proof.KernelLayer.lean ====
/-
  One hidden layer of the kernel, read row by row.

  The kernel advances the hidden row `h` and the three tangents `J₀, J₁, J₂` of a tile of 1024 rows with ONE product:
  it stacks the four `[1024, 512]` matrices, multiplies the stack by the layer's weights, and cuts the result apart.  The
  first quarter plus the bias, through `tanh`, is the layer's activation `t`; each other quarter times `1 - t ⊙ t` is the
  advanced tangent.  Read at row `r`, the activation is `JacobianSpec.act` of row `r` of `h` and tangent `a` is
  `TangentChain.stepJE` of row `r` of `J_a` (`actOut_row`, `tanOut_row`).  The first linear map of the network
  (`x · W0 + b0`) and the last (`J · Wf`) are read the same way.
-/
import proofs.«179046_j18021682774229_2_alg».proof.Proof.LibStackedRows
import proofs.«179046_j18021682774229_2_alg».proof.Proof.JacobianSpec
import Idealize.ShloMosaic.Lib.IdealHost
import Idealize.ShloMosaic.PureOps.Ideal.Laws

open scoped BigOperators

noncomputable section

namespace Cert.KernelLayer

open Idealize.ShloMosaic Idealize.ShloMosaic.ValueIdx Cert.TangentChain Cert.JacobianSpec Cert.StackedRows

/-- Row `r` of a `[1024, 512]` matrix. -/
def row {φ : FTy} (v : FVec Ideal ⟨2, ![1024, 512]⟩ φ) (r : Fin 1024) : K → EReal := fun j => v (ix2 r j)

/-- A layer's weights and bias as loaded: a `[1, 512, 512]` slab and a `[1, 512]` row. -/
def Wof (w : Vec Ideal ⟨3, ![1, 512, 512]⟩ .bf16) : K → K → EReal := fun j k => w (ix3 (0 : Fin 1) j k)
def bof (b : Vec Ideal ⟨2, ![1, 512]⟩ .f32) : K → EReal := fun k => b (ix2 (0 : Fin 1) k)

theorem row_truncf {φ ψ : FTy} (v : FVec Ideal ⟨2, ![1024, 512]⟩ φ) (h : ψ.bits < φ.bits) (r : Fin 1024) :
    row (truncf ψ v h : FVec Ideal ⟨2, ![1024, 512]⟩ ψ) r = row v r := rfl

section Layer

variable (d : DotDims ⟨2, ![4096, 512]⟩ ⟨2, ![512, 512]⟩ ⟨2, ![4096, 512]⟩)
  (h1 : d.lhsContracting = [1]) (h2 : d.rhsContracting = [0]) (h3 : d.lhsNonContracting = [0])
  (h4 : d.rhsNonContracting = [1]) (h5 : d.lhsBatch = []) (h6 : d.rhsBatch = [])
  (hr : d.contr.rank = 1) (hs : d.contr.size ⟨0, by omega⟩ = 512)
  (p0 p1 p2 p3 : FVec Ideal ⟨2, ![1024, 512]⟩ .bf16)
  (w : Vec Ideal ⟨3, ![1, 512, 512]⟩ .bf16) (b : Vec Ideal ⟨2, ![1, 512]⟩ .f32)
  (hcast : (⟨3, ![1, 512, 512]⟩ : Shape).ShapeCasts ⟨2, ![512, 512]⟩)
  (hc : Shape.Concatenates (([⟨_, p0⟩, ⟨_, p1⟩, ⟨_, p2⟩, ⟨_, p3⟩] : List ((s : Shape) × (s.Idx → Ideal .bf16))).map (·.1)) ⟨2, ![4096, 512]⟩ 0)
  (hb : (⟨2, ![1, 512]⟩ : Shape).Broadcasts ⟨2, ![1024, 512]⟩)
  (hsl0 : (⟨2, ![4096, 512]⟩ : Shape).Slices ![0, 0] ⟨2, ![1024, 512]⟩)

/-- The stack times the layer's weights. -/
def Z : FVec Ideal ⟨2, ![4096, 512]⟩ .f32 :=
  matmul d none (concatenate ⟨2, ![4096, 512]⟩ 0 [⟨_, p0⟩, ⟨_, p1⟩, ⟨_, p2⟩, ⟨_, p3⟩] hc)
    (shapeCast ⟨2, ![512, 512]⟩ w hcast : FVec Ideal ⟨2, ![512, 512]⟩ .bf16) (constant ⟨2, ![4096, 512]⟩ .f32 0x00000000#32)

/-- The layer's activation. -/
def actOut : FVec Ideal ⟨2, ![1024, 512]⟩ .f32 :=
  tanh (addf (extractStridedSlice ⟨2, ![1024, 512]⟩ ![0, 0] (Z d p0 p1 p2 p3 w hcast hc) hsl0)
    (broadcastTo ⟨2, ![1024, 512]⟩ b hb))

/-- An advanced tangent: the quarter of the product from row `o`, times `1 - t ⊙ t`. -/
def tanOut (o : Nat) (hsl : (⟨2, ![4096, 512]⟩ : Shape).Slices ![o, 0] ⟨2, ![1024, 512]⟩) :
    FVec Ideal ⟨2, ![1024, 512]⟩ .f32 :=
  mulf (extractStridedSlice ⟨2, ![1024, 512]⟩ ![o, 0] (Z d p0 p1 p2 p3 w hcast hc) hsl)
    (subf (broadcast ⟨2, ![1024, 512]⟩ (Scalar.ofBits .f32 0x3F800000#32))
      (mulf (actOut d p0 p1 p2 p3 w b hcast hc hb hsl0) (actOut d p0 p1 p2 p3 w b hcast hc hb hsl0)))

include h1 h2 h3 h4 h5 h6 hr hs

theorem Z_slice (n : Nat) (hn : n < 4) (pa : FVec Ideal ⟨2, ![1024, 512]⟩ .bf16)
    (hpa : ([⟨_, p0⟩, ⟨_, p1⟩, ⟨_, p2⟩, ⟨_, p3⟩] : List ((s : Shape) × (s.Idx → Ideal .bf16)))[n]'(by simpa using hn) = ⟨_, pa⟩)
    (o : Nat) (ho : o = n * 1024) (hsl : (⟨2, ![4096, 512]⟩ : Shape).Slices ![o, 0] ⟨2, ![1024, 512]⟩)
    (r : Fin 1024) (k : K) :
    extractStridedSlice ⟨2, ![1024, 512]⟩ ![o, 0] (Z d p0 p1 p2 p3 w hcast hc) hsl (ix2 r k)
      = ∑ j, row pa r j * Wof w j k := by
  unfold Z
  rw [stack4_matmul_slice d h1 h2 h3 h4 h5 h6 hr hs p0 p1 p2 p3 _ hc n hn pa hpa o ho hsl r k]
  exact Finset.sum_congr rfl fun j _ => by rw [shapeCast_1ab_ab_apply]; rfl

theorem actOut_row (r : Fin 1024) (k : K) :
    actOut d p0 p1 p2 p3 w b hcast hc hb hsl0 (ix2 r k) = act (Wof w) (bof b) (row p0 r) k := by
  show Ideal.tanh (extractStridedSlice ⟨2, ![1024, 512]⟩ ![0, 0] (Z d p0 p1 p2 p3 w hcast hc) hsl0 (ix2 r k)
      + broadcastTo ⟨2, ![1024, 512]⟩ b hb (ix2 r k)) = Ideal.tanh ((∑ j, row p0 r j * Wof w j k) + bof b k)
  rw [Z_slice d h1 h2 h3 h4 h5 h6 hr hs p0 p1 p2 p3 w hcast hc 0 (by decide) p0 rfl 0 rfl hsl0 r k,
    broadcastTo_1b_ab_apply]
  rfl

theorem tanOut_row (n : Nat) (hn : n < 4) (pa : FVec Ideal ⟨2, ![1024, 512]⟩ .bf16)
    (hpa : ([⟨_, p0⟩, ⟨_, p1⟩, ⟨_, p2⟩, ⟨_, p3⟩] : List ((s : Shape) × (s.Idx → Ideal .bf16)))[n]'(by simpa using hn) = ⟨_, pa⟩)
    (o : Nat) (ho : o = n * 1024) (hsl : (⟨2, ![4096, 512]⟩ : Shape).Slices ![o, 0] ⟨2, ![1024, 512]⟩)
    (r : Fin 1024) (k : K) :
    tanOut d p0 p1 p2 p3 w b hcast hc hb hsl0 o hsl (ix2 r k)
      = stepJE (Wof w) (act (Wof w) (bof b) (row p0 r)) (row pa r) k := by
  show extractStridedSlice ⟨2, ![1024, 512]⟩ ![o, 0] (Z d p0 p1 p2 p3 w hcast hc) hsl (ix2 r k)
      * (Ideal.ofBits .f32 0x3F800000#32 - actOut d p0 p1 p2 p3 w b hcast hc hb hsl0 (ix2 r k)
          * actOut d p0 p1 p2 p3 w b hcast hc hb hsl0 (ix2 r k))
      = (∑ j, row pa r j * Wof w j k) * (1 - act (Wof w) (bof b) (row p0 r) k * act (Wof w) (bof b) (row p0 r) k)
  rw [Z_slice d h1 h2 h3 h4 h5 h6 hr hs p0 p1 p2 p3 w hcast hc n hn pa hpa o ho hsl r k,
    actOut_row d h1 h2 h3 h4 h5 h6 hr hs p0 p1 p2 p3 w b hcast hc hb hsl0 r k, Ideal.ofBits_one_f32]

theorem row_actOut (r : Fin 1024) :
    row (actOut d p0 p1 p2 p3 w b hcast hc hb hsl0) r = act (Wof w) (bof b) (row p0 r) :=
  funext fun k => actOut_row d h1 h2 h3 h4 h5 h6 hr hs p0 p1 p2 p3 w b hcast hc hb hsl0 r k

theorem row_tanOut (n : Nat) (hn : n < 4) (pa : FVec Ideal ⟨2, ![1024, 512]⟩ .bf16)
    (hpa : ([⟨_, p0⟩, ⟨_, p1⟩, ⟨_, p2⟩, ⟨_, p3⟩] : List ((s : Shape) × (s.Idx → Ideal .bf16)))[n]'(by simpa using hn) = ⟨_, pa⟩)
    (o : Nat) (ho : o = n * 1024) (hsl : (⟨2, ![4096, 512]⟩ : Shape).Slices ![o, 0] ⟨2, ![1024, 512]⟩)
    (r : Fin 1024) :
    row (tanOut d p0 p1 p2 p3 w b hcast hc hb hsl0 o hsl) r
      = stepJE (Wof w) (act (Wof w) (bof b) (row p0 r)) (row pa r) :=
  funext fun k => tanOut_row d h1 h2 h3 h4 h5 h6 hr hs p0 p1 p2 p3 w b hcast hc hb hsl0 n hn pa hpa o ho hsl r k

end Layer

/-! ## The six output columns -/

section Columns
variable {α : Type}

/-- Six `[1024, 1]` columns joined side by side: column `n` of the join is piece `n`. -/
theorem cols6_apply (q0 q1 q2 q3 q4 q5 : (⟨2, ![1024, 1]⟩ : Shape).Idx → α)
    (h : Shape.Concatenates (([⟨_, q0⟩, ⟨_, q1⟩, ⟨_, q2⟩, ⟨_, q3⟩, ⟨_, q4⟩, ⟨_, q5⟩] : List ((s : Shape) × (s.Idx → α))).map (·.1)) ⟨2, ![1024, 6]⟩ 1)
    (n : Nat) (hn : n < 6) (qa : (⟨2, ![1024, 1]⟩ : Shape).Idx → α)
    (hqa : ([⟨_, q0⟩, ⟨_, q1⟩, ⟨_, q2⟩, ⟨_, q3⟩, ⟨_, q4⟩, ⟨_, q5⟩] : List ((s : Shape) × (s.Idx → α)))[n]'(by simpa using hn) = ⟨_, qa⟩)
    (r : Fin 1024) (c : Fin 6) (hc : n = c.val) :
    concatenate ⟨2, ![1024, 6]⟩ 1 [⟨_, q0⟩, ⟨_, q1⟩, ⟨_, q2⟩, ⟨_, q3⟩, ⟨_, q4⟩, ⟨_, q5⟩] h (ix2 r c)
      = qa (ix2 r (0 : Fin 1)) := by
  refine concatenate_apply_piece (1 : Fin 2) _ h (ix2 r c) n (by simpa using hn) _ qa hqa rfl n ?_ (ix2 r (0 : Fin 1)) ?_ ?_
  · have : n = 0 ∨ n = 1 ∨ n = 2 ∨ n = 3 ∨ n = 4 ∨ n = 5 := by omega
    rcases this with rfl | rfl | rfl | rfl | rfl | rfl <;> rfl
  · intro b hb
    match b with
    | ⟨0, _⟩ => rfl
    | ⟨1, _⟩ => exact absurd rfl hb
  · show n + 0 = c.val
    omega

end Columns

end Cert.KernelLayer

end
-- ==== Proof.KernelBody.lean ====
/-
  The kernel's body on one tile of 1024 rows, read entry by entry.

  The body computes, for the tile's rows, the first hidden rows `x · W0 + b0` and the three starting tangents (rows 0, 1, 2
  of `W0`, the same for every row of the tile), advances them through the seven layers — each layer ONE stacked product
  (`KernelLayer`) —, contracts the three final tangents with `Wf` in one stacked product, and wires the twelve needed
  Jacobian entries of each row into six columns.  Here each step's result is read at row `r`, and the whole body's entry
  `(r, c)` comes out as `JacobianSpec.rowK` of row `r` of the tile: the forward-mode arrangement, term by term.
-/
import proofs.«179046_j18021682774229_2_alg».proof.Proof.Gen.KernelIdeal.Skeleton
import proofs.«179046_j18021682774229_2_alg».proof.Proof.KernelLayer

open scoped BigOperators

noncomputable section

namespace Cert.KernelBody

open Idealize.ShloMosaic Idealize.ShloMosaic.ValueIdx Cert.KernelIdeal Cert.KernelIdeal.Gen
open Cert.TangentChain Cert.JacobianSpec Cert.StackedRows Cert.KernelLayer

/-- The layers' stacked product. -/
abbrev d4 : DotDims S4096x512 S512x512 S4096x512 := dot_S4096x512_S512x512_S4096x512_1_0_0_1_n_n

/-! ## The first linear map and the starting tangents -/

section First
variable (P0 : Vec Ideal S1024x4 .f32) (P1 : Vec Ideal S4x512 .bf16) (P2 : Vec Ideal S1x512 .f32)

/-- The tile's first hidden rows. -/
def hid : FVec Ideal S1024x512 .bf16 :=
  have v1 : FVec Ideal S1024x4 .bf16 := truncf .bf16 P0 bitsLt_bf16_f32
  have v3 : FVec Ideal S4x512 .bf16 := shapeCast S4x512 P1 shapeCasts_S4x512_S4x512
  have v5 : FVec Ideal S1x512 .f32 := shapeCast S1x512 P2 shapeCasts_S1x512_S1x512
  have cst : FVec Ideal S1024x512 .f32 := constant S1024x512 .f32 0x00000000#32
  have v6 : FVec Ideal S1024x512 .f32 := matmul dot_S1024x4_S4x512_S1024x512_1_0_0_1_n_n none v1 v3 cst
  have v7 : FVec Ideal S1024x512 .f32 := broadcastTo S1024x512 v5 broadcasts_S1x512_S1024x512
  have v8 : FVec Ideal S1024x512 .f32 := addf v6 v7
  truncf .bf16 v8 bitsLt_bf16_f32

/-- Row `a` of `W0` repeated down the tile: the tangent of input direction `a` before the first layer. -/
def tan0 (a : Nat) (hsl : S4x512.Slices ![a, 0] S1x512) : FVec Ideal S1024x512 .bf16 :=
  have v3 : FVec Ideal S4x512 .bf16 := shapeCast S4x512 P1 shapeCasts_S4x512_S4x512
  have v9 : FVec Ideal S4x512 .f32 := extf .f32 v3 bitsLt_bf16_f32
  have v10 : FVec Ideal S1x512 .f32 := extractStridedSlice S1x512 ![a, 0] v9 hsl
  have v11 : FVec Ideal S1x512 .f32 := shapeCast S1x512 v10 shapeCasts_S1x512_S1x512
  have v12 : FVec Ideal S1024x512 .f32 := broadcastTo S1024x512 v11 broadcasts_S1x512_S1024x512
  truncf .bf16 v12 bitsLt_bf16_f32

theorem hid_row (r : Fin 1024) :
    row (hid P0 P1 P2) r = h0 (fun a => P0 (ix2 r a)) (fun a k => P1 (ix2 a k)) (bof P2) := by
  funext k
  show FloatOps.matmul dot_S1024x4_S4x512_S1024x512_1_0_0_1_n_n none
        (truncf .bf16 P0 bitsLt_bf16_f32 : FVec Ideal S1024x4 .bf16)
        (shapeCast S4x512 P1 shapeCasts_S4x512_S4x512 : FVec Ideal S4x512 .bf16)
        (constant (F := Ideal) S1024x512 .f32 0x00000000#32) (ix2 r k)
      + broadcastTo S1024x512 (shapeCast S1x512 P2 shapeCasts_S1x512_S1x512 : FVec Ideal S1x512 .f32)
          broadcasts_S1x512_S1024x512 (ix2 r k)
      = (∑ a, P0 (ix2 r a) * P1 (ix2 a k)) + P2 (ix2 (0 : Fin 1) k)
  rw [Idealize.ShloMosaic.RowsTimes.matmul_zero_apply _ rfl rfl rfl rfl rfl rfl rfl rfl, broadcastTo_1b_ab_apply,
    shapeCast_self, shapeCast_self]
  rfl

theorem tan0_row (a : Nat) (hsl : S4x512.Slices ![a, 0] S1x512) (A : Fin 4) (hA : A.val = a) (r : Fin 1024) :
    row (tan0 P1 a hsl) r = fun k => P1 (ix2 A k) := by
  funext k
  show broadcastTo S1024x512 (shapeCast S1x512 (extractStridedSlice S1x512 ![a, 0]
      (extf .f32 (shapeCast S4x512 P1 shapeCasts_S4x512_S4x512 : FVec Ideal S4x512 .bf16) bitsLt_bf16_f32 : FVec Ideal S4x512 .f32) hsl
        : FVec Ideal S1x512 .f32) shapeCasts_S1x512_S1x512 : FVec Ideal S1x512 .f32)
    broadcasts_S1x512_S1024x512 (ix2 r k) = P1 (ix2 A k)
  rw [broadcastTo_1b_ab_apply, shapeCast_self, slice2_axis0_apply a _ hsl (0 : Fin 1) k A (by rw [hA]; rfl), shapeCast_self]
  rfl

end First

/-! ## Two layers in a row (the body advances two layers between its cuts) -/

section Two
variable (v0 v1 v2 v3 : FVec Ideal S1024x512 .bf16)
  (wA : Vec Ideal S1x512x512 .bf16) (bA : Vec Ideal S1x512 .f32) (wB : Vec Ideal S1x512x512 .bf16) (bB : Vec Ideal S1x512 .f32)

/-- The first of the two layers: its activation and its three tangents. -/
def oneAct : FVec Ideal S1024x512 .f32 :=
  actOut d4 v0 v1 v2 v3 wA bA shapeCasts_S1x512x512_S512x512 concatenates_S1024x512_S1024x512_S1024x512_S1024x512_S4096x512_d0
    broadcasts_S1x512_S1024x512 slices_S4096x512_o0_0_S1024x512
def oneTan (o : Nat) (hsl : S4096x512.Slices ![o, 0] S1024x512) : FVec Ideal S1024x512 .f32 :=
  tanOut d4 v0 v1 v2 v3 wA bA shapeCasts_S1x512x512_S512x512 concatenates_S1024x512_S1024x512_S1024x512_S1024x512_S4096x512_d0
    broadcasts_S1x512_S1024x512 slices_S4096x512_o0_0_S1024x512 o hsl

theorem row_oneAct (r : Fin 1024) : row (oneAct v0 v1 v2 v3 wA bA) r = act (Wof wA) (bof bA) (row v0 r) :=
  row_actOut d4 rfl rfl rfl rfl rfl rfl rfl rfl v0 v1 v2 v3 wA bA _ _ _ _ r

theorem row_oneTan1 (r : Fin 1024) : row (oneTan v0 v1 v2 v3 wA bA 1024 slices_S4096x512_o1024_0_S1024x512) r
    = stepJE (Wof wA) (act (Wof wA) (bof bA) (row v0 r)) (row v1 r) :=
  row_tanOut d4 rfl rfl rfl rfl rfl rfl rfl rfl v0 v1 v2 v3 wA bA _ _ _ _ 1 (by decide) v1 rfl 1024 rfl _ r
theorem row_oneTan2 (r : Fin 1024) : row (oneTan v0 v1 v2 v3 wA bA 2048 slices_S4096x512_o2048_0_S1024x512) r
    = stepJE (Wof wA) (act (Wof wA) (bof bA) (row v0 r)) (row v2 r) :=
  row_tanOut d4 rfl rfl rfl rfl rfl rfl rfl rfl v0 v1 v2 v3 wA bA _ _ _ _ 2 (by decide) v2 rfl 2048 rfl _ r
theorem row_oneTan3 (r : Fin 1024) : row (oneTan v0 v1 v2 v3 wA bA 3072 slices_S4096x512_o3072_0_S1024x512) r
    = stepJE (Wof wA) (act (Wof wA) (bof bA) (row v0 r)) (row v3 r) :=
  row_tanOut d4 rfl rfl rfl rfl rfl rfl rfl rfl v0 v1 v2 v3 wA bA _ _ _ _ 3 (by decide) v3 rfl 3072 rfl _ r

/-- What the first layer hands to the second, in the stack's order. -/
def q0 : FVec Ideal S1024x512 .bf16 := truncf .bf16 (oneAct v0 v1 v2 v3 wA bA) bitsLt_bf16_f32
def q1 : FVec Ideal S1024x512 .bf16 := truncf .bf16 (oneTan v0 v1 v2 v3 wA bA 1024 slices_S4096x512_o1024_0_S1024x512) bitsLt_bf16_f32
def q2 : FVec Ideal S1024x512 .bf16 := truncf .bf16 (oneTan v0 v1 v2 v3 wA bA 2048 slices_S4096x512_o2048_0_S1024x512) bitsLt_bf16_f32
def q3 : FVec Ideal S1024x512 .bf16 := truncf .bf16 (oneTan v0 v1 v2 v3 wA bA 3072 slices_S4096x512_o3072_0_S1024x512) bitsLt_bf16_f32

/-- After both layers: the activation and the three tangents. -/
def twoAct : FVec Ideal S1024x512 .f32 :=
  oneAct (q0 v0 v1 v2 v3 wA bA) (q1 v0 v1 v2 v3 wA bA) (q2 v0 v1 v2 v3 wA bA) (q3 v0 v1 v2 v3 wA bA) wB bB
def twoTan (o : Nat) (hsl : S4096x512.Slices ![o, 0] S1024x512) : FVec Ideal S1024x512 .f32 :=
  oneTan (q0 v0 v1 v2 v3 wA bA) (q1 v0 v1 v2 v3 wA bA) (q2 v0 v1 v2 v3 wA bA) (q3 v0 v1 v2 v3 wA bA) wB bB o hsl

/-- The activations after the first and after the second of the two layers, at row `r`. -/
def tA (r : Fin 1024) : K → EReal := act (Wof wA) (bof bA) (row v0 r)
def tB (r : Fin 1024) : K → EReal := act (Wof wB) (bof bB) (tA v0 wA bA r)

theorem row_twoAct (r : Fin 1024) : row (twoAct v0 v1 v2 v3 wA bA wB bB) r = tB v0 wA bA wB bB r := by
  unfold twoAct
  rw [row_oneAct]
  show act (Wof wB) (bof bB) (row (oneAct v0 v1 v2 v3 wA bA) r) = _
  rw [row_oneAct]; rfl

theorem row_twoTan1 (r : Fin 1024) : row (twoTan v0 v1 v2 v3 wA bA wB bB 1024 slices_S4096x512_o1024_0_S1024x512) r
    = stepJE (Wof wB) (tB v0 wA bA wB bB r) (stepJE (Wof wA) (tA v0 wA bA r) (row v1 r)) := by
  unfold twoTan
  rw [row_oneTan1]
  show stepJE (Wof wB) (act (Wof wB) (bof bB) (row (oneAct v0 v1 v2 v3 wA bA) r))
    (row (oneTan v0 v1 v2 v3 wA bA 1024 slices_S4096x512_o1024_0_S1024x512) r) = _
  rw [row_oneAct, row_oneTan1]; rfl
theorem row_twoTan2 (r : Fin 1024) : row (twoTan v0 v1 v2 v3 wA bA wB bB 2048 slices_S4096x512_o2048_0_S1024x512) r
    = stepJE (Wof wB) (tB v0 wA bA wB bB r) (stepJE (Wof wA) (tA v0 wA bA r) (row v2 r)) := by
  unfold twoTan
  rw [row_oneTan2]
  show stepJE (Wof wB) (act (Wof wB) (bof bB) (row (oneAct v0 v1 v2 v3 wA bA) r))
    (row (oneTan v0 v1 v2 v3 wA bA 2048 slices_S4096x512_o2048_0_S1024x512) r) = _
  rw [row_oneAct, row_oneTan2]; rfl
theorem row_twoTan3 (r : Fin 1024) : row (twoTan v0 v1 v2 v3 wA bA wB bB 3072 slices_S4096x512_o3072_0_S1024x512) r
    = stepJE (Wof wB) (tB v0 wA bA wB bB r) (stepJE (Wof wA) (tA v0 wA bA r) (row v3 r)) := by
  unfold twoTan
  rw [row_oneTan3]
  show stepJE (Wof wB) (act (Wof wB) (bof bB) (row (oneAct v0 v1 v2 v3 wA bA) r))
    (row (oneTan v0 v1 v2 v3 wA bA 3072 slices_S4096x512_o3072_0_S1024x512) r) = _
  rw [row_oneAct, row_oneTan3]; rfl

end Two

/-! ## The body's stages are those terms -/

section Stages

/-- The stage after the first layer. -/
theorem pay5_eq (P0 : Vec Ideal S1024x4 .f32) (P1 : Vec Ideal S4x512 .bf16) (P2 : Vec Ideal S1x512 .f32)
    (P3 : Vec Ideal S1x512x512 .bf16) (P4 : Vec Ideal S1x512 .f32) :
    k0_pay5 (F := Ideal) P0 P1 P2 P3 P4 = q0 (hid P0 P1 P2) (tan0 P1 0 slices_S4x512_o0_0_S1x512)
      (tan0 P1 1 slices_S4x512_o1_0_S1x512) (tan0 P1 2 slices_S4x512_o2_0_S1x512) P3 P4 := rfl
theorem pay6_eq (P0 : Vec Ideal S1024x4 .f32) (P1 : Vec Ideal S4x512 .bf16) (P2 : Vec Ideal S1x512 .f32)
    (P3 : Vec Ideal S1x512x512 .bf16) (P4 : Vec Ideal S1x512 .f32) :
    k0_pay6 (F := Ideal) P0 P1 P2 P3 P4 = q1 (hid P0 P1 P2) (tan0 P1 0 slices_S4x512_o0_0_S1x512)
      (tan0 P1 1 slices_S4x512_o1_0_S1x512) (tan0 P1 2 slices_S4x512_o2_0_S1x512) P3 P4 := rfl
theorem pay7_eq (P0 : Vec Ideal S1024x4 .f32) (P1 : Vec Ideal S4x512 .bf16) (P2 : Vec Ideal S1x512 .f32)
    (P3 : Vec Ideal S1x512x512 .bf16) (P4 : Vec Ideal S1x512 .f32) :
    k0_pay7 (F := Ideal) P0 P1 P2 P3 P4 = q2 (hid P0 P1 P2) (tan0 P1 0 slices_S4x512_o0_0_S1x512)
      (tan0 P1 1 slices_S4x512_o1_0_S1x512) (tan0 P1 2 slices_S4x512_o2_0_S1x512) P3 P4 := rfl
theorem pay8_eq (P0 : Vec Ideal S1024x4 .f32) (P1 : Vec Ideal S4x512 .bf16) (P2 : Vec Ideal S1x512 .f32)
    (P3 : Vec Ideal S1x512x512 .bf16) (P4 : Vec Ideal S1x512 .f32) :
    k0_pay8 (F := Ideal) P0 P1 P2 P3 P4 = q3 (hid P0 P1 P2) (tan0 P1 0 slices_S4x512_o0_0_S1x512)
      (tan0 P1 1 slices_S4x512_o1_0_S1x512) (tan0 P1 2 slices_S4x512_o2_0_S1x512) P3 P4 := rfl

variable (v0 v1 v2 v3 : FVec Ideal S1024x512 .bf16)
  (wA : Vec Ideal S1x512x512 .bf16) (bA : Vec Ideal S1x512 .f32) (wB : Vec Ideal S1x512x512 .bf16) (bB : Vec Ideal S1x512 .f32)

/-- The stages after layers two and three, and after layers four and five: two layers each. -/
theorem pay12_eq : k0_pay12 (F := Ideal) v0 v1 v2 v3 wA bA wB bB
    = truncf .bf16 (twoAct v0 v1 v2 v3 wA bA wB bB) bitsLt_bf16_f32 := rfl
theorem pay13_eq : k0_pay13 (F := Ideal) v0 v1 v2 v3 wA bA wB bB
    = truncf .bf16 (twoTan v0 v1 v2 v3 wA bA wB bB 1024 slices_S4096x512_o1024_0_S1024x512) bitsLt_bf16_f32 := rfl
theorem pay14_eq : k0_pay14 (F := Ideal) v0 v1 v2 v3 wA bA wB bB
    = truncf .bf16 (twoTan v0 v1 v2 v3 wA bA wB bB 2048 slices_S4096x512_o2048_0_S1024x512) bitsLt_bf16_f32 := rfl
theorem pay15_eq : k0_pay15 (F := Ideal) v0 v1 v2 v3 wA bA wB bB
    = truncf .bf16 (twoTan v0 v1 v2 v3 wA bA wB bB 3072 slices_S4096x512_o3072_0_S1024x512) bitsLt_bf16_f32 := rfl
theorem pay19_eq : k0_pay19 (F := Ideal) v0 v1 v2 v3 wA bA wB bB
    = truncf .bf16 (twoAct v0 v1 v2 v3 wA bA wB bB) bitsLt_bf16_f32 := rfl
theorem pay20_eq : k0_pay20 (F := Ideal) v0 v1 v2 v3 wA bA wB bB
    = truncf .bf16 (twoTan v0 v1 v2 v3 wA bA wB bB 1024 slices_S4096x512_o1024_0_S1024x512) bitsLt_bf16_f32 := rfl
theorem pay21_eq : k0_pay21 (F := Ideal) v0 v1 v2 v3 wA bA wB bB
    = truncf .bf16 (twoTan v0 v1 v2 v3 wA bA wB bB 2048 slices_S4096x512_o2048_0_S1024x512) bitsLt_bf16_f32 := rfl
theorem pay22_eq : k0_pay22 (F := Ideal) v0 v1 v2 v3 wA bA wB bB
    = truncf .bf16 (twoTan v0 v1 v2 v3 wA bA wB bB 3072 slices_S4096x512_o3072_0_S1024x512) bitsLt_bf16_f32 := rfl

/-- The last stage: layers six and seven, then the three tangents stacked and contracted with `Wf`. -/
theorem pay23_eq (wf : Vec Ideal S512x4 .bf16) : k0_pay23 (F := Ideal) v0 v1 v2 v3 wA bA wB bB wf
    = matmul dot_S3072x512_S512x4_S3072x4_1_0_0_1_n_n none
        (concatenate S3072x512 0
          [⟨S1024x512, (truncf .bf16 (twoTan v0 v1 v2 v3 wA bA wB bB 1024 slices_S4096x512_o1024_0_S1024x512) bitsLt_bf16_f32 : FVec Ideal S1024x512 .bf16)⟩,
           ⟨S1024x512, (truncf .bf16 (twoTan v0 v1 v2 v3 wA bA wB bB 2048 slices_S4096x512_o2048_0_S1024x512) bitsLt_bf16_f32 : FVec Ideal S1024x512 .bf16)⟩,
           ⟨S1024x512, (truncf .bf16 (twoTan v0 v1 v2 v3 wA bA wB bB 3072 slices_S4096x512_o3072_0_S1024x512) bitsLt_bf16_f32 : FVec Ideal S1024x512 .bf16)⟩]
          concatenates_S1024x512_S1024x512_S1024x512_S3072x512_d0)
        (shapeCast S512x4 wf shapeCasts_S512x4_S512x4 : FVec Ideal S512x4 .bf16) (constant S3072x4 .f32 0x00000000#32) := rfl

end Stages

/-! ## The stages read at a row -/

section Rows
variable (r : Fin 1024)

/-- After the first layer: the activation and the three tangents of row `r`. -/
theorem stage1_rows (P0 : Vec Ideal S1024x4 .f32) (P1 : Vec Ideal S4x512 .bf16) (P2 : Vec Ideal S1x512 .f32)
    (P3 : Vec Ideal S1x512x512 .bf16) (P4 : Vec Ideal S1x512 .f32) :
    row (k0_pay5 (F := Ideal) P0 P1 P2 P3 P4) r
        = act (Wof P3) (bof P4) (h0 (fun a => P0 (ix2 r a)) (fun a k => P1 (ix2 a k)) (bof P2))
    ∧ row (k0_pay6 (F := Ideal) P0 P1 P2 P3 P4) r
        = stepJE (Wof P3) (act (Wof P3) (bof P4) (h0 (fun a => P0 (ix2 r a)) (fun a k => P1 (ix2 a k)) (bof P2)))
            (fun k => P1 (ix2 (0 : Fin 4) k))
    ∧ row (k0_pay7 (F := Ideal) P0 P1 P2 P3 P4) r
        = stepJE (Wof P3) (act (Wof P3) (bof P4) (h0 (fun a => P0 (ix2 r a)) (fun a k => P1 (ix2 a k)) (bof P2)))
            (fun k => P1 (ix2 (1 : Fin 4) k))
    ∧ row (k0_pay8 (F := Ideal) P0 P1 P2 P3 P4) r
        = stepJE (Wof P3) (act (Wof P3) (bof P4) (h0 (fun a => P0 (ix2 r a)) (fun a k => P1 (ix2 a k)) (bof P2)))
            (fun k => P1 (ix2 (2 : Fin 4) k)) := by
  rw [pay5_eq, pay6_eq, pay7_eq, pay8_eq]
  unfold q0 q1 q2 q3
  rw [row_truncf, row_truncf, row_truncf, row_truncf, row_oneAct, row_oneTan1, row_oneTan2, row_oneTan3, hid_row,
    tan0_row P1 0 _ (0 : Fin 4) rfl r, tan0_row P1 1 _ (1 : Fin 4) rfl r, tan0_row P1 2 _ (2 : Fin 4) rfl r]
  exact ⟨rfl, rfl, rfl, rfl⟩

variable (v0 v1 v2 v3 : FVec Ideal S1024x512 .bf16)
  (wA : Vec Ideal S1x512x512 .bf16) (bA : Vec Ideal S1x512 .f32) (wB : Vec Ideal S1x512x512 .bf16) (bB : Vec Ideal S1x512 .f32)
  (t J1 J2 J3 : K → EReal) (h0 : row v0 r = t) (h1 : row v1 r = J1) (h2 : row v2 r = J2) (h3 : row v3 r = J3)

include h0 h1 h2 h3

/-- After two more layers, from a stage whose rows are `t, J1, J2, J3`. -/
theorem stage2_rows :
    row (k0_pay12 (F := Ideal) v0 v1 v2 v3 wA bA wB bB) r = act (Wof wB) (bof bB) (act (Wof wA) (bof bA) t)
    ∧ row (k0_pay13 (F := Ideal) v0 v1 v2 v3 wA bA wB bB) r
        = stepJE (Wof wB) (act (Wof wB) (bof bB) (act (Wof wA) (bof bA) t)) (stepJE (Wof wA) (act (Wof wA) (bof bA) t) J1)
    ∧ row (k0_pay14 (F := Ideal) v0 v1 v2 v3 wA bA wB bB) r
        = stepJE (Wof wB) (act (Wof wB) (bof bB) (act (Wof wA) (bof bA) t)) (stepJE (Wof wA) (act (Wof wA) (bof bA) t) J2)
    ∧ row (k0_pay15 (F := Ideal) v0 v1 v2 v3 wA bA wB bB) r
        = stepJE (Wof wB) (act (Wof wB) (bof bB) (act (Wof wA) (bof bA) t)) (stepJE (Wof wA) (act (Wof wA) (bof bA) t) J3) := by
  rw [pay12_eq, pay13_eq, pay14_eq, pay15_eq, row_truncf, row_truncf, row_truncf, row_truncf, row_twoAct, row_twoTan1,
    row_twoTan2, row_twoTan3]
  unfold tB tA
  rw [h0, h1, h2, h3]
  exact ⟨rfl, rfl, rfl, rfl⟩

theorem stage3_rows :
    row (k0_pay19 (F := Ideal) v0 v1 v2 v3 wA bA wB bB) r = act (Wof wB) (bof bB) (act (Wof wA) (bof bA) t)
    ∧ row (k0_pay20 (F := Ideal) v0 v1 v2 v3 wA bA wB bB) r
        = stepJE (Wof wB) (act (Wof wB) (bof bB) (act (Wof wA) (bof bA) t)) (stepJE (Wof wA) (act (Wof wA) (bof bA) t) J1)
    ∧ row (k0_pay21 (F := Ideal) v0 v1 v2 v3 wA bA wB bB) r
        = stepJE (Wof wB) (act (Wof wB) (bof bB) (act (Wof wA) (bof bA) t)) (stepJE (Wof wA) (act (Wof wA) (bof bA) t) J2)
    ∧ row (k0_pay22 (F := Ideal) v0 v1 v2 v3 wA bA wB bB) r
        = stepJE (Wof wB) (act (Wof wB) (bof bB) (act (Wof wA) (bof bA) t)) (stepJE (Wof wA) (act (Wof wA) (bof bA) t) J3) := by
  rw [pay19_eq, pay20_eq, pay21_eq, pay22_eq, row_truncf, row_truncf, row_truncf, row_truncf, row_twoAct, row_twoTan1,
    row_twoTan2, row_twoTan3]
  unfold tB tA
  rw [h0, h1, h2, h3]
  exact ⟨rfl, rfl, rfl, rfl⟩

/-- The last stage at the three rows `r`, `1024 + r`, `2048 + r` of the stacked contraction with `Wf`. -/
theorem stage4_apply (wf : Vec Ideal S512x4 .bf16) (R0 R1 R2 : Fin 3072) (e0 : 0 * 1024 + r.val = R0.val)
    (e1 : 1 * 1024 + r.val = R1.val) (e2 : 2 * 1024 + r.val = R2.val) (o : Fin 4) :
    k0_pay23 (F := Ideal) v0 v1 v2 v3 wA bA wB bB wf (ix2 R0 o)
        = ∑ k, stepJE (Wof wB) (act (Wof wB) (bof bB) (act (Wof wA) (bof bA) t))
            (stepJE (Wof wA) (act (Wof wA) (bof bA) t) J1) k * wf (ix2 k o)
    ∧ k0_pay23 (F := Ideal) v0 v1 v2 v3 wA bA wB bB wf (ix2 R1 o)
        = ∑ k, stepJE (Wof wB) (act (Wof wB) (bof bB) (act (Wof wA) (bof bA) t))
            (stepJE (Wof wA) (act (Wof wA) (bof bA) t) J2) k * wf (ix2 k o)
    ∧ k0_pay23 (F := Ideal) v0 v1 v2 v3 wA bA wB bB wf (ix2 R2 o)
        = ∑ k, stepJE (Wof wB) (act (Wof wB) (bof bB) (act (Wof wA) (bof bA) t))
            (stepJE (Wof wA) (act (Wof wA) (bof bA) t) J3) k * wf (ix2 k o) := by
  have hA := row_twoTan1 v0 v1 v2 v3 wA bA wB bB r
  have hB := row_twoTan2 v0 v1 v2 v3 wA bA wB bB r
  have hC := row_twoTan3 v0 v1 v2 v3 wA bA wB bB r
  unfold tB tA at hA hB hC
  rw [h0] at hA hB hC
  rw [h1] at hA; rw [h2] at hB; rw [h3] at hC
  rw [pay23_eq]
  refine ⟨?_, ?_, ?_⟩
  · rw [stack3_matmul _ rfl rfl rfl rfl rfl rfl rfl rfl _ _ _ _ _ 0 (by decide) _ rfl R0 r e0 o, ← hA]
    exact Finset.sum_congr rfl fun k _ => by rw [shapeCast_self]; rfl
  · rw [stack3_matmul _ rfl rfl rfl rfl rfl rfl rfl rfl _ _ _ _ _ 1 (by decide) _ rfl R1 r e1 o, ← hB]
    exact Finset.sum_congr rfl fun k _ => by rw [shapeCast_self]; rfl
  · rw [stack3_matmul _ rfl rfl rfl rfl rfl rfl rfl rfl _ _ _ _ _ 2 (by decide) _ rfl R2 r e2 o, ← hC]
    exact Finset.sum_congr rfl fun k _ => by rw [shapeCast_self]; rfl

end Rows

/-! ## The six columns -/

/-- Column `j` of the quarter of the `[3072, 4]` product that starts at row `O`, at row `r`. -/
theorem col_apply (v : FVec Ideal S3072x4 .f32) (O : Nat) (hslR : S3072x4.Slices ![O, 0] S1024x4) (j : Nat)
    (hslC : S1024x4.Slices ![0, j] S1024x1) (r : Fin 1024) (R : Fin 3072) (hR : R.val = O + r.val) (J : Fin 4)
    (hJ : J.val = j) :
    extractStridedSlice S1024x1 ![0, j] (extractStridedSlice S1024x4 ![O, 0] v hslR : FVec Ideal S1024x4 .f32) hslC
      (ix2 r (0 : Fin 1)) = v (ix2 R J) := by
  rw [slice2_axis1_apply j _ hslC r (0 : Fin 1) J (by rw [hJ]; rfl), slice2_axis0_apply O v hslR r J R hR]

/-- The body's last value: the six columns wired from the three quarters. -/
theorem pay1_apply (v : FVec Ideal S3072x4 .f32) (r : Fin 1024) (c : Fin 6) (R0 R1 R2 : Fin 3072)
    (e0 : R0.val = 0 + r.val) (e1 : R1.val = 1024 + r.val) (e2 : R2.val = 2048 + r.val) :
    k0_pay1 (F := Ideal) v (ix2 r c)
      = wire (fun o => v (ix2 R0 o)) (fun o => v (ix2 R1 o)) (fun o => v (ix2 R2 o)) c := by
  unfold k0_pay1
  match c with
  | ⟨0, _⟩ =>
    refine (cols6_apply _ _ _ _ _ _ _ 0 (by decide) _ rfl r ⟨0, _⟩ rfl).trans ?_
    show _ - _ = v (ix2 R1 2) - v (ix2 R2 1)
    rw [col_apply v 1024 _ 2 _ r R1 e1 2 rfl, col_apply v 2048 _ 1 _ r R2 e2 1 rfl]
  | ⟨1, _⟩ =>
    refine (cols6_apply _ _ _ _ _ _ _ 1 (by decide) _ rfl r ⟨1, _⟩ rfl).trans ?_
    show _ - _ = v (ix2 R2 0) - v (ix2 R0 2)
    rw [col_apply v 2048 _ 0 _ r R2 e2 0 rfl, col_apply v 0 _ 2 _ r R0 e0 2 rfl]
  | ⟨2, _⟩ =>
    refine (cols6_apply _ _ _ _ _ _ _ 2 (by decide) _ rfl r ⟨2, _⟩ rfl).trans ?_
    show _ - _ = v (ix2 R0 1) - v (ix2 R1 0)
    rw [col_apply v 0 _ 1 _ r R0 e0 1 rfl, col_apply v 1024 _ 0 _ r R1 e1 0 rfl]
  | ⟨3, _⟩ =>
    refine (cols6_apply _ _ _ _ _ _ _ 3 (by decide) _ rfl r ⟨3, _⟩ rfl).trans ?_
    exact col_apply v 0 _ 3 _ r R0 e0 3 rfl
  | ⟨4, _⟩ =>
    refine (cols6_apply _ _ _ _ _ _ _ 4 (by decide) _ rfl r ⟨4, _⟩ rfl).trans ?_
    exact col_apply v 1024 _ 3 _ r R1 e1 3 rfl
  | ⟨5, _⟩ =>
    refine (cols6_apply _ _ _ _ _ _ _ 5 (by decide) _ rfl r ⟨5, _⟩ rfl).trans ?_
    exact col_apply v 2048 _ 3 _ r R2 e2 3 rfl

end Cert.KernelBody

end
-- ==== Proof.KernelTile.lean ====
/-
  What the kernel's body leaves in the output block of one tile, as one function of the tile's six input blocks.

  The body loads the tile of `x` and the whole weight arrays piece by piece (layer `l`'s weights are slab `l` of the stacked
  `[7, 512, 512]` array, its bias row `l` of the `[7, 512]` array), runs the stages of `KernelBody`, and stores one `[1024, 6]`
  block.  Entry `(r, c)` of that block is `JacobianSpec.rowK` of row `r` of the tile with the layers read from the stacked
  arrays (`JacobianSpec.preOf`).
-/
import proofs.«179046_j18021682774229_2_alg».proof.Proof.Gen.KernelIdeal.Frame
import proofs.«179046_j18021682774229_2_alg».proof.Proof.KernelBody

open scoped BigOperators

noncomputable section

namespace Cert.KernelTile

open Idealize.ShloMosaic Idealize.ShloMosaic.ValueIdx Cert.KernelIdeal Cert.KernelIdeal.Gen
open Cert.TangentChain Cert.JacobianSpec Cert.KernelLayer Cert.KernelBody

theorem zero2 : (![0, 0] : Fin 2 → Nat) = fun _ => 0 := funext fun a => by fin_cases a <;> rfl

/-- Slab `l` of the stacked weights, as loaded. -/
theorem ld_slab (x3 : Vec Ideal S7x512x512 .bf16) (l : Nat) (inb : ∀ a, (![l, 0, 0] : Fin 3 → Nat) a + S1x512x512.size a ≤ S7x512x512.size a)
    (L : Fin 7) (hL : L.val = l) :
    Wof (View.ld x3 (Rect.unit (s := S7x512x512) ![l, 0, 0] S1x512x512.size inb)) = fun j k => x3 (ix3 L j k) := by
  funext j k
  show x3 ((Rect.unit (s := S7x512x512) ![l, 0, 0] S1x512x512.size inb).idx (ix3 (0 : Fin 1) j k)) = x3 (ix3 L j k)
  refine congrArg x3 (funext fun a => Fin.ext ?_)
  match a with
  | ⟨0, _⟩ => show l + 1 * 0 = L.val; omega
  | ⟨1, _⟩ => show 0 + 1 * j.val = j.val; omega
  | ⟨2, _⟩ => show 0 + 1 * k.val = k.val; omega

/-- Row `l` of the stacked biases, as loaded. -/
theorem ld_bias (x4 : Vec Ideal S7x512 .f32) (l : Nat) (inb : ∀ a, (![l, 0] : Fin 2 → Nat) a + S1x512.size a ≤ S7x512.size a)
    (L : Fin 7) (hL : L.val = l) :
    bof (View.ld x4 (Rect.unit (s := S7x512) ![l, 0] S1x512.size inb)) = fun k => x4 (ix2 L k) := by
  funext k
  show x4 ((Rect.unit (s := S7x512) ![l, 0] S1x512.size inb).idx (ix2 (0 : Fin 1) k)) = x4 (ix2 L k)
  refine congrArg x4 (funext fun a => Fin.ext ?_)
  match a with
  | ⟨0, _⟩ => show l + 1 * 0 = L.val; omega
  | ⟨1, _⟩ => show 0 + 1 * k.val = k.val; omega

set_option maxHeartbeats 400000 in
/-- THE OUTPUT BLOCK of a tile. -/
theorem out_eq (x0 : Vec Ideal S1024x4 .f32) (x1 : Vec Ideal S4x512 .bf16) (x2 : Vec Ideal S1x512 .f32)
    (x3 : Vec Ideal S7x512x512 .bf16) (x4 : Vec Ideal S7x512 .f32) (x5 : Vec Ideal S512x4 .bf16) :
    out0_6 (F := Ideal) x0 x1 x2 x3 x4 x5 = fun y => rowK (fun a => x0 (ix2 (y 0) a)) (fun a k => x1 (ix2 a k))
      (fun k => x2 (ix2 (0 : Fin 1) k)) (preOf x3 x4) (fun k o => x5 (ix2 k o)) (y 1) := by
  unfold out0_6
  rw [View.canon_unit_zero zero2]
  funext y
  obtain ⟨r, c, rfl⟩ : ∃ (r : Fin 1024) (c : Fin 6), y = ix2 r c := ⟨y 0, y 1, eq_ix2 y⟩
  rw [View.ld_unit_zero (S := S1024x4) zero2 _ x0, View.ld_unit_zero (S := S4x512) zero2 _ x1,
    View.ld_unit_zero (S := S1x512) zero2 _ x2, View.ld_unit_zero (S := S512x4) zero2 _ x5]
  have s1 := stage1_rows r x0 x1 x2 (View.ld x3 r0_3) (View.ld x4 r0_4)
  have s2 := stage2_rows r _ _ _ _ (View.ld x3 r0_5) (View.ld x4 r0_6) (View.ld x3 r0_7) (View.ld x4 r0_8) _ _ _ _
    s1.1 s1.2.1 s1.2.2.1 s1.2.2.2
  have s3 := stage3_rows r _ _ _ _ (View.ld x3 r0_9) (View.ld x4 r0_10) (View.ld x3 r0_11) (View.ld x4 r0_12) _ _ _ _
    s2.1 s2.2.1 s2.2.2.1 s2.2.2.2
  have s4 := fun o => stage4_apply r _ _ _ _ (View.ld x3 r0_13) (View.ld x4 r0_14) (View.ld x3 r0_15) (View.ld x4 r0_16)
    _ _ _ _ s3.1 s3.2.1 s3.2.2.1 s3.2.2.2 x5
    (⟨r.val, by omega⟩ : Fin 3072) (⟨1024 + r.val, by omega⟩ : Fin 3072) (⟨2048 + r.val, by omega⟩ : Fin 3072)
    (by show 0 * 1024 + r.val = r.val; omega) (by show 1 * 1024 + r.val = 1024 + r.val; omega)
    (by show 2 * 1024 + r.val = 2048 + r.val; omega) o
  rw [pay1_apply _ r c (⟨r.val, by omega⟩ : Fin 3072) (⟨1024 + r.val, by omega⟩ : Fin 3072)
    (⟨2048 + r.val, by omega⟩ : Fin 3072) (by show r.val = 0 + r.val; omega) rfl rfl]
  rw [funext fun o => (s4 o).1, funext fun o => (s4 o).2.1, funext fun o => (s4 o).2.2]
  rw [ld_slab x3 0 _ 0 rfl, ld_slab x3 1 _ 1 rfl, ld_slab x3 2 _ 2 rfl, ld_slab x3 3 _ 3 rfl, ld_slab x3 4 _ 4 rfl,
    ld_slab x3 5 _ 5 rfl, ld_slab x3 6 _ 6 rfl, ld_bias x4 0 _ 0 rfl, ld_bias x4 1 _ 1 rfl, ld_bias x4 2 _ 2 rfl,
    ld_bias x4 3 _ 3 rfl, ld_bias x4 4 _ 4 rfl, ld_bias x4 5 _ 5 rfl, ld_bias x4 6 _ 6 rfl]
  show _ = rowK (fun a => x0 (ix2 r a)) (fun a k => x1 (ix2 a k)) (fun k => x2 (ix2 (0 : Fin 1) k)) (preOf x3 x4)
    (fun k o => x5 (ix2 k o)) c
  unfold rowK
  simp only [preOf, layers, vecK, fwdE]
  rfl

end Cert.KernelTile

end
-- ==== Proof.KernelBlocks.lean ====
/-
  From blocks to the array, for the idealized kernel.

  The kernel runs over 32 grid points.  At point `t` it is given rows `1024 t … 1024 t + 1023` of the input `x` and the
  whole of every weight and bias array, and it writes back rows `1024 t … 1024 t + 1023` of the `[32768, 6]` result.  Suppose
  the body leaves, in row `r` of its output block, the forward-mode Jacobian row `JacobianSpec.rowK` of row `r` of its
  input block (hypothesis `hout` below).  Then what point `t` writes back is block `t` of ONE array, `JacobianSpec.specK`
  of the argument arrays (`written_back`): row `r` of block `t` is row `1024 t + r` of the array, the weight windows are the
  arguments themselves (the conversion to the 16-bit format is the identity on extended reals, and the first bias is
  only laid out as `[1, 512]`).  The 32 blocks cover the array (`rows_cover`: row `n` lies in block `n / 1024`), so after
  the run the result array is `specK` of the arguments (`array_eq_specK`, `run_spec`), and the arguments are unchanged.
-/
import proofs.«179046_j18021682774229_2_alg».proof.Proof.Gen.KernelIdeal.Frame
import proofs.«179046_j18021682774229_2_alg».proof.Proof.JacobianSpec
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx Cert.JacobianSpec

section

variable (m : (ℓ : Loc nD τ sig) → Buf (Elt Ideal) ℓ)

/-- The windows' block indices at every grid point, decided over the 32 points: the input rows' window and the output's
    window are at block `(t, 0)`; every other window is one whole block, at index 0. -/
theorem block_indices : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The arrays the host writes before the region, as the region finds them. The first weights are the argument converted
    to the 16-bit format (the identity on extended reals). -/
theorem entry_W0 (c : Dev nD) : (V m c main_v0 : S4x512.Idx → EReal)
    = (truncf .bf16 (m ((c : Thread nD τ).loc main_arg1) : FVec Ideal S4x512 .f32) bitsLt_bf16_f32 : FVec Ideal S4x512 .bf16) := by
  dsimp only [Gen.V, Gen.hostOps0]; after_results

/-- The hidden weights are the argument converted to the 16-bit format. -/
theorem entry_Wh (c : Dev nD) : (V m c main_v1 : S7x512x512.Idx → EReal)
    = (truncf .bf16 (m ((c : Thread nD τ).loc main_arg3) : FVec Ideal S7x512x512 .f32) bitsLt_bf16_f32 : FVec Ideal S7x512x512 .bf16) := by
  dsimp only [Gen.V, Gen.hostOps0]; after_results

/-- The last weights are the argument converted to the 16-bit format. -/
theorem entry_Wf (c : Dev nD) : (V m c main_v2 : S512x4.Idx → EReal)
    = (truncf .bf16 (m ((c : Thread nD τ).loc main_arg5) : FVec Ideal S512x4 .f32) bitsLt_bf16_f32 : FVec Ideal S512x4 .bf16) := by
  dsimp only [Gen.V, Gen.hostOps0]; after_results

/-- The first bias is the argument `[512]` laid out as `[1, 512]`. -/
theorem entry_b0 (c : Dev nD) : (V m c main_v3 : S1x512.Idx → EReal)
    = shapeCast S1x512 (m ((c : Thread nD τ).loc main_arg2) : S512.Idx → EReal) shapeCasts_S512_S1x512 := by
  dsimp only [Gen.V, Gen.hostOps0]; after_results; rfl

/-- Window 0's block at point `t` is rows `1024 t … 1024 t + 1023` of the first argument. -/
theorem rows_block (c : Dev nD) (t : Fin cfg0.N) (r : Fin 1024) (a : Fin 4) (n : Fin 32768) (hn : n.val = t.val * 1024 + r.val) :
    (iblk m c 0 t : Vec Ideal S1024x4 .f32) (ix2 r a) = (m ((c : Thread nD τ).loc main_arg0) : S32768x4.Idx → EReal) (ix2 n a) := by
  obtain ⟨e0, e1, -⟩ := block_indices t
  unfold iblk
  rw [View.read_apply]
  show V m c main_arg0 _ = _
  rw [V_main_arg0]
  refine congrArg (m ((c : Thread nD τ).loc main_arg0)) ?_
  funext d
  apply Fin.ext
  match d with
  | ⟨0, _⟩ => show win0_0.index t (0 : Fin 2) * 1024 + 1 * r.val = n.val; rw [e0, hn]; omega
  | ⟨1, _⟩ => show win0_0.index t (1 : Fin 2) * 4 + 1 * a.val = a.val; rw [e1]; omega

/-- The first weights' window is the whole array at every point. -/
theorem W0_block (c : Dev nD) (t : Fin cfg0.N) (j : S4x512.Idx) :
    (iblk m c 1 t : Vec Ideal S4x512 .bf16) j = (m ((c : Thread nD τ).loc main_arg1) : S4x512.Idx → EReal) j := by
  obtain ⟨-, -, -, -, e0, e1, -⟩ := block_indices t
  unfold iblk
  rw [View.read_apply]
  show (V m c main_v0 : S4x512.Idx → EReal) _ = _
  rw [entry_W0, truncf_apply]
  refine congrArg (m ((c : Thread nD τ).loc main_arg1)) ?_
  funext d
  apply Fin.ext
  match d with
  | ⟨0, _⟩ => show win0_1.index t (0 : Fin 2) * 4 + 1 * (j 0).val = (j 0).val; rw [e0]; omega
  | ⟨1, _⟩ => show win0_1.index t (1 : Fin 2) * 512 + 1 * (j 1).val = (j 1).val; rw [e1]; omega

/-- The first bias's window is the whole `[1, 512]` array at every point: entry `(0, k)` is the argument's entry `k`. -/
theorem b0_block (c : Dev nD) (t : Fin cfg0.N) (k : Fin 512) :
    (iblk m c 2 t : Vec Ideal S1x512 .f32) (ix2 (0 : Fin 1) k) = (m ((c : Thread nD τ).loc main_arg2) : S512.Idx → EReal) (ix1 k) := by
  obtain ⟨-, -, -, -, -, -, e0, e1, -⟩ := block_indices t
  unfold iblk
  rw [View.read_apply]
  show (V m c main_v3 : S1x512.Idx → EReal) _ = _
  rw [entry_b0]
  refine (congrArg (shapeCast S1x512 (m ((c : Thread nD τ).loc main_arg2) : S512.Idx → EReal) shapeCasts_S512_S1x512) ?_).trans
    (shapeCast_a_1a_apply _ shapeCasts_S512_S1x512 (0 : Fin 1) k)
  funext d
  apply Fin.ext
  match d with
  | ⟨0, _⟩ => show win0_2.index t (0 : Fin 2) * 1 + 1 * 0 = 0; rw [e0]
  | ⟨1, _⟩ => show win0_2.index t (1 : Fin 2) * 512 + 1 * k.val = k.val; rw [e1]; omega

/-- The hidden weights' window is the whole array at every point. -/
theorem Wh_block (c : Dev nD) (t : Fin cfg0.N) (j : S7x512x512.Idx) :
    (iblk m c 3 t : Vec Ideal S7x512x512 .bf16) j = (m ((c : Thread nD τ).loc main_arg3) : S7x512x512.Idx → EReal) j := by
  obtain ⟨-, -, -, -, -, -, -, -, e0, e1, e2, -⟩ := block_indices t
  unfold iblk
  rw [View.read_apply]
  show (V m c main_v1 : S7x512x512.Idx → EReal) _ = _
  rw [entry_Wh, truncf_apply]
  refine congrArg (m ((c : Thread nD τ).loc main_arg3)) ?_
  funext d
  apply Fin.ext
  match d with
  | ⟨0, _⟩ => show win0_3.index t (0 : Fin 3) * 7 + 1 * (j 0).val = (j 0).val; rw [e0]; omega
  | ⟨1, _⟩ => show win0_3.index t (1 : Fin 3) * 512 + 1 * (j 1).val = (j 1).val; rw [e1]; omega
  | ⟨2, _⟩ => show win0_3.index t (2 : Fin 3) * 512 + 1 * (j 2).val = (j 2).val; rw [e2]; omega

/-- The hidden biases' window is the whole array at every point. -/
theorem bh_block (c : Dev nD) (t : Fin cfg0.N) (j : S7x512.Idx) :
    (iblk m c 4 t : Vec Ideal S7x512 .f32) j = (m ((c : Thread nD τ).loc main_arg4) : S7x512.Idx → EReal) j := by
  obtain ⟨-, -, -, -, -, -, -, -, -, -, -, e0, e1, -⟩ := block_indices t
  unfold iblk
  rw [View.read_apply]
  show V m c main_arg4 _ = _
  rw [V_main_arg4]
  refine congrArg (m ((c : Thread nD τ).loc main_arg4)) ?_
  funext d
  apply Fin.ext
  match d with
  | ⟨0, _⟩ => show win0_4.index t (0 : Fin 2) * 7 + 1 * (j 0).val = (j 0).val; rw [e0]; omega
  | ⟨1, _⟩ => show win0_4.index t (1 : Fin 2) * 512 + 1 * (j 1).val = (j 1).val; rw [e1]; omega

/-- The last weights' window is the whole array at every point. -/
theorem Wf_block (c : Dev nD) (t : Fin cfg0.N) (j : S512x4.Idx) :
    (iblk m c 5 t : Vec Ideal S512x4 .bf16) j = (m ((c : Thread nD τ).loc main_arg5) : S512x4.Idx → EReal) j := by
  obtain ⟨-, -, -, -, -, -, -, -, -, -, -, -, -, e0, e1⟩ := block_indices t
  unfold iblk
  rw [View.read_apply]
  show (V m c main_v2 : S512x4.Idx → EReal) _ = _
  rw [entry_Wf, truncf_apply]
  refine congrArg (m ((c : Thread nD τ).loc main_arg5)) ?_
  funext d
  apply Fin.ext
  match d with
  | ⟨0, _⟩ => show win0_5.index t (0 : Fin 2) * 512 + 1 * (j 0).val = (j 0).val; rw [e0]; omega
  | ⟨1, _⟩ => show win0_5.index t (1 : Fin 2) * 4 + 1 * (j 1).val = (j 1).val; rw [e1]; omega

/-- WHAT POINT `t` WRITES BACK is block `t` of the array `specK` of the arguments: the body's row `r` of the block is row
    `1024 t + r` of the array, computed from the same row of the first argument and from the whole weight arrays. -/
theorem written_back (hout : ∀ (x0 : Vec Ideal Cert.KernelIdeal.S1024x4 .f32) (x1 : Vec Ideal Cert.KernelIdeal.S4x512 .bf16) (x2 : Vec Ideal Cert.KernelIdeal.S1x512 .f32) (x3 : Vec Ideal Cert.KernelIdeal.S7x512x512 .bf16) (x4 : Vec Ideal Cert.KernelIdeal.S7x512 .f32) (x5 : Vec Ideal Cert.KernelIdeal.S512x4 .bf16),
      Cert.KernelIdeal.Gen.out0_6 (F := Ideal) x0 x1 x2 x3 x4 x5 = fun y => Cert.JacobianSpec.rowK (fun a => x0 (ValueIdx.ix2 (y 0) a)) (fun a k => x1 (ValueIdx.ix2 a k)) (fun k => x2 (ValueIdx.ix2 (0 : Fin 1) k)) (Cert.JacobianSpec.preOf x3 x4) (fun k o => x5 (ValueIdx.ix2 k o)) (y 1)) (c : Dev nD) (t : Fin cfg0.N) :
    (dats m 0 c).flushed 6 t = ((cfg0.win 6).blk t).view.read (Elt Ideal)
      (specK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  obtain ⟨-, -, e0, e1, -⟩ := block_indices t
  show (cfg0.win 6).cut (grid0.coords t) ((dats m 0 c).after 6 t) = _
  rw [after0_6, hout (iblk m c 0 t) (iblk m c 1 t) (iblk m c 2 t) (iblk m c 3 t) (iblk m c 4 t) (iblk m c 5 t)]
  funext j
  rw [View.read_apply]
  have hr : (j 0).val < 1024 := (j 0).isLt
  have ho : (j 1).val < 6 := (j 1).isLt
  -- where the block's index `j` sits in the array
  have hE0 : ((((cfg0.win 6).blk t).view.emb j) 0).val = t.val * 1024 + (j 0).val := by
    show win0_6.index t (0 : Fin 2) * 1024 + 1 * (j 0).val = _; rw [e0]; omega
  have hE1 : ((((cfg0.win 6).blk t).view.emb j) 1).val = (j 1).val := by
    show win0_6.index t (1 : Fin 2) * 6 + 1 * (j 1).val = _; rw [e1]; omega
  show rowK (fun a => (iblk m c 0 t : Vec Ideal S1024x4 .f32) (ix2 (⟨(j 0).val, hr⟩ : Fin 1024) a))
        (fun a k => (iblk m c 1 t : Vec Ideal S4x512 .bf16) (ix2 a k))
        (fun k => (iblk m c 2 t : Vec Ideal S1x512 .f32) (ix2 (0 : Fin 1) k))
        (preOf (iblk m c 3 t : Vec Ideal S7x512x512 .bf16) (iblk m c 4 t : Vec Ideal S7x512 .f32))
        (fun k o => (iblk m c 5 t : Vec Ideal S512x4 .bf16) (ix2 k o)) (⟨(j 1).val, ho⟩ : Fin 6)
      = specK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (((cfg0.win 6).blk t).view.emb j)
  unfold specK
  have h0 : (fun a : Fin 4 => (iblk m c 0 t : Vec Ideal S1024x4 .f32) (ix2 (⟨(j 0).val, hr⟩ : Fin 1024) a))
      = fun a => (m ((c : Thread nD τ).loc main_arg0) : S32768x4.Idx → EReal) (ix2 ((((cfg0.win 6).blk t).view.emb j) 0) a) :=
    funext fun a => rows_block m c t _ a _ hE0
  have h1 : (fun (a : Fin 4) (k : Fin 512) => (iblk m c 1 t : Vec Ideal S4x512 .bf16) (ix2 a k))
      = fun a k => (m ((c : Thread nD τ).loc main_arg1) : S4x512.Idx → EReal) (ix2 a k) :=
    funext fun a => funext fun k => W0_block m c t _
  have h2 : (fun k : Fin 512 => (iblk m c 2 t : Vec Ideal S1x512 .f32) (ix2 (0 : Fin 1) k))
      = fun k => (m ((c : Thread nD τ).loc main_arg2) : S512.Idx → EReal) (ix1 k) :=
    funext fun k => b0_block m c t k
  have h3 : (iblk m c 3 t : Vec Ideal S7x512x512 .bf16) = (m ((c : Thread nD τ).loc main_arg3) : S7x512x512.Idx → EReal) :=
    funext fun i => Wh_block m c t i
  have h4 : (iblk m c 4 t : Vec Ideal S7x512 .f32) = (m ((c : Thread nD τ).loc main_arg4) : S7x512.Idx → EReal) :=
    funext fun i => bh_block m c t i
  have h5 : (fun (k : Fin 512) (o : Fin 4) => (iblk m c 5 t : Vec Ideal S512x4 .bf16) (ix2 k o))
      = fun k o => (m ((c : Thread nD τ).loc main_arg5) : S512x4.Idx → EReal) (ix2 k o) :=
    funext fun k => funext fun o => Wf_block m c t _
  have h6 : (⟨(j 1).val, ho⟩ : Fin 6) = (((cfg0.win 6).blk t).view.emb j) 1 := Fin.ext hE1.symm
  exact congr (congr (congr (congr (congr (congrArg rowK h0) h1) h2) (congr (congrArg preOf h3) h4)) h5) h6

/-- An index of the array is in point `t`'s block iff each coordinate is in the block's range on its axis. -/
theorem mem_rows_block (t : Fin cfg0.N) (i : S32768x6.Idx) :
    i ∈ ((cfg0.win 6).blk t).view.set ↔ ∀ a : Fin 2, win0_6.index t a * S1024x6.size a ≤ (i a).val
      ∧ (i a).val < win0_6.index t a * S1024x6.size a + S1024x6.size a := by
  show i ∈ ((View.whole main_v4).slice (win0_6.rect t)).set ↔ _
  rw [View.set_slice_whole, Rect.mem_set_unit]
  exact Iff.rfl

/-- The 32 blocks of 1024 rows cover the array: row `n` lies in the block of point `n / 1024`, and the block is as wide
    as the array. -/
theorem rows_cover (i : S32768x6.Idx) :
    ∃ t : Fin cfg0.N, (cfg0.win 6).flush t = true ∧ i ∈ ((cfg0.win 6).blk t).view.set := by
  have hi0 : (i 0).val < 32768 := (i 0).isLt
  have hi1 : (i 1).val < 6 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨-, -, e0, e1, -⟩ := block_indices t
  refine ⟨t, flush0_6 t, ?_⟩
  rw [mem_rows_block]
  intro a
  match a with
  | ⟨0, _⟩ =>
    show win0_6.index t (0 : Fin 2) * 1024 ≤ (i 0).val ∧ (i 0).val < win0_6.index t (0 : Fin 2) * 1024 + 1024
    rw [e0, ht]; omega
  | ⟨1, _⟩ =>
    show win0_6.index t (1 : Fin 2) * 6 ≤ (i 1).val ∧ (i 1).val < win0_6.index t (1 : Fin 2) * 6 + 6
    rw [e1]; omega

/-- THE ARRAY after the run is `specK` of the arguments. -/
theorem array_eq_specK (hout : ∀ (x0 : Vec Ideal Cert.KernelIdeal.S1024x4 .f32) (x1 : Vec Ideal Cert.KernelIdeal.S4x512 .bf16) (x2 : Vec Ideal Cert.KernelIdeal.S1x512 .f32) (x3 : Vec Ideal Cert.KernelIdeal.S7x512x512 .bf16) (x4 : Vec Ideal Cert.KernelIdeal.S7x512 .f32) (x5 : Vec Ideal Cert.KernelIdeal.S512x4 .bf16),
      Cert.KernelIdeal.Gen.out0_6 (F := Ideal) x0 x1 x2 x3 x4 x5 = fun y => Cert.JacobianSpec.rowK (fun a => x0 (ValueIdx.ix2 (y 0) a)) (fun a k => x1 (ValueIdx.ix2 a k)) (fun k => x2 (ValueIdx.ix2 (0 : Fin 1) k)) (Cert.JacobianSpec.preOf x3 x4) (fun k o => x5 (ValueIdx.ix2 k o)) (y 1)) (c : Dev nD) :
    (dats m 0 c).arrAt 6 cfg0.N = specK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 (specK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
    (fun t _ => written_back m hout c t) rows_cover

end

/-- The run, read: the result array at `specK` of the arguments, the seven arguments unchanged. -/
theorem run_spec (hout : ∀ (x0 : Vec Ideal Cert.KernelIdeal.S1024x4 .f32) (x1 : Vec Ideal Cert.KernelIdeal.S4x512 .bf16) (x2 : Vec Ideal Cert.KernelIdeal.S1x512 .f32) (x3 : Vec Ideal Cert.KernelIdeal.S7x512x512 .bf16) (x4 : Vec Ideal Cert.KernelIdeal.S7x512 .f32) (x5 : Vec Ideal Cert.KernelIdeal.S512x4 .bf16),
      Cert.KernelIdeal.Gen.out0_6 (F := Ideal) x0 x1 x2 x3 x4 x5 = fun y => Cert.JacobianSpec.rowK (fun a => x0 (ValueIdx.ix2 (y 0) a)) (fun a k => x1 (ValueIdx.ix2 a k)) (fun k => x2 (ValueIdx.ix2 (0 : Fin 1) k)) (Cert.JacobianSpec.preOf x3 x4) (fun k o => x5 (ValueIdx.ix2 k o)) (y 1))
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v4) = specK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 6).trans (array_eq_specK m hout c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.BlockValue

end
-- ==== Proof.LibTransposedDot.lean ====
/-
  A matrix product whose right operand is contracted on its second axis, read at an index.

  For the dimension numbers of an `[M, K] × [N, K] → [M, N]` product — both operands contracted on their second axis, no
  batch axis, that is `x · wᵀ` — the contraction index has one coordinate, ranging over `Fin K`; at the result index
  `(r, c)` and contraction position `k` the left operand is read at `(r, k)` and the right at `(c, k)`. So a sum over the
  contraction index of any function of the two operand indices is the sum over `k : Fin K` of that function at `(r, k)`
  and `(c, k)`; in particular the host's `dot_general` with these dimension numbers, over the extended reals, is at
  `(r, c)` the sum over `k` of `x (r, k) · w (c, k)`. Nothing here uses finiteness: it is a re-indexing of one sum.
-/
import Idealize.ShloMosaic.PureOps.Dims
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at result index `(r, c)` and contraction position `k` is `(r, k)`, the right operand's
    `(c, k)`, for any record with these dimension numbers; the contraction position `k : Fin K` is carried to the contraction
    index by `contrEquiv1`. -/
theorem transposed_idx {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 c k := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])
    | ⟨1, _⟩ =>
      show (d.rhsIdx (ix2 r c) ((contrEquiv1 d K hr hs).symm k) 1).val = k.val
      rw [d.rhsIdx_val_of_single h2]
      exact contrEquiv1_symm_val d K hr hs k

/-- THE CONTRACTION SUM OF `x · wᵀ` at `(r, c)`: the sum over `k : Fin K` at the operand indices `(r, k)` and
    `(c, k)`, in any commutative additive monoid. -/
theorem transposed_sum {β : Type*} [AddCommMonoid β] {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = K)
    (f : (⟨2, ![M, K]⟩ : Shape).Idx → (⟨2, ![N, K]⟩ : Shape).Idx → β) (r : Fin M) (c : Fin N) :
    ∑ q : d.contr.Idx, f (d.lhsIdx (ix2 r c) q) (d.rhsIdx (ix2 r c) q) = ∑ k : Fin K, f (ix2 r k) (ix2 c k) := by
  rw [← Equiv.sum_comp (contrEquiv1 d K hr hs).symm]
  refine Finset.sum_congr rfl fun k _ => ?_
  obtain ⟨hl, hr'⟩ := transposed_idx d h1 h2 h3 h4 h5 h6 hr hs r c k
  rw [hl, hr']

/-- The host's `dot_general` of `x · wᵀ` over the extended reals, at `(r, c)`: the sum over `k` of
    `x (r, k) · w (c, k)`. -/
theorem hostDot_apply {M K N : Nat} {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![N, K]⟩ φ₂) (r : Fin M) (c : Fin N) :
    Host.dotGeneral (F := Ideal) d prec x w (ix2 r c) = ∑ k : Fin K, x (ix2 r k) * w (ix2 c k) := by
  unfold Host.dotGeneral
  rw [Ideal.dotGeneral_apply]
  exact transposed_sum d h1 h2 h3 h4 h5 h6 hr hs (fun i j => x i * w j) r c

end Idealize.ShloMosaic.TransposedDot

end
-- ==== Proof.ReferenceOps.lean ====
/-
  The operations of a reverse-mode reference program, read at an index.

  A host program that differentiates a small network backwards is built from a handful of shapes of operation: a matrix
  taken out of a stack of matrices, a bias row repeated down the rows, a plain product, a product with a transposed
  matrix, the constant one broadcast, an identity matrix made from two iotas, columns cut out of a matrix and set side by
  side. Each lemma here reads one of them at an index given by its coordinates, over arrays that are variables, so that
  the stages of a particular program are matched against them one at a time. Nothing uses finiteness: every equation is
  between the same sums of the same products.
-/
import proofs.«179046_j18021682774229_2_alg».proof.Proof.LibRowsTimes
import proofs.«179046_j18021682774229_2_alg».proof.Proof.LibTransposedDot
import Idealize.ShloMosaic.Lib.ValueLayout
import Idealize.ShloMosaic.Lib.IdealHost

open scoped BigOperators

noncomputable section

namespace Cert.RefOps

open Idealize.ShloMosaic Idealize.ShloMosaic.ValueIdx

variable {α : Type}

/-! ## Layout operations of the reference, read at an index given by coordinates -/

/-- Matrix `l` of a stack of matrices: the slice `[l, l + 1)` along the first axis with its unit axis dropped reads, at
    `(j, k)`, the stack at `(l, j, k)`. -/
theorem stackMat_apply {L A B : Nat} (X : (⟨3, ![L, A, B]⟩ : Shape).Idx → α) (o : Nat) (l : Fin L) (hl : l.val = o)
    (hs : (⟨3, ![L, A, B]⟩ : Shape).Slices ![o, 0, 0] ⟨3, ![1, A, B]⟩)
    (hc : (⟨3, ![1, A, B]⟩ : Shape).ShapeCasts ⟨2, ![A, B]⟩) (j : Fin A) (k : Fin B) :
    shapeCast ⟨2, ![A, B]⟩ (extractStridedSlice ⟨3, ![1, A, B]⟩ ![o, 0, 0] X hs) hc (ix2 j k) = X (ix3 l j k) := by
  rw [shapeCast_1ab_ab_apply]
  refine extractStridedSlice_apply _ _ _ _ _ fun ax => ?_
  match ax with
  | ⟨0, _⟩ => show l.val = o + 0; omega
  | ⟨1, _⟩ => show j.val = 0 + j.val; omega
  | ⟨2, _⟩ => show k.val = 0 + k.val; omega

/-- Row `l` of a stack of rows: the slice `[l, l + 1)` along the first axis with its unit axis dropped reads, at `k`,
    the stack at `(l, k)`. -/
theorem stackRow_apply {L B : Nat} (X : (⟨2, ![L, B]⟩ : Shape).Idx → α) (o : Nat) (l : Fin L) (hl : l.val = o)
    (hs : (⟨2, ![L, B]⟩ : Shape).Slices ![o, 0] ⟨2, ![1, B]⟩) (hc : (⟨2, ![1, B]⟩ : Shape).ShapeCasts ⟨1, ![B]⟩)
    (k : Fin B) :
    shapeCast ⟨1, ![B]⟩ (extractStridedSlice ⟨2, ![1, B]⟩ ![o, 0] X hs) hc (ix1 k) = X (ix2 l k) := by
  rw [shapeCast_1a_a_apply]
  exact slice2_axis0_apply o X hs 0 k l (by show l.val = o + 0; omega)

/-- A row vector given a unit leading axis and then repeated down `N` rows reads, at `(n, k)`, the vector at `k`. -/
theorem rowBcast_apply {N B : Nat} (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) (n : Fin N) (k : Fin B) :
    broadcastInDim ⟨2, ![N, B]⟩ ![0, 1] h2 (broadcastInDim ⟨2, ![1, B]⟩ ![1] h1 v) (ix2 n k) = v (ix1 k) := by
  refine (broadcastInDim_apply _ h2 _ (ix2 n k) (ix2 (0 : Fin 1) k) fun a => ?_).trans
    (broadcastInDim_apply _ h1 _ (ix2 (0 : Fin 1) k) (ix1 k) fun a => ?_)
  · match a with
    | ⟨0, _⟩ => show (0 : Nat) = if (1 : Nat) = 1 then 0 else _; rw [if_pos rfl]
    | ⟨1, _⟩ =>
      show k.val = if B = 1 then 0 else k.val
      split
      · have := k.isLt; omega
      · rfl
  · match a with
    | ⟨0, _⟩ =>
      show k.val = if B = 1 then 0 else k.val
      split
      · have := k.isLt; omega
      · rfl

/-- A row vector repeated down `N` rows directly reads, at `(n, k)`, the vector at `k`. -/
theorem rowBcast1_apply {N B : Nat} (v : (⟨1, ![B]⟩ : Shape).Idx → α)
    (h : (⟨1, ![B]⟩ : Shape).BroadcastsInDim ⟨2, ![N, B]⟩ ![1]) (n : Fin N) (k : Fin B) :
    broadcastInDim ⟨2, ![N, B]⟩ ![1] h v (ix2 n k) = v (ix1 k) := by
  refine broadcastInDim_apply _ h _ (ix2 n k) (ix1 k) fun a => ?_
  match a with
  | ⟨0, _⟩ =>
    show k.val = if B = 1 then 0 else k.val
    split
    · have := k.isLt; omega
    · rfl

/-- A column vector given a unit trailing axis reads, at `(n, u)`, the vector at `n`. -/
theorem colUnit_apply {N : Nat} (v : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h v (ix2 n u) = v (ix1 n) := by
  refine broadcastInDim_apply _ h _ (ix2 n u) (ix1 n) fun a => ?_
  match a with
  | ⟨0, _⟩ =>
    show n.val = if N = 1 then 0 else n.val
    split
    · have := n.isLt; omega
    · rfl

/-- Column `a` of a matrix as a vector: the slice `[a, a + 1)` along the second axis with its unit axis dropped reads,
    at `n`, the matrix at `(n, a)`. -/
theorem col_apply {N C : Nat} (d : (⟨2, ![N, C]⟩ : Shape).Idx → α) (o : Nat) (a : Fin C) (ha : a.val = o)
    (hs : (⟨2, ![N, C]⟩ : Shape).Slices ![0, o] ⟨2, ![N, 1]⟩) (hc : (⟨2, ![N, 1]⟩ : Shape).ShapeCasts ⟨1, ![N]⟩)
    (n : Fin N) :
    shapeCast ⟨1, ![N]⟩ (extractStridedSlice ⟨2, ![N, 1]⟩ ![0, o] d hs) hc (ix1 n) = d (ix2 n a) := by
  refine (shapeCast_apply _ hc (ix1 n) (ix2 n (0 : Fin 1)) ?_).trans ?_
  · rw [Shape.rowMajor_val_two, Shape.rowMajor_val_one]
    show n.val * 1 + 0 = n.val
    omega
  · exact slice2_axis1_apply o d hs n 0 a (by show a.val = o + 0; omega)

/-- Six columns set side by side: column `c` of the result is piece `c`. -/
theorem concat6_apply {N : Nat} (p0 p1 p2 p3 p4 p5 : (⟨2, ![N, 1]⟩ : Shape).Idx → α)
    (h : Shape.Concatenates (([⟨_, p0⟩, ⟨_, p1⟩, ⟨_, p2⟩, ⟨_, p3⟩, ⟨_, p4⟩, ⟨_, p5⟩] :
      List ((s : Shape) × (s.Idx → α))).map (·.1)) ⟨2, ![N, 6]⟩ 1)
    (n : Fin N) (c : Fin 6) (pc : (⟨2, ![N, 1]⟩ : Shape).Idx → α)
    (hpc : ([⟨_, p0⟩, ⟨_, p1⟩, ⟨_, p2⟩, ⟨_, p3⟩, ⟨_, p4⟩, ⟨_, p5⟩] :
      List ((s : Shape) × (s.Idx → α)))[c.val]'(by simpa using c.isLt) = ⟨_, pc⟩) :
    concatenate ⟨2, ![N, 6]⟩ 1 [⟨_, p0⟩, ⟨_, p1⟩, ⟨_, p2⟩, ⟨_, p3⟩, ⟨_, p4⟩, ⟨_, p5⟩] h (ix2 n c)
      = pc (ix2 n (0 : Fin 1)) := by
  refine concatenate_apply_piece (1 : Fin 2) _ h (ix2 n c) c.val (by simpa using c.isLt) _ pc hpc rfl c.val ?_
    (ix2 n (0 : Fin 1)) ?_ ?_
  · have hc := c.isLt
    have : c.val = 0 ∨ c.val = 1 ∨ c.val = 2 ∨ c.val = 3 ∨ c.val = 4 ∨ c.val = 5 := by omega
    rcases this with e | e | e | e | e | e <;> rw [e] <;> rfl
  · intro b hb
    match b with
    | ⟨0, _⟩ => rfl
    | ⟨1, _⟩ => exact absurd rfl hb
  · show c.val + 0 = c.val
    omega

/-! ## Constants -/

/-- The scalar `1.0` broadcast to any shape reads `1` everywhere. -/
theorem oneBcast_apply {T : Shape} (h : (⟨0, ![]⟩ : Shape).BroadcastsInDim T ![]) (i : T.Idx) :
    broadcastInDim T ![] h (constant (F := Ideal) ⟨0, ![]⟩ .f32 0x3F800000#32) i = (1 : EReal) := by
  rw [broadcastInDim_scalar_apply, constant_apply, Ideal.ofBits_one_f32]

/-- The comparison of the row number with the column number, as a number: `1` on the diagonal, `0` off it. -/
theorem eyeWord (o j : Fin 4) :
    (IntOp.cmpi .eq (IntOp.addi (BitVec.ofNat 32 o.val) 0#32) (BitVec.ofNat 32 j.val)).toNat = if o = j then 1 else 0 := by
  revert o j; decide

/-- The 4 × 4 identity matrix as the reference builds it — two iotas compared, the answer converted to a float — reads
    `1` on the diagonal and `0` off it. -/
theorem eye_apply (h : (⟨0, ![]⟩ : Shape).BroadcastsInDim ⟨2, ![4, 4]⟩ ![]) (o j : Fin 4) :
    (uitofp (F := Ideal) .f32 (cmpi .eq (addi (iotaInDim ⟨2, ![4, 4]⟩ 32 0)
      (broadcastInDim ⟨2, ![4, 4]⟩ ![] h (constantI ⟨0, ![]⟩ 32 0#32))) (iotaInDim ⟨2, ![4, 4]⟩ 32 1))) (ix2 o j)
      = if o = j then (1 : EReal) else 0 := by
  show (((IntOp.cmpi .eq (IntOp.addi (BitVec.ofNat 32 o.val)
      (broadcastInDim ⟨2, ![4, 4]⟩ ![] h (constantI ⟨0, ![]⟩ 32 0#32) (ix2 o j))) (BitVec.ofNat 32 j.val)).toNat : ℝ) : EReal) = _
  rw [broadcastInDim_scalar_apply, constantI_apply, eyeWord]
  split <;> simp

/-! ## The reference's arithmetic stages, read at an entry -/

section Stages
variable {N A B : Nat}

/-- A product with a weight matrix plus a bias row, at an entry. -/
theorem affine_apply (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = A)
    (t : FVec Ideal ⟨2, ![N, A]⟩ .f32) (W : FVec Ideal ⟨2, ![A, B]⟩ .f32) (b : FVec Ideal ⟨1, ![B]⟩ .f32)
    (hb1 : (⟨1, ![B]⟩ : Shape).BroadcastsInDim ⟨2, ![1, B]⟩ ![1])
    (hb2 : (⟨2, ![1, B]⟩ : Shape).BroadcastsInDim ⟨2, ![N, B]⟩ ![0, 1]) (n : Fin N) (k : Fin B) :
    addf (Host.dotGeneral (F := Ideal) d none t W)
        (broadcastInDim ⟨2, ![N, B]⟩ ![0, 1] hb2 (broadcastInDim ⟨2, ![1, B]⟩ ![1] hb1 b)) (ix2 n k)
      = (∑ j : Fin A, t (ix2 n j) * W (ix2 j k)) + b (ix1 k) := by
  have e1 := congrFun (RowsTimes.hostDot_eq d h1 h2 h3 h4 h5 h6 hr hs none t W) (ix2 n k)
  have e2 := rowBcast_apply b hb1 hb2 n k
  show Host.dotGeneral (F := Ideal) d none t W (ix2 n k)
    + broadcastInDim ⟨2, ![N, B]⟩ ![0, 1] hb2 (broadcastInDim ⟨2, ![1, B]⟩ ![1] hb1 b) (ix2 n k) = _
  rw [e1, e2]
  rfl

/-- One layer forwards, at an entry: the hyperbolic tangent of the product plus the bias. -/
theorem layer_apply (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = A)
    (t : FVec Ideal ⟨2, ![N, A]⟩ .f32) (W : FVec Ideal ⟨2, ![A, B]⟩ .f32) (b : FVec Ideal ⟨1, ![B]⟩ .f32)
    (hb1 : (⟨1, ![B]⟩ : Shape).BroadcastsInDim ⟨2, ![1, B]⟩ ![1])
    (hb2 : (⟨2, ![1, B]⟩ : Shape).BroadcastsInDim ⟨2, ![N, B]⟩ ![0, 1]) (n : Fin N) (k : Fin B) :
    Host.tanh (addf (Host.dotGeneral (F := Ideal) d none t W)
        (broadcastInDim ⟨2, ![N, B]⟩ ![0, 1] hb2 (broadcastInDim ⟨2, ![1, B]⟩ ![1] hb1 b))) (ix2 n k)
      = Ideal.tanh ((∑ j : Fin A, t (ix2 n j) * W (ix2 j k)) + b (ix1 k)) := by
  show Ideal.tanh (addf (Host.dotGeneral (F := Ideal) d none t W)
        (broadcastInDim ⟨2, ![N, B]⟩ ![0, 1] hb2 (broadcastInDim ⟨2, ![1, B]⟩ ![1] hb1 b)) (ix2 n k)) = _
  rw [affine_apply d h1 h2 h3 h4 h5 h6 hr hs]

/-- One minus an array, at an entry. -/
theorem oneMinus_apply {T : Shape} (h : (⟨0, ![]⟩ : Shape).BroadcastsInDim T ![]) (t : FVec Ideal T .f32) (i : T.Idx) :
    subf (broadcastInDim T ![] h (constant (F := Ideal) ⟨0, ![]⟩ .f32 0x3F800000#32)) t i = 1 - t i := by
  show broadcastInDim T ![] h (constant (F := Ideal) ⟨0, ![]⟩ .f32 0x3F800000#32) i - t i = _
  rw [oneBcast_apply]

/-- A product with a transposed weight matrix, at an entry. -/
theorem timesT_apply (d : DotDims ⟨2, ![N, A]⟩ ⟨2, ![B, A]⟩ ⟨2, ![N, B]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = A)
    (g : FVec Ideal ⟨2, ![N, A]⟩ .f32) (W : FVec Ideal ⟨2, ![B, A]⟩ .f32)
    (G : Fin N → Fin A → EReal) (Wl : Fin B → Fin A → EReal)
    (hg : ∀ n k, g (ix2 n k) = G n k) (hW : ∀ j k, W (ix2 j k) = Wl j k) (n : Fin N) (j : Fin B) :
    Host.dotGeneral (F := Ideal) d none g W (ix2 n j) = ∑ k : Fin A, G n k * Wl j k := by
  rw [TransposedDot.hostDot_apply d h1 h2 h3 h4 h5 h6 hr hs]
  exact Finset.sum_congr rfl fun k _ => by rw [hg, hW]

/-- One layer backwards, at an entry. When `p` holds the incoming cotangent `G` times `1 - t`, the array
    `p + p · t` times the transposed weights is the cotangent pulled back through the layer; here it is already multiplied
    by the next layer's `1 - t'`, as the next step wants it. -/
theorem back_apply (d : DotDims ⟨2, ![N, A]⟩ ⟨2, ![B, A]⟩ ⟨2, ![N, B]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = A)
    (p t : FVec Ideal ⟨2, ![N, A]⟩ .f32) (W : FVec Ideal ⟨2, ![B, A]⟩ .f32)
    (G T : Fin N → Fin A → EReal) (Wl : Fin B → Fin A → EReal)
    (hp : ∀ n k, p (ix2 n k) = G n k * (1 - T n k)) (ht : ∀ n k, t (ix2 n k) = T n k)
    (hW : ∀ j k, W (ix2 j k) = Wl j k) (n : Fin N) (j : Fin B) :
    Host.dotGeneral (F := Ideal) d none (addf p (mulf p t)) W (ix2 n j)
      = ∑ k : Fin A, (G n k * (1 - T n k) + G n k * (1 - T n k) * T n k) * Wl j k :=
  timesT_apply d h1 h2 h3 h4 h5 h6 hr hs (addf p (mulf p t)) W
    (fun n k => G n k * (1 - T n k) + G n k * (1 - T n k) * T n k) Wl
    (fun n k => by
      show p (ix2 n k) + p (ix2 n k) * t (ix2 n k) = _
      rw [hp, ht]) hW n j

end Stages

/-! ## The same stages over arrays known entry by entry

Each lemma takes what the proof already knows of the operand arrays — their entries as functions of the coordinates —
and gives the stage's entry in those terms, so that the stages of a program chain without any rewriting. -/

section Chained
variable {N A B C : Nat}

/-- One layer forwards. -/
theorem layer_of (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = A)
    (t : FVec Ideal ⟨2, ![N, A]⟩ .f32) (W : FVec Ideal ⟨2, ![A, B]⟩ .f32) (b : FVec Ideal ⟨1, ![B]⟩ .f32)
    (hb1 : (⟨1, ![B]⟩ : Shape).BroadcastsInDim ⟨2, ![1, B]⟩ ![1])
    (hb2 : (⟨2, ![1, B]⟩ : Shape).BroadcastsInDim ⟨2, ![N, B]⟩ ![0, 1])
    (Tp : Fin N → Fin A → EReal) (Wl : Fin A → Fin B → EReal) (bl : Fin B → EReal)
    (ht : ∀ n j, t (ix2 n j) = Tp n j) (hW : ∀ j k, W (ix2 j k) = Wl j k) (hb : ∀ k, b (ix1 k) = bl k)
    (n : Fin N) (k : Fin B) :
    Host.tanh (addf (Host.dotGeneral (F := Ideal) d none t W)
        (broadcastInDim ⟨2, ![N, B]⟩ ![0, 1] hb2 (broadcastInDim ⟨2, ![1, B]⟩ ![1] hb1 b))) (ix2 n k)
      = Ideal.tanh ((∑ j : Fin A, Tp n j * Wl j k) + bl k) := by
  rw [layer_apply d h1 h2 h3 h4 h5 h6 hr hs, hb]
  exact congrArg (fun s => Ideal.tanh (s + bl k)) (Finset.sum_congr rfl fun j _ => by rw [ht, hW])

/-- One minus an array. -/
theorem oneMinus_of {T : Shape} (h : (⟨0, ![]⟩ : Shape).BroadcastsInDim T ![]) (t : FVec Ideal T .f32)
    (Tv : T.Idx → EReal) (ht : ∀ i, t i = Tv i) (i : T.Idx) :
    subf (broadcastInDim T ![] h (constant (F := Ideal) ⟨0, ![]⟩ .f32 0x3F800000#32)) t i = 1 - Tv i := by
  rw [oneMinus_apply, ht]

/-- The seed of a backward pass: a cotangent times the transposed last weights, times the last layer's `1 - t`. -/
theorem seed_of (d : DotDims ⟨2, ![N, A]⟩ ⟨2, ![B, A]⟩ ⟨2, ![N, B]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = A)
    (g : FVec Ideal ⟨2, ![N, A]⟩ .f32) (W : FVec Ideal ⟨2, ![B, A]⟩ .f32) (omt : FVec Ideal ⟨2, ![N, B]⟩ .f32)
    (G : Fin N → Fin A → EReal) (Wl : Fin B → Fin A → EReal) (Tn : Fin N → Fin B → EReal)
    (hg : ∀ n k, g (ix2 n k) = G n k) (hW : ∀ j k, W (ix2 j k) = Wl j k) (ho : ∀ n j, omt (ix2 n j) = 1 - Tn n j)
    (n : Fin N) (j : Fin B) :
    mulf (Host.dotGeneral (F := Ideal) d none g W) omt (ix2 n j) = (∑ k : Fin A, G n k * Wl j k) * (1 - Tn n j) := by
  show Host.dotGeneral (F := Ideal) d none g W (ix2 n j) * omt (ix2 n j) = _
  rw [timesT_apply d h1 h2 h3 h4 h5 h6 hr hs g W G Wl hg hW, ho]

/-- One layer backwards, multiplied by the next layer's `1 - t'`. -/
theorem pstage_of (d : DotDims ⟨2, ![N, A]⟩ ⟨2, ![B, A]⟩ ⟨2, ![N, B]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = A)
    (p t : FVec Ideal ⟨2, ![N, A]⟩ .f32) (W : FVec Ideal ⟨2, ![B, A]⟩ .f32) (omt : FVec Ideal ⟨2, ![N, B]⟩ .f32)
    (G T : Fin N → Fin A → EReal) (Wl : Fin B → Fin A → EReal) (Tn : Fin N → Fin B → EReal)
    (hp : ∀ n k, p (ix2 n k) = G n k * (1 - T n k)) (ht : ∀ n k, t (ix2 n k) = T n k)
    (hW : ∀ j k, W (ix2 j k) = Wl j k) (ho : ∀ n j, omt (ix2 n j) = 1 - Tn n j) (n : Fin N) (j : Fin B) :
    mulf (Host.dotGeneral (F := Ideal) d none (addf p (mulf p t)) W) omt (ix2 n j)
      = (∑ k : Fin A, (G n k * (1 - T n k) + G n k * (1 - T n k) * T n k) * Wl j k) * (1 - Tn n j) := by
  show Host.dotGeneral (F := Ideal) d none (addf p (mulf p t)) W (ix2 n j) * omt (ix2 n j) = _
  rw [back_apply d h1 h2 h3 h4 h5 h6 hr hs p t W G T Wl hp ht hW, ho]

/-- The last layer backwards, then the transposed first weights: a row of the Jacobian. -/
theorem final_of (d : DotDims ⟨2, ![N, A]⟩ ⟨2, ![B, A]⟩ ⟨2, ![N, B]⟩)
    (h1 : d.lhsContracting = [1]) (h2 : d.rhsContracting = [1]) (h3 : d.lhsNonContracting = [0])
    (h4 : d.rhsNonContracting = [0]) (h5 : d.lhsBatch = []) (h6 : d.rhsBatch = [])
    (hr : d.contr.rank = 1) (hs : d.contr.size ⟨0, by omega⟩ = A)
    (d' : DotDims ⟨2, ![N, B]⟩ ⟨2, ![C, B]⟩ ⟨2, ![N, C]⟩)
    (h1' : d'.lhsContracting = [1]) (h2' : d'.rhsContracting = [1]) (h3' : d'.lhsNonContracting = [0])
    (h4' : d'.rhsNonContracting = [0]) (h5' : d'.lhsBatch = []) (h6' : d'.rhsBatch = [])
    (hr' : d'.contr.rank = 1) (hs' : d'.contr.size ⟨0, by omega⟩ = B)
    (p t : FVec Ideal ⟨2, ![N, A]⟩ .f32) (W : FVec Ideal ⟨2, ![B, A]⟩ .f32) (W0 : FVec Ideal ⟨2, ![C, B]⟩ .f32)
    (G T : Fin N → Fin A → EReal) (Wl : Fin B → Fin A → EReal) (W0l : Fin C → Fin B → EReal)
    (hp : ∀ n k, p (ix2 n k) = G n k * (1 - T n k)) (ht : ∀ n k, t (ix2 n k) = T n k)
    (hW : ∀ j k, W (ix2 j k) = Wl j k) (hW0 : ∀ a k, W0 (ix2 a k) = W0l a k) (n : Fin N) (a : Fin C) :
    Host.dotGeneral (F := Ideal) d' none (Host.dotGeneral (F := Ideal) d none (addf p (mulf p t)) W) W0 (ix2 n a)
      = ∑ j : Fin B, (∑ k : Fin A, (G n k * (1 - T n k) + G n k * (1 - T n k) * T n k) * Wl j k) * W0l a j :=
  timesT_apply d' h1' h2' h3' h4' h5' h6' hr' hs' _ W0
    (fun n j => ∑ k : Fin A, (G n k * (1 - T n k) + G n k * (1 - T n k) * T n k) * Wl j k) W0l
    (fun n j => back_apply d h1 h2 h3 h4 h5 h6 hr hs p t W G T Wl hp ht hW n j) hW0 n a

/-- An output column that is one column of a matrix. -/
theorem plainCol_apply (d : FVec Ideal ⟨2, ![N, C]⟩ .f32) (o : Nat) (a : Fin C) (ha : a.val = o)
    (hs : (⟨2, ![N, C]⟩ : Shape).Slices ![0, o] ⟨2, ![N, 1]⟩) (hc : (⟨2, ![N, 1]⟩ : Shape).ShapeCasts ⟨1, ![N]⟩)
    (hb : (⟨1, ![N]⟩ : Shape).BroadcastsInDim ⟨2, ![N, 1]⟩ ![0]) (n : Fin N) (u : Fin 1) :
    broadcastInDim ⟨2, ![N, 1]⟩ ![0] hb
        (shapeCast ⟨1, ![N]⟩ (extractStridedSlice ⟨2, ![N, 1]⟩ ![0, o] d hs) hc) (ix2 n u) = d (ix2 n a) :=
  (colUnit_apply _ hb n u).trans (col_apply d o a ha hs hc n)

/-- An output column that is the difference of two columns of two matrices. -/
theorem diffCol_apply (d e : FVec Ideal ⟨2, ![N, C]⟩ .f32) (o o' : Nat) (a a' : Fin C) (ha : a.val = o)
    (ha' : a'.val = o') (hs : (⟨2, ![N, C]⟩ : Shape).Slices ![0, o] ⟨2, ![N, 1]⟩)
    (hs' : (⟨2, ![N, C]⟩ : Shape).Slices ![0, o'] ⟨2, ![N, 1]⟩)
    (hc : (⟨2, ![N, 1]⟩ : Shape).ShapeCasts ⟨1, ![N]⟩)
    (hb : (⟨1, ![N]⟩ : Shape).BroadcastsInDim ⟨2, ![N, 1]⟩ ![0]) (n : Fin N) (u : Fin 1) :
    broadcastInDim ⟨2, ![N, 1]⟩ ![0] hb
        (subf (shapeCast ⟨1, ![N]⟩ (extractStridedSlice ⟨2, ![N, 1]⟩ ![0, o] d hs) hc)
          (shapeCast ⟨1, ![N]⟩ (extractStridedSlice ⟨2, ![N, 1]⟩ ![0, o'] e hs') hc)) (ix2 n u)
      = d (ix2 n a) - e (ix2 n a') := by
  refine (colUnit_apply _ hb n u).trans ?_
  show shapeCast ⟨1, ![N]⟩ (extractStridedSlice ⟨2, ![N, 1]⟩ ![0, o] d hs) hc (ix1 n)
    - shapeCast ⟨1, ![N]⟩ (extractStridedSlice ⟨2, ![N, 1]⟩ ![0, o'] e hs') hc (ix1 n) = _
  rw [col_apply d o a ha hs hc n, col_apply e o' a' ha' hs' hc n]

end Chained

end Cert.RefOps

end
-- ==== Proof.ReferenceRead.lean ====
/-
  The reference program's result, read index by index, is the backward arrangement of the Jacobian.

  The reference is a host program: a network of one linear map, seven layers `t ↦ tanh (t · W + b)` and a last linear map,
  differentiated backwards at the four unit cotangents. Its generated run gives the result buffer as a composed term of
  the argument arrays, with the intermediate arrays named. Stage by stage, each named array is read at an entry:

  * going forwards, the activations of row `n` are `t₀ n, …, t₆ n` (`act` of the layer's weights and bias on the previous
    activations, starting from the first hidden row `hid n`), and the arrays `1 - t`;
  * going backwards from output `o`, the cotangent starts as `g₇ o = eₒ · Wfᵀ` and each layer sends `G` to
    `(G ⊙ (1 - t) + G ⊙ (1 - t) ⊙ t) · Wᵀ`, which is `TangentChain.stepGE` word for word; the program keeps the products
    `G ⊙ (1 - t)` as its named arrays;
  * the row `∂(output o)/∂(input ·)` is the last cotangent times the transposed first weights, and the six output columns
    are differences of, or plainly, columns of those four arrays.

  So the result array is `JacobianSpec.specR` of the arguments: the same sums of the same products in the same
  arrangement, with no appeal to finiteness.
-/
import proofs.«179046_j18021682774229_2_alg».proof.Proof.Gen.ReferenceIdeal.Run
import proofs.«179046_j18021682774229_2_alg».proof.Proof.JacobianSpec
import proofs.«179046_j18021682774229_2_alg».proof.Proof.ReferenceOps

open scoped BigOperators

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.RefOps

variable (V0 : Valuation τ sig (Elt Ideal))

/-! ## The argument arrays and the quantities of one row -/

/-- The inputs `x`, one row per sample. -/
abbrev aX : FVec Ideal S32768x4 .f32 := V0 (Proc.devRef .tc main_arg0)
/-- The first linear map's weights. -/
abbrev aW0 : FVec Ideal S4x512 .f32 := V0 (Proc.devRef .tc main_arg1)
/-- The first linear map's bias. -/
abbrev ab0 : FVec Ideal S512 .f32 := V0 (Proc.devRef .tc main_arg2)
/-- The seven layers' weights, stacked. -/
abbrev aWh : FVec Ideal S7x512x512 .f32 := V0 (Proc.devRef .tc main_arg3)
/-- The seven layers' biases, stacked. -/
abbrev abh : FVec Ideal S7x512 .f32 := V0 (Proc.devRef .tc main_arg4)
/-- The last linear map's weights. -/
abbrev aWf : FVec Ideal S512x4 .f32 := V0 (Proc.devRef .tc main_arg5)

/-- Layer `l`'s weights. -/
def wt (l : Fin 7) : Fin 512 → Fin 512 → EReal := fun j k => aWh V0 (ix3 l j k)
/-- Layer `l`'s bias. -/
def bs (l : Fin 7) : Fin 512 → EReal := fun k => abh V0 (ix2 l k)
/-- The first weights, by input direction. -/
def w0 : Fin 4 → Fin 512 → EReal := fun a k => aW0 V0 (ix2 a k)
/-- Row `n`'s first hidden vector `x · W0 + b0`. -/
def hid (n : Fin 32768) : Fin 512 → EReal :=
  Cert.JacobianSpec.h0 (fun a => aX V0 (ix2 n a)) (fun a k => aW0 V0 (ix2 a k)) (fun k => ab0 V0 (ix1 k))
/-- Row `n`'s activations after layer 0. -/
def t0 (n : Fin 32768) : Fin 512 → EReal := Cert.JacobianSpec.act (wt V0 0) (bs V0 0) (hid V0 n)
/-- Row `n`'s activations after layer 1. -/
def t1 (n : Fin 32768) : Fin 512 → EReal := Cert.JacobianSpec.act (wt V0 1) (bs V0 1) (t0 V0 n)
/-- Row `n`'s activations after layer 2. -/
def t2 (n : Fin 32768) : Fin 512 → EReal := Cert.JacobianSpec.act (wt V0 2) (bs V0 2) (t1 V0 n)
/-- Row `n`'s activations after layer 3. -/
def t3 (n : Fin 32768) : Fin 512 → EReal := Cert.JacobianSpec.act (wt V0 3) (bs V0 3) (t2 V0 n)
/-- Row `n`'s activations after layer 4. -/
def t4 (n : Fin 32768) : Fin 512 → EReal := Cert.JacobianSpec.act (wt V0 4) (bs V0 4) (t3 V0 n)
/-- Row `n`'s activations after layer 5. -/
def t5 (n : Fin 32768) : Fin 512 → EReal := Cert.JacobianSpec.act (wt V0 5) (bs V0 5) (t4 V0 n)
/-- Row `n`'s activations after layer 6. -/
def t6 (n : Fin 32768) : Fin 512 → EReal := Cert.JacobianSpec.act (wt V0 6) (bs V0 6) (t5 V0 n)
/-- The cotangent of output `o` pulled through the last weights (the same for every row). -/
def g7 (o : Fin 4) (_n : Fin 32768) : Fin 512 → EReal := fun k => ∑ j, Cert.JacobianSpec.eye o j * aWf V0 (ix2 k j)
/-- That cotangent pulled back to the input of layer 6, on row `n`. -/
def g6 (o : Fin 4) (n : Fin 32768) : Fin 512 → EReal := Cert.TangentChain.stepGE (wt V0 6) (t6 V0 n) (g7 V0 o n)
/-- That cotangent pulled back to the input of layer 5, on row `n`. -/
def g5 (o : Fin 4) (n : Fin 32768) : Fin 512 → EReal := Cert.TangentChain.stepGE (wt V0 5) (t5 V0 n) (g6 V0 o n)
/-- That cotangent pulled back to the input of layer 4, on row `n`. -/
def g4 (o : Fin 4) (n : Fin 32768) : Fin 512 → EReal := Cert.TangentChain.stepGE (wt V0 4) (t4 V0 n) (g5 V0 o n)
/-- That cotangent pulled back to the input of layer 3, on row `n`. -/
def g3 (o : Fin 4) (n : Fin 32768) : Fin 512 → EReal := Cert.TangentChain.stepGE (wt V0 3) (t3 V0 n) (g4 V0 o n)
/-- That cotangent pulled back to the input of layer 2, on row `n`. -/
def g2 (o : Fin 4) (n : Fin 32768) : Fin 512 → EReal := Cert.TangentChain.stepGE (wt V0 2) (t2 V0 n) (g3 V0 o n)
/-- That cotangent pulled back to the input of layer 1, on row `n`. -/
def g1 (o : Fin 4) (n : Fin 32768) : Fin 512 → EReal := Cert.TangentChain.stepGE (wt V0 1) (t1 V0 n) (g2 V0 o n)
/-- That cotangent pulled back to the input of layer 0, on row `n`. -/
def g0 (o : Fin 4) (n : Fin 32768) : Fin 512 → EReal := Cert.TangentChain.stepGE (wt V0 0) (t0 V0 n) (g1 V0 o n)

/-! ## Forwards: the weights, the activations, and one minus the activations -/

theorem w5 (j k : Fin 512) : res_main_v5 V0 (ix2 j k) = wt V0 0 j k := by
  unfold res_main_v5
  exact stackMat_apply (aWh V0) 0 0 rfl _ _ j k

theorem w16 (j k : Fin 512) : res_main_v16 V0 (ix2 j k) = wt V0 1 j k := by
  unfold res_main_v16
  exact stackMat_apply (aWh V0) 1 1 rfl _ _ j k

theorem w27 (j k : Fin 512) : res_main_v27 V0 (ix2 j k) = wt V0 2 j k := by
  unfold res_main_v27
  exact stackMat_apply (aWh V0) 2 2 rfl _ _ j k

theorem w38 (j k : Fin 512) : res_main_v38 V0 (ix2 j k) = wt V0 3 j k := by
  unfold res_main_v38
  exact stackMat_apply (aWh V0) 3 3 rfl _ _ j k

theorem w49 (j k : Fin 512) : res_main_v49 V0 (ix2 j k) = wt V0 4 j k := by
  unfold res_main_v49
  exact stackMat_apply (aWh V0) 4 4 rfl _ _ j k

theorem w60 (j k : Fin 512) : res_main_v60 V0 (ix2 j k) = wt V0 5 j k := by
  unfold res_main_v60
  exact stackMat_apply (aWh V0) 5 5 rfl _ _ j k

theorem w71 (j k : Fin 512) : res_main_v71 V0 (ix2 j k) = wt V0 6 j k := by
  unfold res_main_v71
  exact stackMat_apply (aWh V0) 6 6 rfl _ _ j k

theorem hid_apply (n : Fin 32768) (k : Fin 512) :
    addf (Host.dotGeneral dot_S32768x4_S4x512_S32768x512_1_0_0_1_n_n none (aX V0) (aW0 V0))
        (broadcastInDim S32768x512 ![0, 1] bcast_S1x512_S32768x512_0_1 (broadcastInDim S1x512 ![1] bcast_S512_S1x512_1 (ab0 V0)))
        (ix2 n k) = hid V0 n k :=
  affine_apply dot_S32768x4_S4x512_S32768x512_1_0_0_1_n_n rfl rfl rfl rfl rfl rfl rfl rfl _ _ _ _ _ n k

theorem a12 (n : Fin 32768) (k : Fin 512) : res_main_v12 V0 (ix2 n k) = t0 V0 n k := by
  unfold res_main_v12
  exact layer_of dot_S32768x512_S512x512_S32768x512_1_0_0_1_n_n rfl rfl rfl rfl rfl rfl rfl rfl _ _ _ _ _ (hid V0) (wt V0 0) (bs V0 0)
    (hid_apply V0) (w5 V0) (fun k => stackRow_apply (abh V0) 0 0 rfl _ _ k) n k

theorem o14 (n : Fin 32768) (k : Fin 512) : res_main_v14 V0 (ix2 n k) = 1 - t0 V0 n k := by
  unfold res_main_v14
  exact (oneMinus_apply _ _ _).trans (congrArg (fun x => (1 : EReal) - x) (a12 V0 n k))

theorem a23 (n : Fin 32768) (k : Fin 512) : res_main_v23 V0 (ix2 n k) = t1 V0 n k := by
  unfold res_main_v23
  exact layer_of dot_S32768x512_S512x512_S32768x512_1_0_0_1_n_n rfl rfl rfl rfl rfl rfl rfl rfl _ _ _ _ _ (t0 V0) (wt V0 1) (bs V0 1)
    (a12 V0) (w16 V0) (fun k => stackRow_apply (abh V0) 1 1 rfl _ _ k) n k

theorem o25 (n : Fin 32768) (k : Fin 512) : res_main_v25 V0 (ix2 n k) = 1 - t1 V0 n k := by
  unfold res_main_v25
  exact (oneMinus_apply _ _ _).trans (congrArg (fun x => (1 : EReal) - x) (a23 V0 n k))

theorem a34 (n : Fin 32768) (k : Fin 512) : res_main_v34 V0 (ix2 n k) = t2 V0 n k := by
  unfold res_main_v34
  exact layer_of dot_S32768x512_S512x512_S32768x512_1_0_0_1_n_n rfl rfl rfl rfl rfl rfl rfl rfl _ _ _ _ _ (t1 V0) (wt V0 2) (bs V0 2)
    (a23 V0) (w27 V0) (fun k => stackRow_apply (abh V0) 2 2 rfl _ _ k) n k

theorem o36 (n : Fin 32768) (k : Fin 512) : res_main_v36 V0 (ix2 n k) = 1 - t2 V0 n k := by
  unfold res_main_v36
  exact (oneMinus_apply _ _ _).trans (congrArg (fun x => (1 : EReal) - x) (a34 V0 n k))

theorem a45 (n : Fin 32768) (k : Fin 512) : res_main_v45 V0 (ix2 n k) = t3 V0 n k := by
  unfold res_main_v45
  exact layer_of dot_S32768x512_S512x512_S32768x512_1_0_0_1_n_n rfl rfl rfl rfl rfl rfl rfl rfl _ _ _ _ _ (t2 V0) (wt V0 3) (bs V0 3)
    (a34 V0) (w38 V0) (fun k => stackRow_apply (abh V0) 3 3 rfl _ _ k) n k

theorem o47 (n : Fin 32768) (k : Fin 512) : res_main_v47 V0 (ix2 n k) = 1 - t3 V0 n k := by
  unfold res_main_v47
  exact (oneMinus_apply _ _ _).trans (congrArg (fun x => (1 : EReal) - x) (a45 V0 n k))

theorem a56 (n : Fin 32768) (k : Fin 512) : res_main_v56 V0 (ix2 n k) = t4 V0 n k := by
  unfold res_main_v56
  exact layer_of dot_S32768x512_S512x512_S32768x512_1_0_0_1_n_n rfl rfl rfl rfl rfl rfl rfl rfl _ _ _ _ _ (t3 V0) (wt V0 4) (bs V0 4)
    (a45 V0) (w49 V0) (fun k => stackRow_apply (abh V0) 4 4 rfl _ _ k) n k

theorem o58 (n : Fin 32768) (k : Fin 512) : res_main_v58 V0 (ix2 n k) = 1 - t4 V0 n k := by
  unfold res_main_v58
  exact (oneMinus_apply _ _ _).trans (congrArg (fun x => (1 : EReal) - x) (a56 V0 n k))

theorem a67 (n : Fin 32768) (k : Fin 512) : res_main_v67 V0 (ix2 n k) = t5 V0 n k := by
  unfold res_main_v67
  exact layer_of dot_S32768x512_S512x512_S32768x512_1_0_0_1_n_n rfl rfl rfl rfl rfl rfl rfl rfl _ _ _ _ _ (t4 V0) (wt V0 5) (bs V0 5)
    (a56 V0) (w60 V0) (fun k => stackRow_apply (abh V0) 5 5 rfl _ _ k) n k

theorem o69 (n : Fin 32768) (k : Fin 512) : res_main_v69 V0 (ix2 n k) = 1 - t5 V0 n k := by
  unfold res_main_v69
  exact (oneMinus_apply _ _ _).trans (congrArg (fun x => (1 : EReal) - x) (a67 V0 n k))

theorem a78 (n : Fin 32768) (k : Fin 512) : res_main_v78 V0 (ix2 n k) = t6 V0 n k := by
  unfold res_main_v78
  exact layer_of dot_S32768x512_S512x512_S32768x512_1_0_0_1_n_n rfl rfl rfl rfl rfl rfl rfl rfl _ _ _ _ _ (t5 V0) (wt V0 6) (bs V0 6)
    (a67 V0) (w71 V0) (fun k => stackRow_apply (abh V0) 6 6 rfl _ _ k) n k

theorem o80 (n : Fin 32768) (k : Fin 512) : res_main_v80 V0 (ix2 n k) = 1 - t6 V0 n k := by
  unfold res_main_v80
  exact (oneMinus_apply _ _ _).trans (congrArg (fun x => (1 : EReal) - x) (a78 V0 n k))

/-! ## The identity matrix -/

theorem e90 (o j : Fin 4) : res_main_v90 V0 (ix2 o j) = Cert.JacobianSpec.eye o j := by
  unfold res_main_v90
  exact eye_apply bcast_S_S4x4 o j

/-! ## Backwards, once per output -/

/-! ### Output 0 -/

theorem p95 (n : Fin 32768) (k : Fin 512) : res_main_v95 V0 (ix2 n k) = g7 V0 0 n k * (1 - t6 V0 n k) := by
  unfold res_main_v95
  exact seed_of dot_S32768x4_S512x4_S32768x512_1_1_0_0_n_n rfl rfl rfl rfl rfl rfl rfl rfl _ _ _
    (fun _ j => Cert.JacobianSpec.eye 0 j) (fun k j => aWf V0 (ix2 k j)) (t6 V0)
    (fun n j => (rowBcast1_apply _ _ n j).trans ((stackRow_apply (res_main_v90 V0) 0 0 rfl _ _ j).trans (e90 V0 0 j)))
    (fun _ _ => rfl) (o80 V0) n k

theorem p99 (n : Fin 32768) (k : Fin 512) : res_main_v99 V0 (ix2 n k) = g6 V0 0 n k * (1 - t5 V0 n k) := by
  unfold res_main_v99
  exact pstage_of dot_S32768x512_S512x512_S32768x512_1_1_0_0_n_n rfl rfl rfl rfl rfl rfl rfl rfl _ _ _ _
    (g7 V0 0) (t6 V0) (wt V0 6) (t5 V0) (p95 V0) (a78 V0) (w71 V0) (o69 V0) n k

theorem p103 (n : Fin 32768) (k : Fin 512) : res_main_v103 V0 (ix2 n k) = g5 V0 0 n k * (1 - t4 V0 n k) := by
  unfold res_main_v103
  exact pstage_of dot_S32768x512_S512x512_S32768x512_1_1_0_0_n_n rfl rfl rfl rfl rfl rfl rfl rfl _ _ _ _
    (g6 V0 0) (t5 V0) (wt V0 5) (t4 V0) (p99 V0) (a67 V0) (w60 V0) (o58 V0) n k

theorem p107 (n : Fin 32768) (k : Fin 512) : res_main_v107 V0 (ix2 n k) = g4 V0 0 n k * (1 - t3 V0 n k) := by
  unfold res_main_v107
  exact pstage_of dot_S32768x512_S512x512_S32768x512_1_1_0_0_n_n rfl rfl rfl rfl rfl rfl rfl rfl _ _ _ _
    (g5 V0 0) (t4 V0) (wt V0 4) (t3 V0) (p103 V0) (a56 V0) (w49 V0) (o47 V0) n k

theorem p111 (n : Fin 32768) (k : Fin 512) : res_main_v111 V0 (ix2 n k) = g3 V0 0 n k * (1 - t2 V0 n k) := by
  unfold res_main_v111
  exact pstage_of dot_S32768x512_S512x512_S32768x512_1_1_0_0_n_n rfl rfl rfl rfl rfl rfl rfl rfl _ _ _ _
    (g4 V0 0) (t3 V0) (wt V0 3) (t2 V0) (p107 V0) (a45 V0) (w38 V0) (o36 V0) n k

theorem p115 (n : Fin 32768) (k : Fin 512) : res_main_v115 V0 (ix2 n k) = g2 V0 0 n k * (1 - t1 V0 n k) := by
  unfold res_main_v115
  exact pstage_of dot_S32768x512_S512x512_S32768x512_1_1_0_0_n_n rfl rfl rfl rfl rfl rfl rfl rfl _ _ _ _
    (g3 V0 0) (t2 V0) (wt V0 2) (t1 V0) (p111 V0) (a34 V0) (w27 V0) (o25 V0) n k

theorem p119 (n : Fin 32768) (k : Fin 512) : res_main_v119 V0 (ix2 n k) = g1 V0 0 n k * (1 - t0 V0 n k) := by
  unfold res_main_v119
  exact pstage_of dot_S32768x512_S512x512_S32768x512_1_1_0_0_n_n rfl rfl rfl rfl rfl rfl rfl rfl _ _ _ _
    (g2 V0 0) (t1 V0) (wt V0 1) (t0 V0) (p115 V0) (a23 V0) (w16 V0) (o14 V0) n k

theorem d123 (n : Fin 32768) (a : Fin 4) : res_main_v123 V0 (ix2 n a) = ∑ k, g0 V0 0 n k * w0 V0 a k := by
  unfold res_main_v123
  exact final_of dot_S32768x512_S512x512_S32768x512_1_1_0_0_n_n rfl rfl rfl rfl rfl rfl rfl rfl dot_S32768x512_S4x512_S32768x4_1_1_0_0_n_n rfl rfl rfl rfl rfl rfl rfl rfl _ _ _ _
    (g1 V0 0) (t0 V0) (wt V0 0) (w0 V0) (p119 V0) (a12 V0) (w5 V0) (fun _ _ => rfl) n a

/-! ### Output 1 -/

theorem p128 (n : Fin 32768) (k : Fin 512) : res_main_v128 V0 (ix2 n k) = g7 V0 1 n k * (1 - t6 V0 n k) := by
  unfold res_main_v128
  exact seed_of dot_S32768x4_S512x4_S32768x512_1_1_0_0_n_n rfl rfl rfl rfl rfl rfl rfl rfl _ _ _
    (fun _ j => Cert.JacobianSpec.eye 1 j) (fun k j => aWf V0 (ix2 k j)) (t6 V0)
    (fun n j => (rowBcast1_apply _ _ n j).trans ((stackRow_apply (res_main_v90 V0) 1 1 rfl _ _ j).trans (e90 V0 1 j)))
    (fun _ _ => rfl) (o80 V0) n k

theorem p132 (n : Fin 32768) (k : Fin 512) : res_main_v132 V0 (ix2 n k) = g6 V0 1 n k * (1 - t5 V0 n k) := by
  unfold res_main_v132
  exact pstage_of dot_S32768x512_S512x512_S32768x512_1_1_0_0_n_n rfl rfl rfl rfl rfl rfl rfl rfl _ _ _ _
    (g7 V0 1) (t6 V0) (wt V0 6) (t5 V0) (p128 V0) (a78 V0) (w71 V0) (o69 V0) n k

theorem p136 (n : Fin 32768) (k : Fin 512) : res_main_v136 V0 (ix2 n k) = g5 V0 1 n k * (1 - t4 V0 n k) := by
  unfold res_main_v136
  exact pstage_of dot_S32768x512_S512x512_S32768x512_1_1_0_0_n_n rfl rfl rfl rfl rfl rfl rfl rfl _ _ _ _
    (g6 V0 1) (t5 V0) (wt V0 5) (t4 V0) (p132 V0) (a67 V0) (w60 V0) (o58 V0) n k

theorem p140 (n : Fin 32768) (k : Fin 512) : res_main_v140 V0 (ix2 n k) = g4 V0 1 n k * (1 - t3 V0 n k) := by
  unfold res_main_v140
  exact pstage_of dot_S32768x512_S512x512_S32768x512_1_1_0_0_n_n rfl rfl rfl rfl rfl rfl rfl rfl _ _ _ _
    (g5 V0 1) (t4 V0) (wt V0 4) (t3 V0) (p136 V0) (a56 V0) (w49 V0) (o47 V0) n k

theorem p144 (n : Fin 32768) (k : Fin 512) : res_main_v144 V0 (ix2 n k) = g3 V0 1 n k * (1 - t2 V0 n k) := by
  unfold res_main_v144
  exact pstage_of dot_S32768x512_S512x512_S32768x512_1_1_0_0_n_n rfl rfl rfl rfl rfl rfl rfl rfl _ _ _ _
    (g4 V0 1) (t3 V0) (wt V0 3) (t2 V0) (p140 V0) (a45 V0) (w38 V0) (o36 V0) n k

theorem p148 (n : Fin 32768) (k : Fin 512) : res_main_v148 V0 (ix2 n k) = g2 V0 1 n k * (1 - t1 V0 n k) := by
  unfold res_main_v148
  exact pstage_of dot_S32768x512_S512x512_S32768x512_1_1_0_0_n_n rfl rfl rfl rfl rfl rfl rfl rfl _ _ _ _
    (g3 V0 1) (t2 V0) (wt V0 2) (t1 V0) (p144 V0) (a34 V0) (w27 V0) (o25 V0) n k

theorem p152 (n : Fin 32768) (k : Fin 512) : res_main_v152 V0 (ix2 n k) = g1 V0 1 n k * (1 - t0 V0 n k) := by
  unfold res_main_v152
  exact pstage_of dot_S32768x512_S512x512_S32768x512_1_1_0_0_n_n rfl rfl rfl rfl rfl rfl rfl rfl _ _ _ _
    (g2 V0 1) (t1 V0) (wt V0 1) (t0 V0) (p148 V0) (a23 V0) (w16 V0) (o14 V0) n k

theorem d156 (n : Fin 32768) (a : Fin 4) : res_main_v156 V0 (ix2 n a) = ∑ k, g0 V0 1 n k * w0 V0 a k := by
  unfold res_main_v156
  exact final_of dot_S32768x512_S512x512_S32768x512_1_1_0_0_n_n rfl rfl rfl rfl rfl rfl rfl rfl dot_S32768x512_S4x512_S32768x4_1_1_0_0_n_n rfl rfl rfl rfl rfl rfl rfl rfl _ _ _ _
    (g1 V0 1) (t0 V0) (wt V0 0) (w0 V0) (p152 V0) (a12 V0) (w5 V0) (fun _ _ => rfl) n a

/-! ### Output 2 -/

theorem p161 (n : Fin 32768) (k : Fin 512) : res_main_v161 V0 (ix2 n k) = g7 V0 2 n k * (1 - t6 V0 n k) := by
  unfold res_main_v161
  exact seed_of dot_S32768x4_S512x4_S32768x512_1_1_0_0_n_n rfl rfl rfl rfl rfl rfl rfl rfl _ _ _
    (fun _ j => Cert.JacobianSpec.eye 2 j) (fun k j => aWf V0 (ix2 k j)) (t6 V0)
    (fun n j => (rowBcast1_apply _ _ n j).trans ((stackRow_apply (res_main_v90 V0) 2 2 rfl _ _ j).trans (e90 V0 2 j)))
    (fun _ _ => rfl) (o80 V0) n k

theorem p165 (n : Fin 32768) (k : Fin 512) : res_main_v165 V0 (ix2 n k) = g6 V0 2 n k * (1 - t5 V0 n k) := by
  unfold res_main_v165
  exact pstage_of dot_S32768x512_S512x512_S32768x512_1_1_0_0_n_n rfl rfl rfl rfl rfl rfl rfl rfl _ _ _ _
    (g7 V0 2) (t6 V0) (wt V0 6) (t5 V0) (p161 V0) (a78 V0) (w71 V0) (o69 V0) n k

theorem p169 (n : Fin 32768) (k : Fin 512) : res_main_v169 V0 (ix2 n k) = g5 V0 2 n k * (1 - t4 V0 n k) := by
  unfold res_main_v169
  exact pstage_of dot_S32768x512_S512x512_S32768x512_1_1_0_0_n_n rfl rfl rfl rfl rfl rfl rfl rfl _ _ _ _
    (g6 V0 2) (t5 V0) (wt V0 5) (t4 V0) (p165 V0) (a67 V0) (w60 V0) (o58 V0) n k

theorem p173 (n : Fin 32768) (k : Fin 512) : res_main_v173 V0 (ix2 n k) = g4 V0 2 n k * (1 - t3 V0 n k) := by
  unfold res_main_v173
  exact pstage_of dot_S32768x512_S512x512_S32768x512_1_1_0_0_n_n rfl rfl rfl rfl rfl rfl rfl rfl _ _ _ _
    (g5 V0 2) (t4 V0) (wt V0 4) (t3 V0) (p169 V0) (a56 V0) (w49 V0) (o47 V0) n k

theorem p177 (n : Fin 32768) (k : Fin 512) : res_main_v177 V0 (ix2 n k) = g3 V0 2 n k * (1 - t2 V0 n k) := by
  unfold res_main_v177
  exact pstage_of dot_S32768x512_S512x512_S32768x512_1_1_0_0_n_n rfl rfl rfl rfl rfl rfl rfl rfl _ _ _ _
    (g4 V0 2) (t3 V0) (wt V0 3) (t2 V0) (p173 V0) (a45 V0) (w38 V0) (o36 V0) n k

theorem p181 (n : Fin 32768) (k : Fin 512) : res_main_v181 V0 (ix2 n k) = g2 V0 2 n k * (1 - t1 V0 n k) := by
  unfold res_main_v181
  exact pstage_of dot_S32768x512_S512x512_S32768x512_1_1_0_0_n_n rfl rfl rfl rfl rfl rfl rfl rfl _ _ _ _
    (g3 V0 2) (t2 V0) (wt V0 2) (t1 V0) (p177 V0) (a34 V0) (w27 V0) (o25 V0) n k

theorem p185 (n : Fin 32768) (k : Fin 512) : res_main_v185 V0 (ix2 n k) = g1 V0 2 n k * (1 - t0 V0 n k) := by
  unfold res_main_v185
  exact pstage_of dot_S32768x512_S512x512_S32768x512_1_1_0_0_n_n rfl rfl rfl rfl rfl rfl rfl rfl _ _ _ _
    (g2 V0 2) (t1 V0) (wt V0 1) (t0 V0) (p181 V0) (a23 V0) (w16 V0) (o14 V0) n k

theorem d189 (n : Fin 32768) (a : Fin 4) : res_main_v189 V0 (ix2 n a) = ∑ k, g0 V0 2 n k * w0 V0 a k := by
  unfold res_main_v189
  exact final_of dot_S32768x512_S512x512_S32768x512_1_1_0_0_n_n rfl rfl rfl rfl rfl rfl rfl rfl dot_S32768x512_S4x512_S32768x4_1_1_0_0_n_n rfl rfl rfl rfl rfl rfl rfl rfl _ _ _ _
    (g1 V0 2) (t0 V0) (wt V0 0) (w0 V0) (p185 V0) (a12 V0) (w5 V0) (fun _ _ => rfl) n a

/-! ### Output 3 -/

theorem p194 (n : Fin 32768) (k : Fin 512) : res_main_v194 V0 (ix2 n k) = g7 V0 3 n k * (1 - t6 V0 n k) := by
  unfold res_main_v194
  exact seed_of dot_S32768x4_S512x4_S32768x512_1_1_0_0_n_n rfl rfl rfl rfl rfl rfl rfl rfl _ _ _
    (fun _ j => Cert.JacobianSpec.eye 3 j) (fun k j => aWf V0 (ix2 k j)) (t6 V0)
    (fun n j => (rowBcast1_apply _ _ n j).trans ((stackRow_apply (res_main_v90 V0) 3 3 rfl _ _ j).trans (e90 V0 3 j)))
    (fun _ _ => rfl) (o80 V0) n k

theorem p198 (n : Fin 32768) (k : Fin 512) : res_main_v198 V0 (ix2 n k) = g6 V0 3 n k * (1 - t5 V0 n k) := by
  unfold res_main_v198
  exact pstage_of dot_S32768x512_S512x512_S32768x512_1_1_0_0_n_n rfl rfl rfl rfl rfl rfl rfl rfl _ _ _ _
    (g7 V0 3) (t6 V0) (wt V0 6) (t5 V0) (p194 V0) (a78 V0) (w71 V0) (o69 V0) n k

theorem p202 (n : Fin 32768) (k : Fin 512) : res_main_v202 V0 (ix2 n k) = g5 V0 3 n k * (1 - t4 V0 n k) := by
  unfold res_main_v202
  exact pstage_of dot_S32768x512_S512x512_S32768x512_1_1_0_0_n_n rfl rfl rfl rfl rfl rfl rfl rfl _ _ _ _
    (g6 V0 3) (t5 V0) (wt V0 5) (t4 V0) (p198 V0) (a67 V0) (w60 V0) (o58 V0) n k

theorem p206 (n : Fin 32768) (k : Fin 512) : res_main_v206 V0 (ix2 n k) = g4 V0 3 n k * (1 - t3 V0 n k) := by
  unfold res_main_v206
  exact pstage_of dot_S32768x512_S512x512_S32768x512_1_1_0_0_n_n rfl rfl rfl rfl rfl rfl rfl rfl _ _ _ _
    (g5 V0 3) (t4 V0) (wt V0 4) (t3 V0) (p202 V0) (a56 V0) (w49 V0) (o47 V0) n k

theorem p210 (n : Fin 32768) (k : Fin 512) : res_main_v210 V0 (ix2 n k) = g3 V0 3 n k * (1 - t2 V0 n k) := by
  unfold res_main_v210
  exact pstage_of dot_S32768x512_S512x512_S32768x512_1_1_0_0_n_n rfl rfl rfl rfl rfl rfl rfl rfl _ _ _ _
    (g4 V0 3) (t3 V0) (wt V0 3) (t2 V0) (p206 V0) (a45 V0) (w38 V0) (o36 V0) n k

theorem p214 (n : Fin 32768) (k : Fin 512) : res_main_v214 V0 (ix2 n k) = g2 V0 3 n k * (1 - t1 V0 n k) := by
  unfold res_main_v214
  exact pstage_of dot_S32768x512_S512x512_S32768x512_1_1_0_0_n_n rfl rfl rfl rfl rfl rfl rfl rfl _ _ _ _
    (g3 V0 3) (t2 V0) (wt V0 2) (t1 V0) (p210 V0) (a34 V0) (w27 V0) (o25 V0) n k

theorem p218 (n : Fin 32768) (k : Fin 512) : res_main_v218 V0 (ix2 n k) = g1 V0 3 n k * (1 - t0 V0 n k) := by
  unfold res_main_v218
  exact pstage_of dot_S32768x512_S512x512_S32768x512_1_1_0_0_n_n rfl rfl rfl rfl rfl rfl rfl rfl _ _ _ _
    (g2 V0 3) (t1 V0) (wt V0 1) (t0 V0) (p214 V0) (a23 V0) (w16 V0) (o14 V0) n k

theorem d222 (n : Fin 32768) (a : Fin 4) : res_main_v222 V0 (ix2 n a) = ∑ k, g0 V0 3 n k * w0 V0 a k := by
  unfold res_main_v222
  exact final_of dot_S32768x512_S512x512_S32768x512_1_1_0_0_n_n rfl rfl rfl rfl rfl rfl rfl rfl dot_S32768x512_S4x512_S32768x4_1_1_0_0_n_n rfl rfl rfl rfl rfl rfl rfl rfl _ _ _ _
    (g1 V0 3) (t0 V0) (wt V0 0) (w0 V0) (p218 V0) (a12 V0) (w5 V0) (fun _ _ => rfl) n a

/-! ## The result -/

/-- The reference run's result term, over any contents of the buffers at launch, is the backward arrangement of the
    Jacobian of the six argument arrays: entry `(n, c)` is column `c` of the wiring of the rows
    `∂(output ·)/∂(input a)`, `a = 0, 1, 2`, each the array of one backward pass read at `(n, a)`. -/
theorem result_eq :
    (concatenate S32768x6 1 [⟨S32768x1, (broadcastInDim S32768x1 ![0] bcast_S32768_S32768x1_0 (subf (shapeCast _ (extractStridedSlice S32768x1 ![0, 1] (res_main_v189 V0) slices_S32768x4_S32768x1_0_1) shapeCasts_S32768x1_S32768) (shapeCast _ (extractStridedSlice S32768x1 ![0, 2] (res_main_v156 V0) slices_S32768x4_S32768x1_0_2) shapeCasts_S32768x1_S32768)))⟩, ⟨S32768x1, (broadcastInDim S32768x1 ![0] bcast_S32768_S32768x1_0 (subf (shapeCast _ (extractStridedSlice S32768x1 ![0, 2] (res_main_v123 V0) slices_S32768x4_S32768x1_0_2) shapeCasts_S32768x1_S32768) (shapeCast _ (extractStridedSlice S32768x1 ![0, 0] (res_main_v189 V0) slices_S32768x4_S32768x1_0_0) shapeCasts_S32768x1_S32768)))⟩, ⟨S32768x1, (broadcastInDim S32768x1 ![0] bcast_S32768_S32768x1_0 (subf (shapeCast _ (extractStridedSlice S32768x1 ![0, 0] (res_main_v156 V0) slices_S32768x4_S32768x1_0_0) shapeCasts_S32768x1_S32768) (shapeCast _ (extractStridedSlice S32768x1 ![0, 1] (res_main_v123 V0) slices_S32768x4_S32768x1_0_1) shapeCasts_S32768x1_S32768)))⟩, ⟨S32768x1, (broadcastInDim S32768x1 ![0] bcast_S32768_S32768x1_0 (shapeCast _ (extractStridedSlice S32768x1 ![0, 0] (res_main_v222 V0) slices_S32768x4_S32768x1_0_0) shapeCasts_S32768x1_S32768))⟩, ⟨S32768x1, (broadcastInDim S32768x1 ![0] bcast_S32768_S32768x1_0 (shapeCast _ (extractStridedSlice S32768x1 ![0, 1] (res_main_v222 V0) slices_S32768x4_S32768x1_0_1) shapeCasts_S32768x1_S32768))⟩, ⟨S32768x1, (broadcastInDim S32768x1 ![0] bcast_S32768_S32768x1_0 (shapeCast _ (extractStridedSlice S32768x1 ![0, 2] (res_main_v222 V0) slices_S32768x4_S32768x1_0_2) shapeCasts_S32768x1_S32768))⟩] concatenates_S32768x1_S32768x1_S32768x1_S32768x1_S32768x1_S32768x1_S32768x6_d1 : FVec Ideal S32768x6 .f32)
      = Cert.JacobianSpec.specR (aX V0) (aW0 V0) (ab0 V0) (aWh V0) (abh V0) (aWf V0) := by
  funext i
  obtain ⟨n, c, rfl⟩ : ∃ (n : Fin 32768) (c : Fin 6), i = ix2 n c := ⟨i 0, i 1, eq_ix2 i⟩
  have hR : Cert.JacobianSpec.specR (aX V0) (aW0 V0) (ab0 V0) (aWh V0) (abh V0) (aWf V0) (ix2 n c)
      = Cert.JacobianSpec.wire (fun o => ∑ k, g0 V0 o n k * w0 V0 0 k) (fun o => ∑ k, g0 V0 o n k * w0 V0 1 k)
          (fun o => ∑ k, g0 V0 o n k * w0 V0 2 k) c := rfl
  rw [hR]
  match c with
  | ⟨0, _⟩ =>
    refine (concat6_apply _ _ _ _ _ _ _ n ⟨0, by decide⟩ _ rfl).trans ?_
    refine (diffCol_apply _ _ 1 2 1 2 rfl rfl _ _ _ _ n 0).trans ?_
    exact congrArg₂ (· - ·) (d189 V0 n 1) (d156 V0 n 2)
  | ⟨1, _⟩ =>
    refine (concat6_apply _ _ _ _ _ _ _ n ⟨1, by decide⟩ _ rfl).trans ?_
    refine (diffCol_apply _ _ 2 0 2 0 rfl rfl _ _ _ _ n 0).trans ?_
    exact congrArg₂ (· - ·) (d123 V0 n 2) (d189 V0 n 0)
  | ⟨2, _⟩ =>
    refine (concat6_apply _ _ _ _ _ _ _ n ⟨2, by decide⟩ _ rfl).trans ?_
    refine (diffCol_apply _ _ 0 1 0 1 rfl rfl _ _ _ _ n 0).trans ?_
    exact congrArg₂ (· - ·) (d156 V0 n 0) (d123 V0 n 1)
  | ⟨3, _⟩ =>
    refine (concat6_apply _ _ _ _ _ _ _ n ⟨3, by decide⟩ _ rfl).trans ?_
    refine (plainCol_apply _ 0 0 rfl _ _ _ n 0).trans ?_
    exact d222 V0 n 0
  | ⟨4, _⟩ =>
    refine (concat6_apply _ _ _ _ _ _ _ n ⟨4, by decide⟩ _ rfl).trans ?_
    refine (plainCol_apply _ 1 1 rfl _ _ _ n 0).trans ?_
    exact d222 V0 n 1
  | ⟨5, _⟩ =>
    refine (concat6_apply _ _ _ _ _ _ _ n ⟨5, by decide⟩ _ rfl).trans ?_
    refine (plainCol_apply _ 2 2 rfl _ _ _ n 0).trans ?_
    exact d222 V0 n 2

/-- On every device, from any memory with zero counters, every weakly fair execution of the reference terminates with
    its result buffer holding the backward arrangement of the Jacobian of the argument arrays as they were at launch, and
    the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v250)
          = Cert.JacobianSpec.specR (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ h c => ⟨(h c).1.trans (result_eq (launchContents m c)), (h c).2⟩)
    (Cert.ReferenceIdeal.Value.run (F := Ideal) m ρ)

end Cert.ReferenceIdeal.RefValue

end
-- ==== Proof.lean ====
/-
  The kernel computes, tile by tile, the Jacobian of a seven-layer tanh network by FORWARD tangent propagation
  (three tangents pushed through the layers beside the hidden row, one stacked matrix product per layer) and wires
  twelve of its entries into six output columns; the reference obtains the same entries by REVERSE mode (four
  cotangents pulled back through the layers).  At the ideal values both are sums of products of the same factors:

  * the idealized kernel's output array is `JacobianSpec.specK` of the argument arrays (`KernelTile.out_eq` for one
    tile's block, `KernelIdeal.BlockValue.run_spec` from the blocks to the array);
  * the idealized reference's result is `JacobianSpec.specR` of them (`ReferenceIdeal.RefValue.run_spec`);
  * the two arrays are equal when the weight arrays hold real numbers (`JacobianSpec.specR_eq_specK`: forward mode
    paired with a cotangent is the tangent paired with reverse mode, `TangentChain.pair_chainE`, by exchanging finite
    sums layer by layer — the one place where finiteness of the inputs is used, `RealWeights.weights_real`; the
    activations are values of tanh and always real).

  The three frames are the programs' runs with the results forgotten; the idealization rewrote nothing.
-/
import proofs.«179046_j18021682774229_2_alg».proof.Defs
import proofs.«179046_j18021682774229_2_alg».proof.Proof.Gen.Kernel
import proofs.«179046_j18021682774229_2_alg».proof.Proof.Gen.Kernel.Skeleton
import proofs.«179046_j18021682774229_2_alg».proof.Proof.Gen.Kernel.Launch
import proofs.«179046_j18021682774229_2_alg».proof.Proof.Gen.Kernel.Points
import proofs.«179046_j18021682774229_2_alg».proof.Proof.Gen.Kernel.Frame
import proofs.«179046_j18021682774229_2_alg».proof.Proof.Gen.KernelIdeal
import proofs.«179046_j18021682774229_2_alg».proof.Proof.Gen.KernelIdeal.Skeleton
import proofs.«179046_j18021682774229_2_alg».proof.Proof.Gen.KernelIdeal.Launch
import proofs.«179046_j18021682774229_2_alg».proof.Proof.Gen.KernelIdeal.Points
import proofs.«179046_j18021682774229_2_alg».proof.Proof.Gen.KernelIdeal.Frame
import proofs.«179046_j18021682774229_2_alg».proof.Proof.Gen.ReferenceIdeal
import proofs.«179046_j18021682774229_2_alg».proof.Proof.Gen.Pre_finite_inputs
import proofs.«179046_j18021682774229_2_alg».proof.Proof.Gen.ReferenceIdeal.Run
import proofs.«179046_j18021682774229_2_alg».proof.Proof.RealWeights
import proofs.«179046_j18021682774229_2_alg».proof.Proof.KernelTile
import proofs.«179046_j18021682774229_2_alg».proof.Proof.KernelBlocks
import proofs.«179046_j18021682774229_2_alg».proof.Proof.ReferenceRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel ends at the forward-mode array of its arguments and the reference
    at the reverse-mode array of the same arguments; the weights are finite, so the two arrays are one. -/
theorem algebraic : Cert.algebraic_KernelIdeal_ReferenceIdeal := by
  intro m ρ m' ρ' hpre hagree
  refine ⟨_, Cert.KernelIdeal.BlockValue.run_spec Cert.KernelTile.out_eq m ρ, ?_⟩
  refine (θ_run Cert.ReferenceIdeal.defs _ _).mono (fun _ h c => ⟨(h c).1.trans ?_, (h c).2⟩)
    (Cert.ReferenceIdeal.RefValue.run_spec m' ρ')
  obtain ⟨a0, a1, a2, a3, a4, a5, -⟩ := hagree c
  rw [a0, a1, a2, a3, a4, a5]
  obtain ⟨hW0, hWh, hWf⟩ := Cert.RealWeights.weights_real _ _ _ _ _ _ _ (hpre c)
  exact Cert.JacobianSpec.specR_eq_specK _ _ _ _ _ _ hW0 hWh hWf

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
